-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S4x2048x16x64 : Shape := ⟨4, ![4, 2048, 16, 64]⟩
abbrev S4x16x2048x64 : Shape := ⟨4, ![4, 16, 2048, 64]⟩
abbrev S64x2048x64 : Shape := ⟨3, ![64, 2048, 64]⟩
abbrev S1x2048x64 : Shape := ⟨3, ![1, 2048, 64]⟩
abbrev S1x512x64 : Shape := ⟨3, ![1, 512, 64]⟩
abbrev S2048x64 : Shape := ⟨2, ![2048, 64]⟩
abbrev S512x64 : Shape := ⟨2, ![512, 64]⟩
abbrev S64x512 : Shape := ⟨2, ![64, 512]⟩
abbrev S2048x512 : Shape := ⟨2, ![2048, 512]⟩

abbrev nBuf : Space → Nat
  | .hbm => 40
  | .vmem => 33
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S1024x1024, .f32⟩
  | .hbm, ⟨15, _⟩ => ⟨S1x1024, .f32⟩
  | .hbm, ⟨16, _⟩ => ⟨S8192x1024, .f32⟩
  | .hbm, ⟨17, _⟩ => ⟨S1024x1024, .f32⟩
  | .hbm, ⟨18, _⟩ => ⟨S1x1024, .f32⟩
  | .hbm, ⟨19, _⟩ => ⟨S8192x1024, .f32⟩
  | .hbm, ⟨20, _⟩ => ⟨S1024x1024, .f32⟩
  | .hbm, ⟨21, _⟩ => ⟨S1x1024, .f32⟩
  | .hbm, ⟨22, _⟩ => ⟨S8192x1024, .f32⟩
  | .hbm, ⟨23, _⟩ => ⟨S4x2048x16x64, .f32⟩
  | .hbm, ⟨24, _⟩ => ⟨S4x16x2048x64, .f32⟩
  | .hbm, ⟨25, _⟩ => ⟨S64x2048x64, .f32⟩
  | .hbm, ⟨26, _⟩ => ⟨S4x2048x16x64, .f32⟩
  | .hbm, ⟨27, _⟩ => ⟨S4x16x2048x64, .f32⟩
  | .hbm, ⟨28, _⟩ => ⟨S64x2048x64, .f32⟩
  | .hbm, ⟨29, _⟩ => ⟨S4x2048x16x64, .f32⟩
  | .hbm, ⟨30, _⟩ => ⟨S4x16x2048x64, .f32⟩
  | .hbm, ⟨31, _⟩ => ⟨S64x2048x64, .f32⟩
  | .hbm, ⟨32, _⟩ => ⟨S64x2048x64, .f32⟩
  | .hbm, ⟨33, _⟩ => ⟨S4x16x2048x64, .f32⟩
  | .hbm, ⟨34, _⟩ => ⟨S4x2048x16x64, .f32⟩
  | .hbm, ⟨35, _⟩ => ⟨S8192x1024, .f32⟩
  | .hbm, ⟨36, _⟩ => ⟨S1024x1024, .f32⟩
  | .hbm, ⟨37, _⟩ => ⟨S1x1024, .f32⟩
  | .hbm, ⟨38, _⟩ => ⟨S8192x1024, .f32⟩
  | .hbm, ⟨39, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1024x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1x2048x64, .f32⟩
  | .local _ .vmem, ⟨19, _⟩ => ⟨S1x2048x64, .f32⟩
  | .local _ .vmem, ⟨20, _⟩ => ⟨S1x512x64, .f32⟩
  | .local _ .vmem, ⟨21, _⟩ => ⟨S1x512x64, .f32⟩
  | .local _ .vmem, ⟨22, _⟩ => ⟨S1x512x64, .f32⟩
  | .local _ .vmem, ⟨23, _⟩ => ⟨S1x512x64, .f32⟩
  | .local _ .vmem, ⟨24, _⟩ => ⟨S1x2048x64, .f32⟩
  | .local _ .vmem, ⟨25, _⟩ => ⟨S1x2048x64, .f32⟩
  | .local _ .vmem, ⟨26, _⟩ => ⟨S2048x64, .f32⟩
  | .local _ .vmem, ⟨27, _⟩ => ⟨S512x1024, .f32⟩
  | .local _ .vmem, ⟨28, _⟩ => ⟨S512x1024, .f32⟩
  | .local _ .vmem, ⟨29, _⟩ => ⟨S1024x1024, .f32⟩
  | .local _ .vmem, ⟨30, _⟩ => ⟨S1x1024, .f32⟩
  | .local _ .vmem, ⟨31, _⟩ => ⟨S512x1024, .f32⟩
  | .local _ .vmem, ⟨32, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_scratch0 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg3_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![64, 4], ![false, false]⟩

def k3_cond2 (i : grid3.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_15 : BitVec 32 := 0#32
  let v26 : BitVec 1 := Scalar.cmpi .ne v25 c0_i32_15
  v26

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x2048x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x512x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x512x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x2048x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S4x2048x1024_S8192x1024 : S4x2048x1024.ShapeCasts S8192x1024
  transposes_S1024x1024_S1024x1024_1_0 : S1024x1024.Transposes [1, 0] S1024x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x1024_S4x2048x16x64 : S8192x1024.ShapeCasts S4x2048x16x64
  transposes_S4x2048x16x64_S4x16x2048x64_0_2_1_3 : S4x2048x16x64.Transposes [0, 2, 1, 3] S4x16x2048x64
  shapeCasts_S4x16x2048x64_S64x2048x64 : S4x16x2048x64.ShapeCasts S64x2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  transposes_S512x64_p1_0_S64x512 : S512x64.Transposes [1, 0] S64x512
  shapeCasts_S2048x64_S1x2048x64 : S2048x64.ShapeCasts S1x2048x64
  shapeCasts_S64x2048x64_S4x16x2048x64 : S64x2048x64.ShapeCasts S4x16x2048x64
  transposes_S4x16x2048x64_S4x2048x16x64_0_2_1_3 : S4x16x2048x64.Transposes [0, 2, 1, 3] S4x2048x16x64
  shapeCasts_S4x2048x16x64_S8192x1024 : S4x2048x16x64.ShapeCasts S8192x1024
  shapeCasts_S8192x1024_S4x2048x1024 : S8192x1024.ShapeCasts S4x2048x1024
  dot_S512x1024_S1024x1024_S512x1024_1_0_0_1_n_n_wf : DotDims.WF S512x1024 S1024x1024 S512x1024 [1] [0] [0] [1] [] []
  dot_S2048x64_S64x512_S2048x512_1_0_0_1_n_n_wf : DotDims.WF S2048x64 S64x512 S2048x512 [1] [0] [0] [1] [] []
  dot_S2048x512_S512x64_S2048x64_1_0_0_1_n_n_wf : DotDims.WF S2048x512 S512x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x1024.size a
  hwx1_3 : ∀ i : grid1.Coords, EltTy.bits .f32 = 32 ∨ (Rect.block (s := S8192x1024) S512x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .f32 = 32 ∨ (Rect.block (s := S8192x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x2048x64.size a ≤ S64x2048x64.size a
  hwx3_0 : ∀ i : grid3.Coords, EltTy.bits .f32 = 32 ∨ (Rect.block (s := S64x2048x64) S1x2048x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x512x64.size a ≤ S64x2048x64.size a
  hwx3_1 : ∀ i : grid3.Coords, EltTy.bits .f32 = 32 ∨ (Rect.block (s := S64x2048x64) S1x512x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x512x64.size a ≤ S64x2048x64.size a
  hwx3_2 : ∀ i : grid3.Coords, EltTy.bits .f32 = 32 ∨ (Rect.block (s := S64x2048x64) S1x512x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x2048x64.size a ≤ S64x2048x64.size a
  hwx3_3 : ∀ i : grid3.Coords, EltTy.bits .f32 = 32 ∨ (Rect.block (s := S64x2048x64) S1x2048x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S8192x1024.size a
  hwx4_0 : ∀ i : grid4.Coords, EltTy.bits .f32 = 32 ∨ (Rect.block (s := S8192x1024) S512x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S8192x1024.size a
  hwx4_3 : ∀ i : grid4.Coords, EltTy.bits .f32 = 32 ∨ (Rect.block (s := S8192x1024) S512x1024.size (cc4_transform_3 i) (hinb4_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v14) S1x2048x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S1x512x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v20) S1x512x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v21) S1x2048x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v24) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v25) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v26) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v27) S512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x16x64, .f32⟩
  | .hbm, ⟨16, _⟩ => ⟨S4x16x2048x64, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x16x64, .f32⟩
  | .hbm, ⟨22, _⟩ => ⟨S4x16x2048x64, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x2048x16x64, .f32⟩
  | .hbm, ⟨28, _⟩ => ⟨S4x16x2048x64, .f32⟩
  | .hbm, ⟨29, _⟩ => ⟨S4x16x2048x2048, .f32⟩
  | .hbm, ⟨30, _⟩ => ⟨S_, .f32⟩
  | .hbm, ⟨31, _⟩ => ⟨S_, .f32⟩
  | .hbm, ⟨32, _⟩ => ⟨S4x16x2048x2048, .f32⟩
  | .hbm, ⟨33, _⟩ => ⟨S4x16x2048x2048, .f32⟩
  | .hbm, ⟨34, _⟩ => ⟨S4x16x2048x2048, .f32⟩
  | .hbm, ⟨35, _⟩ => ⟨S4x16x2048x2048, .f32⟩
  | .hbm, ⟨36, _⟩ => ⟨S_, .f32⟩
  | .hbm, ⟨37, _⟩ => ⟨S4x16x2048x2048, .f32⟩
  | .hbm, ⟨38, _⟩ => ⟨S4x16x2048x2048, .f32⟩
  | .hbm, ⟨39, _⟩ => ⟨S_, .f32⟩
  | .hbm, ⟨40, _⟩ => ⟨S4x16x2048x2048, .f32⟩
  | .hbm, ⟨41, _⟩ => ⟨S4x16x2048x2048, .f32⟩
  | .hbm, ⟨42, _⟩ => ⟨S4x16x2048x64, .f32⟩
  | .hbm, ⟨43, _⟩ => ⟨S4x2048x16x64, .f32⟩
  | .hbm, ⟨44, _⟩ => ⟨S4x2048x1024, .f32⟩
  | .hbm, ⟨45, _⟩ => ⟨S4x2048x1024, .f32⟩
  | .hbm, ⟨46, _⟩ => ⟨S1x1x1024, .f32⟩
  | .hbm, ⟨47, _⟩ => ⟨S4x2048x1024, .f32⟩
  | .hbm, ⟨48, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.KLin0.lean ====
/-
  The first projection kernel (pipeline 0 of @main: a 512-row block of the activations times the whole transposed
  weight, plus the bias row) on its sixteen grid points, stated at a PARAMETER `V`, the contents of the core's buffers
  when the region is entered. Each input window's block is a restriction of its array (`iblk0`), fetched or kept in
  place; the body loads the three input blocks, loads the output buffer once and overwrites all of it with
  `k0_pay1` of the three loads (`out0_3`); so after the body every input buffer holds its block and the output buffer
  holds `out0_3` of them. This is the body obligation of the pipeline library for proof data `dat0`.
  Nothing here depends on the float instance.
-/
import proofs.«143932_j22789096473378_1_alg».proof.Proof.Gen.Kernel.Launch
import proofs.«143932_j22789096473378_1_alg».proof.Proof.Gen.Kernel.Skeleton
import proofs.«143932_j22789096473378_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Lin0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the restriction of its array, as the region finds it, to the block's rectangle. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point: fetched there, or fetched earlier at the same
    block index and left in place by the body (the three input windows, one statement each). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- The output buffer after the body, from the three input blocks: one store of the whole buffer. -/
def out0_3 (x0 : Vec F S512x1024 .f32) (x1 : Vec F S1024x1024 .f32) (x2 : Vec F S1x1024 .f32) : Vec F S512x1024 .f32 :=
  View.canon [⟨rX, k0_pay1 (View.ld x0 rX) (View.ld x1 rW) (View.ld x2 rB)⟩]

/-- The one store covers the buffer. -/
theorem cover0_3 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

set_option maxHeartbeats 1000000 in
/-- The body on whole staging memrefs, the inputs' at contents `x0 x1 x2` and the output's at anything, runs to the
    continuation with the inputs' as they were and the output's at `out0_3`. -/
theorem sound_kernel0 (c : Dev nD) (E : Set ℕ) (i : grid0.Coords)
    (arg1 : Memref sig .tc .vmem S512x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input's buffer at its block and the output's at `out0_3` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Lin0

end
-- ==== Proof.KLin1.lean ====
/-
  The second projection kernel (pipeline 1 of @main: a 512-row block of the activations times the whole transposed
  weight, plus the bias row) on its sixteen grid points, stated at a PARAMETER `V`, the contents of the core's buffers
  when the region is entered. Each input window's block is a restriction of its array (`iblk1`), fetched or kept in
  place; the body loads the three input blocks, loads the output buffer once and overwrites all of it with
  `k1_pay1` of the three loads (`out1_3`); so after the body every input buffer holds its block and the output buffer
  holds `out1_3` of them. This is the body obligation of the pipeline library for proof data `dat1`.
  Nothing here depends on the float instance.
-/
import proofs.«143932_j22789096473378_1_alg».proof.Proof.Gen.Kernel.Launch
import proofs.«143932_j22789096473378_1_alg».proof.Proof.Gen.Kernel.Skeleton
import proofs.«143932_j22789096473378_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Lin1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the restriction of its array, as the region finds it, to the block's rectangle. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point: fetched there, or fetched earlier at the same
    block index and left in place by the body (the three input windows, one statement each). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- The output buffer after the body, from the three input blocks: one store of the whole buffer. -/
def out1_3 (x0 : Vec F S512x1024 .f32) (x1 : Vec F S1024x1024 .f32) (x2 : Vec F S1x1024 .f32) : Vec F S512x1024 .f32 :=
  View.canon [⟨rX, k1_pay1 (View.ld x0 rX) (View.ld x1 rW) (View.ld x2 rB)⟩]

/-- The one store covers the buffer. -/
theorem cover1_3 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

set_option maxHeartbeats 1000000 in
/-- The body on whole staging memrefs, the inputs' at contents `x0 x1 x2` and the output's at anything, runs to the
    continuation with the inputs' as they were and the output's at `out1_3`. -/
theorem sound_kernel1 (c : Dev nD) (E : Set ℕ) (i : grid1.Coords)
    (arg1 : Memref sig .tc .vmem S512x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body at point `t` each
    input's buffer at its block and the output's at `out1_3` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Lin1

end
-- ==== Proof.KLin2.lean ====
/-
  The third projection kernel (pipeline 2 of @main: a 512-row block of the activations times the whole transposed
  weight, plus the bias row) on its sixteen grid points, stated at a PARAMETER `V`, the contents of the core's buffers
  when the region is entered. Each input window's block is a restriction of its array (`iblk2`), fetched or kept in
  place; the body loads the three input blocks, loads the output buffer once and overwrites all of it with
  `k2_pay1` of the three loads (`out2_3`); so after the body every input buffer holds its block and the output buffer
  holds `out2_3` of them. This is the body obligation of the pipeline library for proof data `dat2`.
  Nothing here depends on the float instance.
-/
import proofs.«143932_j22789096473378_1_alg».proof.Proof.Gen.Kernel.Launch
import proofs.«143932_j22789096473378_1_alg».proof.Proof.Gen.Kernel.Skeleton
import proofs.«143932_j22789096473378_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Lin2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the restriction of its array, as the region finds it, to the block's rectangle. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point: fetched there, or fetched earlier at the same
    block index and left in place by the body (the three input windows, one statement each). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- The output buffer after the body, from the three input blocks: one store of the whole buffer. -/
def out2_3 (x0 : Vec F S512x1024 .f32) (x1 : Vec F S1024x1024 .f32) (x2 : Vec F S1x1024 .f32) : Vec F S512x1024 .f32 :=
  View.canon [⟨rX, k2_pay1 (View.ld x0 rX) (View.ld x1 rW) (View.ld x2 rB)⟩]

/-- The one store covers the buffer. -/
theorem cover2_3 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

set_option maxHeartbeats 1000000 in
/-- The body on whole staging memrefs, the inputs' at contents `x0 x1 x2` and the output's at anything, runs to the
    continuation with the inputs' as they were and the output's at `out2_3`. -/
theorem sound_kernel2 (c : Dev nD) (E : Set ℕ) (i : grid2.Coords)
    (arg1 : Memref sig .tc .vmem S512x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t` each
    input's buffer at its block and the output's at `out2_3` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Lin2

end
-- ==== Proof.KLin4.lean ====
/-
  The output projection kernel (pipeline 4 of @main: a 512-row block of the activations times the whole transposed
  weight, plus the bias row) on its sixteen grid points, stated at a PARAMETER `V`, the contents of the core's buffers
  when the region is entered. Each input window's block is a restriction of its array (`iblk4`), fetched or kept in
  place; the body loads the three input blocks, loads the output buffer once and overwrites all of it with
  `k4_pay1` of the three loads (`out4_3`); so after the body every input buffer holds its block and the output buffer
  holds `out4_3` of them. This is the body obligation of the pipeline library for proof data `dat4`.
  Nothing here depends on the float instance.
-/
import proofs.«143932_j22789096473378_1_alg».proof.Proof.Gen.Kernel.Launch
import proofs.«143932_j22789096473378_1_alg».proof.Proof.Gen.Kernel.Skeleton
import proofs.«143932_j22789096473378_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Lin4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the restriction of its array, as the region finds it, to the block's rectangle. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current buffer holds its block at every point: fetched there, or fetched earlier at the same
    block index and left in place by the body (the three input windows, one statement each). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- The output buffer after the body, from the three input blocks: one store of the whole buffer. -/
def out4_3 (x0 : Vec F S512x1024 .f32) (x1 : Vec F S1024x1024 .f32) (x2 : Vec F S1x1024 .f32) : Vec F S512x1024 .f32 :=
  View.canon [⟨rX, k4_pay1 (View.ld x0 rX) (View.ld x1 rW) (View.ld x2 rB)⟩]

/-- The one store covers the buffer. -/
theorem cover4_3 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

set_option maxHeartbeats 1000000 in
/-- The body on whole staging memrefs, the inputs' at contents `x0 x1 x2` and the output's at anything, runs to the
    continuation with the inputs' as they were and the output's at `out4_3`. -/
theorem sound_kernel4 (c : Dev nD) (E : Set ℕ) (i : grid4.Coords)
    (arg1 : Memref sig .tc .vmem S512x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data of pipeline 4 on core `c`: the arrays as the region finds them; after the body at point `t` each
    input's buffer at its block and the output's at `out4_3` of the input blocks; the invariant the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Lin4

end
-- ==== Proof.KAttn3Base.lean ====
/-
  The attention kernel (pipeline 3 of @main) on its 64 × 4 grid: for a fixed batch-head the four points walk the four
  512-row key/value blocks; the kernel zeroes its scratch accumulator at the first of them, adds one block's
  `sigmoid(q kᵀ / 8) v` at each, and copies the accumulator into the output block at the last. This module: which of the
  three cases a point is in (first / middle / last of its group of four), where the output window is idle, the blocks
  of the input windows, and the region invariant's shape with the scratch buffer taken out of the scoped rest.
-/
import proofs.«143932_j22789096473378_1_alg».proof.Proof.Gen.Kernel.Launch
import proofs.«143932_j22789096473378_1_alg».proof.Proof.Gen.Kernel.Skeleton
import proofs.«143932_j22789096473378_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the restriction of its array, as the region finds it, to the block's rectangle. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The point is the first of its group of four (the key-block coordinate is 0): the kernel zeroes the accumulator. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)
/-- The point is the last of its group of four (the key-block coordinate is 3): the kernel writes the output block. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Where the kernel does not store the output block the window is idle and is not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

/-- One staging buffer of the output window, through which its contents are stated. -/
abbrev VO3 : View sig .tc .vmem S1x2048x64 .f32 := (Memref.whole cc3_stg3_0 : Memref sig .tc .vmem S1x2048x64 .f32).view
abbrev ms3_0 (t : Fin cfg3.N) : Memref sig .tc .vmem S1x2048x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x512x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x2048x64 .f32 := win3_3.stage (cfg3.slots t 3)
abbrev hs3_3 (t : Fin cfg3.N) : (ms3_3 t).IsWhole := hstage3_3 ((cfg3.slots t 3).cast nbuf3_3)
/-- The scratch accumulator: a whole scoped buffer of the kernel's own. -/
abbrev scM3 : Memref sig .tc .vmem S2048x64 .f32 := Memref.whole cc3_scratch0
abbrev VS3 : View sig .tc .vmem S2048x64 .f32 := scM3.view

/-- The class invariant with the scratch buffer taken out of the scoped rest: the accumulator owned at some contents,
    the other scoped buffers unopened, the generator register at some state. -/
theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

end Cert.Kernel.Attn3

end
-- ==== Proof.KAttn3RunA.lean ====
/- The attention kernel's body at a point that is the first of its group of four: the accumulator is zeroed, then one
   key/value block's contribution is added; nothing is stored into the output buffer. -/
import proofs.«143932_j22789096473378_1_alg».proof.Proof.KAttn3Base

set_option maxRecDepth 16384

noncomputable section

namespace Cert.Kernel.Attn3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer and in the accumulator in this case, with the run: on whole
    staging memrefs holding the three input blocks the body runs to the continuation with the inputs as they were and
    each stored buffer with its pieces written. The pieces are the witness the symbolic run finds. -/
noncomputable def kernelRun3_A (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : cond3_0 i) (hc1 : ¬cond3_1 i)
    (x0 : Vec F S1x2048x64 .f32) (x1 : Vec F S1x512x64 .f32) (x2 : Vec F S1x512x64 .f32) :
    Σ' (L3 : List (View.Piece (Elt F) S1x2048x64 .f32)), { LS : List (View.Piece (Elt F) S2048x64 .f32) //
      ∀ (xi3 : Vec F S1x2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc3__attn_kernel i arg2 harg2 arg3 harg3 arg4 harg4 arg5 harg5 arg6 harg6) K } := by
  refine ⟨[], ?_, fun xi3 E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Attn3

end
-- ==== Proof.KAttn3RunB.lean ====
/- The attention kernel's body at a middle point of its group of four: one key/value block's contribution is added to the
   accumulator the point before left; nothing is stored into the output buffer. -/
import proofs.«143932_j22789096473378_1_alg».proof.Proof.KAttn3Base

set_option maxRecDepth 16384

noncomputable section

namespace Cert.Kernel.Attn3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer and in the accumulator in this case, with the run: on whole
    staging memrefs holding the three input blocks the body runs to the continuation with the inputs as they were and
    each stored buffer with its pieces written. The pieces are the witness the symbolic run finds. -/
noncomputable def kernelRun3_B (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : ¬cond3_0 i) (hc1 : ¬cond3_1 i)
    (x0 : Vec F S1x2048x64 .f32) (x1 : Vec F S1x512x64 .f32) (x2 : Vec F S1x512x64 .f32) (xs : Vec F S2048x64 .f32) :
    Σ' (L3 : List (View.Piece (Elt F) S1x2048x64 .f32)), { LS : List (View.Piece (Elt F) S2048x64 .f32) //
      ∀ (xi3 : Vec F S1x2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc3__attn_kernel i arg2 harg2 arg3 harg3 arg4 harg4 arg5 harg5 arg6 harg6) K } := by
  refine ⟨[], ?_, fun xi3 E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Attn3

end
-- ==== Proof.KAttn3RunC.lean ====
/- The attention kernel's body at the last point of its group of four: the last key/value block's contribution is added to
   the accumulator, and the accumulator is stored into the output buffer. -/
import proofs.«143932_j22789096473378_1_alg».proof.Proof.KAttn3Base

set_option maxRecDepth 16384

noncomputable section

namespace Cert.Kernel.Attn3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer and in the accumulator in this case, with the run: on whole
    staging memrefs holding the three input blocks the body runs to the continuation with the inputs as they were and
    each stored buffer with its pieces written. The pieces are the witness the symbolic run finds. -/
noncomputable def kernelRun3_C (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : ¬cond3_0 i) (hc1 : cond3_1 i)
    (x0 : Vec F S1x2048x64 .f32) (x1 : Vec F S1x512x64 .f32) (x2 : Vec F S1x512x64 .f32) (xs : Vec F S2048x64 .f32) :
    Σ' (L3 : List (View.Piece (Elt F) S1x2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc3__attn_kernel i arg2 harg2 arg3 harg3 arg4 harg4 arg5 harg5 arg6 harg6) K } := by
  refine ⟨?_, ?_, fun E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Attn3

end
-- ==== Proof.KAttn3.lean ====
/-
  The attention kernel (pipeline 3 of @main), all of its region: what the accumulator and the output buffer hold after
  every grid point (`outsAt3`: the case the point is in, run on the point's input blocks over what the point before left
  in the accumulator), the region invariant that carries the accumulator from point to point (`PhiS`), the proof data of
  the pipeline and the body obligation at every point.
-/
import proofs.«143932_j22789096473378_1_alg».proof.Proof.KAttn3RunA
import proofs.«143932_j22789096473378_1_alg».proof.Proof.KAttn3RunB
import proofs.«143932_j22789096473378_1_alg».proof.Proof.KAttn3RunC

set_option maxRecDepth 16384

noncomputable section

namespace Cert.Kernel.Attn3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator's pieces in this case cover it. -/
theorem scover3_A (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : cond3_0 i) (hc1 : ¬cond3_1 i) (x0 : Vec F S1x2048x64 .f32) (x1 : Vec F S1x512x64 .f32) (x2 : Vec F S1x512x64 .f32) (y : S2048x64.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S2048x64.size (by sl_kernel_rfl) y
/-- What this case leaves in the accumulator: its pieces read back. -/
def sout3_A (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : cond3_0 i) (hc1 : ¬cond3_1 i) (x0 : Vec F S1x2048x64 .f32) (x1 : Vec F S1x512x64 .f32) (x2 : Vec F S1x512x64 .f32) : Vec F S2048x64 .f32 :=
  VS3.read (Elt F) (VS3.writes (Elt F) VS3.junk (kernelRun3_A c i arg2 harg2 arg3 harg3 arg4 harg4 arg5 harg5 arg6 harg6 hc0 hc1 x0 x1 x2).2.1)
/-- What this case leaves in the output buffer (nothing is stored: a placeholder nothing consults, the window being idle and not written back here). -/
def out3_A (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : cond3_0 i) (hc1 : ¬cond3_1 i) (x0 : Vec F S1x2048x64 .f32) (x1 : Vec F S1x512x64 .f32) (x2 : Vec F S1x512x64 .f32) : Vec F S1x2048x64 .f32 :=
  VO3.read (Elt F) (VO3.writes (Elt F) VO3.junk (kernelRun3_A c i arg2 harg2 arg3 harg3 arg4 harg4 arg5 harg5 arg6 harg6 hc0 hc1 x0 x1 x2).1)

/-- The accumulator's pieces in this case cover it. -/
theorem scover3_B (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : ¬cond3_0 i) (hc1 : ¬cond3_1 i) (x0 : Vec F S1x2048x64 .f32) (x1 : Vec F S1x512x64 .f32) (x2 : Vec F S1x512x64 .f32) (xs : Vec F S2048x64 .f32) (y : S2048x64.Idx) :
    ∃ pc ∈ (kernelRun3_B c i arg2 harg2 arg3 harg3 arg4 harg4 arg5 harg5 arg6 harg6 hc0 hc1 x0 x1 x2 xs).2.1, y ∈ pc.1.set :=
  View.cover_of_tiledL (kernelRun3_B c i arg2 harg2 arg3 harg3 arg4 harg4 arg5 harg5 arg6 harg6 hc0 hc1 x0 x1 x2 xs).2.1 S2048x64.size (by sl_kernel_rfl) y
/-- What this case leaves in the accumulator: its pieces read back. -/
def sout3_B (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : ¬cond3_0 i) (hc1 : ¬cond3_1 i) (x0 : Vec F S1x2048x64 .f32) (x1 : Vec F S1x512x64 .f32) (x2 : Vec F S1x512x64 .f32) (xs : Vec F S2048x64 .f32) : Vec F S2048x64 .f32 :=
  VS3.read (Elt F) (VS3.writes (Elt F) VS3.junk (kernelRun3_B c i arg2 harg2 arg3 harg3 arg4 harg4 arg5 harg5 arg6 harg6 hc0 hc1 x0 x1 x2 xs).2.1)
/-- What this case leaves in the output buffer (nothing is stored: a placeholder nothing consults, the window being idle and not written back here). -/
def out3_B (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : ¬cond3_0 i) (hc1 : ¬cond3_1 i) (x0 : Vec F S1x2048x64 .f32) (x1 : Vec F S1x512x64 .f32) (x2 : Vec F S1x512x64 .f32) (xs : Vec F S2048x64 .f32) : Vec F S1x2048x64 .f32 :=
  VO3.read (Elt F) (VO3.writes (Elt F) VO3.junk (kernelRun3_B c i arg2 harg2 arg3 harg3 arg4 harg4 arg5 harg5 arg6 harg6 hc0 hc1 x0 x1 x2 xs).1)

/-- The accumulator's pieces in this case cover it. -/
theorem scover3_C (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : ¬cond3_0 i) (hc1 : cond3_1 i) (x0 : Vec F S1x2048x64 .f32) (x1 : Vec F S1x512x64 .f32) (x2 : Vec F S1x512x64 .f32) (xs : Vec F S2048x64 .f32) (y : S2048x64.Idx) :
    ∃ pc ∈ (kernelRun3_C c i arg2 harg2 arg3 harg3 arg4 harg4 arg5 harg5 arg6 harg6 hc0 hc1 x0 x1 x2 xs).2.1, y ∈ pc.1.set :=
  View.cover_of_tiledL (kernelRun3_C c i arg2 harg2 arg3 harg3 arg4 harg4 arg5 harg5 arg6 harg6 hc0 hc1 x0 x1 x2 xs).2.1 S2048x64.size (by sl_kernel_rfl) y
/-- What this case leaves in the accumulator: its pieces read back. -/
def sout3_C (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : ¬cond3_0 i) (hc1 : cond3_1 i) (x0 : Vec F S1x2048x64 .f32) (x1 : Vec F S1x512x64 .f32) (x2 : Vec F S1x512x64 .f32) (xs : Vec F S2048x64 .f32) : Vec F S2048x64 .f32 :=
  VS3.read (Elt F) (VS3.writes (Elt F) VS3.junk (kernelRun3_C c i arg2 harg2 arg3 harg3 arg4 harg4 arg5 harg5 arg6 harg6 hc0 hc1 x0 x1 x2 xs).2.1)
/-- What this case leaves in the output buffer: its pieces read back. -/
def out3_C (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : ¬cond3_0 i) (hc1 : cond3_1 i) (x0 : Vec F S1x2048x64 .f32) (x1 : Vec F S1x512x64 .f32) (x2 : Vec F S1x512x64 .f32) (xs : Vec F S2048x64 .f32) : Vec F S1x2048x64 .f32 :=
  VO3.read (Elt F) (VO3.writes (Elt F) VO3.junk (kernelRun3_C c i arg2 harg2 arg3 harg3 arg4 harg4 arg5 harg5 arg6 harg6 hc0 hc1 x0 x1 x2 xs).1)
/-- The output buffer's pieces in the last case cover it. -/
theorem cover3_C (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : ¬cond3_0 i) (hc1 : cond3_1 i) (x0 : Vec F S1x2048x64 .f32) (x1 : Vec F S1x512x64 .f32) (x2 : Vec F S1x512x64 .f32) (xs : Vec F S2048x64 .f32) (y : S1x2048x64.Idx) :
    ∃ pc ∈ (kernelRun3_C c i arg2 harg2 arg3 harg3 arg4 harg4 arg5 harg5 arg6 harg6 hc0 hc1 x0 x1 x2 xs).1, y ∈ pc.1.set :=
  View.cover_of_tiledL (kernelRun3_C c i arg2 harg2 arg3 harg3 arg4 harg4 arg5 harg5 arg6 harg6 hc0 hc1 x0 x1 x2 xs).1 S1x2048x64.size (by sl_kernel_rfl) y

/-- THE ACCUMULATION: what the output buffer and the accumulator hold after the body at position `n`. -/
def outsAt3 (c : Dev nD) : (n : ℕ) → n < cfg3.N → Vec F S1x2048x64 .f32 × Vec F S2048x64 .f32
  | 0, hn => (out3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 4 = 0 then
      if h1 : (n + 1) % 4 = 3 then
        False.elim (by omega)
      else
        (out3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 4 = 3 then
        (out3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 4 = 0) (h1 : ¬t.val % 4 = 3) :
    outsAt3 V c t.val t.isLt = (out3_A c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t) (iblk3 V c 2 t), sout3_A c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 4 = 0) (h1 : ¬t.val % 4 = 3) :
    outsAt3 V c t.val t.isLt = (out3_B c (grid3.coords t) (ms3_0 t) (hs3_0 t) (ms3_1 t) (hs3_1 t) (ms3_2 t) (hs3_2 t) (ms3_3 t) (hs3_3 t) scM3 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B c (grid3.coords t) (ms3_0 t) (hs3_0 t) (ms3_1 t) (hs3_1 t) (ms3_2 t) (hs3_2 t) (ms3_3 t) (hs3_3 t) scM3 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 4 = 0) (h1 : t.val % 4 = 3) :
    outsAt3 V c t.val t.isLt = (out3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The other scoped buffers (the other calls' staging buffers), unopened. -/
abbrev restBut (c : Dev nD) : sProp 𝕄 :=
  Pipeline.scopedRestBut (Ix := Unit) (Name := ℕ) (U := UR sig nD τ) (Lvl := ℕ) (Val := Elt F) spec3 c [cc3_scratch0]

/-- The region invariant before position `n`: before the first point the class's; afterwards the accumulator at what
    the point before left in it, the other scoped buffers unopened, the generator register at some state. -/
def PhiS (c : Dev nD) : (n : ℕ) → n ≤ cfg3.N → sProp 𝕄
  | 0, _ => Pipeline.ΦA spec3 c
  | n + 1, hn => iprop(iprop(owns (c : Thread nD τ) scM3 fullShare ((outsAt3 V c n hn).2) ∗ restBut c) ∗ (∃ r, prngReg c r))

theorem PhiS_zero (c : Dev nD) (n : ℕ) (h : n ≤ cfg3.N) (hz : n = 0) : PhiS V c n h = Pipeline.ΦA spec3 c := by
  subst hz; rfl
theorem PhiS_succ (c : Dev nD) (n : ℕ) (hn : n < cfg3.N) :
    PhiS V c (n + 1) hn = iprop(iprop(owns (c : Thread nD τ) scM3 fullShare ((outsAt3 V c n hn).2) ∗ restBut c) ∗ (∃ r, prngReg c r)) := rfl
theorem PhiS_pos (c : Dev nD) (n : ℕ) (h : n ≤ cfg3.N) (hz : n ≠ 0) :
    PhiS V c n h = iprop(iprop(owns (c : Thread nD τ) scM3 fullShare ((outsAt3 V c (n - 1) (by omega)).2) ∗ restBut c) ∗ (∃ r, prngReg c r)) := by
  cases n with
  | zero => exact absurd rfl hz
  | succ n => rfl

/-- The proof data of pipeline 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS_castSucc (c : Dev nD) (t : Fin cfg3.N) :
    (dat3 V c).Φ t.castSucc = PhiS V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the point's position in its group of four says which
    case it is in; the invariant hands the body the accumulator at what the point before left (at anything at a first
    point of the whole grid) and takes it back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS V c (t.val + 1) t.isLt from rfl, PhiS_succ]
  by_cases h0 : t.val % 4 = 0
  · by_cases h1 : t.val % 4 = 3
    · exfalso; omega
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3 t (fun h => h1 ((hcond3_1 t).mp h))) (noFlush3_3 t (fun h => h1 ((hcond3_1 t).mp h)))]
      rw [outsAt3_A V c t h0 h1]
      unfold sout3_A; (try dsimp only)
      by_cases hz : t.val = 0
      · rw [PhiS_castSucc V c t, PhiS_zero V c _ _ hz, PhiA3_eq]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es, HS0⟩⟩
        isplitl [HS0 HR Hg]
        · isplitl [HS0 HR]
          · isplitl [HS0]
            · unfold owns; iexists _; isplitr
              swap; · iexact HS0
              ipureintro; exact View.read_writes_of_cover _ _ _ _ _ (scover3_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es, HS0⟩⟩
        isplitl [HS0 HR Hg]
        · isplitl [HS0 HR]
          · isplitl [HS0]
            · unfold owns; iexists _; isplitr
              swap; · iexact HS0
              ipureintro; exact View.read_writes_of_cover _ _ _ _ _ (scover3_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 4 = 3
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t ((hcond3_1 t).mpr h1)], after3_3]
      rw [outsAt3_C V c t h0 h1]
      unfold out3_C sout3_C; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es, HS0⟩⟩
        isplitl [HS0 HR Hg]
        · isplitl [HS0 HR]
          · isplitl [HS0]
            · unfold owns; iexists _; isplitr
              swap; · iexact HS0
              ipureintro; exact View.read_writes_of_cover _ _ _ _ _ (scover3_C c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover3_C c _ _ _ _ _ _ _ _ _ _ _ _ _ _ _ _ _)
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3 t (fun h => h1 ((hcond3_1 t).mp h))) (noFlush3_3 t (fun h => h1 ((hcond3_1 t).mp h)))]
      rw [outsAt3_B V c t h0 h1]
      unfold sout3_B; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es, HS0⟩⟩
        isplitl [HS0 HR Hg]
        · isplitl [HS0 HR]
          · isplitl [HS0]
            · unfold owns; iexists _; isplitr
              swap; · iexact HS0
              ipureintro; exact View.read_writes_of_cover _ _ _ _ _ (scover3_B c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS V c 0 (Nat.zero_le _) from rfl, PhiS_zero V c 0 _ rfl]
  try exact Idealize.SL.BI.Entails.refl _

/-- After the last point the invariant gives the class's back: the accumulator's contents are forgotten. -/
theorem hout3 (c : Dev nD) : (dat3 V c).Φ (Fin.last cfg3.N) ⊢ Pipeline.ΦA spec3 c := by
  have ht : (Fin.last cfg3.N).val ≠ 0 := by rw [Fin.val_last]; have : cfg3.N = 256 := N_3; omega
  rw [show (dat3 V c).Φ (Fin.last cfg3.N) = PhiS V c (Fin.last cfg3.N).val (Nat.le_of_lt_succ (Fin.last cfg3.N).isLt) from rfl, PhiS_pos V c _ _ ht, PhiA3_eq]
  iintro ⟨⟨HS0, HR⟩, Hg⟩
  isplitl [HS0 HR]
  · isplitl [HS0]
    · iexists _; iexact HS0
    iexact HR
  iexact Hg

end Cert.Kernel.Attn3

end
-- ==== Proof.KFrameRun.lean ====
/-
  @main as eleven segments — six stretches of host operations around the five kernel regions — run from the launch
  memory: the contents of the core's buffers at each segment boundary as a fold from the launch memory (`W0` … `W11`: a
  host stretch applies its operations, a region leaves its arrays at what its write-backs leave and every other buffer
  as entered), every pipeline's proof data at its region's entry contents, one segment record per region, and the run:
  every weakly fair execution terminates without a fault, with every unscoped buffer at `W11` (`run_all`).
  Nothing here depends on the float instance.
-/
import proofs.«143932_j22789096473378_1_alg».proof.Proof.KLin0
import proofs.«143932_j22789096473378_1_alg».proof.Proof.KLin1
import proofs.«143932_j22789096473378_1_alg».proof.Proof.KLin2
import proofs.«143932_j22789096473378_1_alg».proof.Proof.KLin4
import proofs.«143932_j22789096473378_1_alg».proof.Proof.KAttn3
import proofs.«143932_j22789096473378_1_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the host stretch before region 0 (region 0's entry). -/
abbrev W1 : Dev nD → Valuation τ sig (Elt F) := fun c => StableHlo.after hostOps0 (W0 m ρ c)
/-- The same read at the TensorCore's references. -/
abbrev Vr1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (Lin0.dat0 (Vr1 m ρ) c).arrAt w cfg0.N
theorem W2_arr (c : Dev nD) (w : Fin cfg0.W) :
    W2 m ρ c (Proc.devRef .tc (Pipeline.arrRef spec0 w)) = (Lin0.dat0 (Vr1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vr2 : (c : Dev nD) → (b : Ref sig .tc) → Buf (Elt F) ((c : Thread nD τ).loc b) := fun c b => W2 m ρ c b
theorem hF0 (c : Dev nD) (w : Fin cfg0.W) : (Lin0.dat0 (Vr1 m ρ) c).arrAt w cfg0.N = Vr2 m ρ c (Pipeline.arrRef spec0 w) :=
  (W2_arr m ρ c w).symm
theorem hrest0 (c : Dev nD) : ∀ b, b ∉ Finset.univ.image (Pipeline.arrRef spec0) → Vr2 m ρ c b = Vr1 m ρ c b :=
  fun b hb => W2_of_ne m ρ c b fun w e => hb (Finset.mem_image.mpr ⟨w, Finset.mem_univ _, e⟩)

/-- After the host stretch before region 1 (region 1's entry). -/
abbrev W3 : Dev nD → Valuation τ sig (Elt F) := fun c => StableHlo.after hostOps1 (W2 m ρ c)
/-- The same read at the TensorCore's references. -/
abbrev Vr3 : (c : Dev nD) → (b : Ref sig .tc) → Buf (Elt F) ((c : Thread nD τ).loc b) := fun c b => W3 m ρ c b
/-- At region 1's exit: its arrays at what the pipeline leaves (the inputs as entered, the output's write-backs
    folded), every other buffer as entered. -/
def W4 (c : Dev nD) : Valuation τ sig (Elt F) :=
  Pipeline.withArrays spec1 c (W3 m ρ c) fun w => (Lin1.dat1 (Vr3 m ρ) c).arrAt w cfg1.N
theorem W4_arr (c : Dev nD) (w : Fin cfg1.W) :
    W4 m ρ c (Proc.devRef .tc (Pipeline.arrRef spec1 w)) = (Lin1.dat1 (Vr3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Vr4 : (c : Dev nD) → (b : Ref sig .tc) → Buf (Elt F) ((c : Thread nD τ).loc b) := fun c b => W4 m ρ c b
theorem hF1 (c : Dev nD) (w : Fin cfg1.W) : (Lin1.dat1 (Vr3 m ρ) c).arrAt w cfg1.N = Vr4 m ρ c (Pipeline.arrRef spec1 w) :=
  (W4_arr m ρ c w).symm
theorem hrest1 (c : Dev nD) : ∀ b, b ∉ Finset.univ.image (Pipeline.arrRef spec1) → Vr4 m ρ c b = Vr3 m ρ c b :=
  fun b hb => W4_of_ne m ρ c b fun w e => hb (Finset.mem_image.mpr ⟨w, Finset.mem_univ _, e⟩)

/-- After the host stretch before region 2 (region 2's entry). -/
abbrev W5 : Dev nD → Valuation τ sig (Elt F) := fun c => StableHlo.after hostOps2 (W4 m ρ c)
/-- The same read at the TensorCore's references. -/
abbrev Vr5 : (c : Dev nD) → (b : Ref sig .tc) → Buf (Elt F) ((c : Thread nD τ).loc b) := fun c b => W5 m ρ c b
/-- At region 2's exit: its arrays at what the pipeline leaves (the inputs as entered, the output's write-backs
    folded), every other buffer as entered. -/
def W6 (c : Dev nD) : Valuation τ sig (Elt F) :=
  Pipeline.withArrays spec2 c (W5 m ρ c) fun w => (Lin2.dat2 (Vr5 m ρ) c).arrAt w cfg2.N
theorem W6_arr (c : Dev nD) (w : Fin cfg2.W) :
    W6 m ρ c (Proc.devRef .tc (Pipeline.arrRef spec2 w)) = (Lin2.dat2 (Vr5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev Vr6 : (c : Dev nD) → (b : Ref sig .tc) → Buf (Elt F) ((c : Thread nD τ).loc b) := fun c b => W6 m ρ c b
theorem hF2 (c : Dev nD) (w : Fin cfg2.W) : (Lin2.dat2 (Vr5 m ρ) c).arrAt w cfg2.N = Vr6 m ρ c (Pipeline.arrRef spec2 w) :=
  (W6_arr m ρ c w).symm
theorem hrest2 (c : Dev nD) : ∀ b, b ∉ Finset.univ.image (Pipeline.arrRef spec2) → Vr6 m ρ c b = Vr5 m ρ c b :=
  fun b hb => W6_of_ne m ρ c b fun w e => hb (Finset.mem_image.mpr ⟨w, Finset.mem_univ _, e⟩)

/-- After the host stretch before region 3 (region 3's entry). -/
abbrev W7 : Dev nD → Valuation τ sig (Elt F) := fun c => StableHlo.after hostOps3 (W6 m ρ c)
/-- The same read at the TensorCore's references. -/
abbrev Vr7 : (c : Dev nD) → (b : Ref sig .tc) → Buf (Elt F) ((c : Thread nD τ).loc b) := fun c b => W7 m ρ c b
/-- At region 3's exit: its arrays at what the pipeline leaves (the inputs as entered, the output's write-backs
    folded), every other buffer as entered. -/
def W8 (c : Dev nD) : Valuation τ sig (Elt F) :=
  Pipeline.withArrays spec3 c (W7 m ρ c) fun w => (Attn3.dat3 (Vr7 m ρ) c).arrAt w cfg3.N
theorem W8_arr (c : Dev nD) (w : Fin cfg3.W) :
    W8 m ρ c (Proc.devRef .tc (Pipeline.arrRef spec3 w)) = (Attn3.dat3 (Vr7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev Vr8 : (c : Dev nD) → (b : Ref sig .tc) → Buf (Elt F) ((c : Thread nD τ).loc b) := fun c b => W8 m ρ c b
theorem hF3 (c : Dev nD) (w : Fin cfg3.W) : (Attn3.dat3 (Vr7 m ρ) c).arrAt w cfg3.N = Vr8 m ρ c (Pipeline.arrRef spec3 w) :=
  (W8_arr m ρ c w).symm
theorem hrest3 (c : Dev nD) : ∀ b, b ∉ Finset.univ.image (Pipeline.arrRef spec3) → Vr8 m ρ c b = Vr7 m ρ c b :=
  fun b hb => W8_of_ne m ρ c b fun w e => hb (Finset.mem_image.mpr ⟨w, Finset.mem_univ _, e⟩)

/-- After the host stretch before region 4 (region 4's entry). -/
abbrev W9 : Dev nD → Valuation τ sig (Elt F) := fun c => StableHlo.after hostOps4 (W8 m ρ c)
/-- The same read at the TensorCore's references. -/
abbrev Vr9 : (c : Dev nD) → (b : Ref sig .tc) → Buf (Elt F) ((c : Thread nD τ).loc b) := fun c b => W9 m ρ c b
/-- At region 4's exit: its arrays at what the pipeline leaves (the inputs as entered, the output's write-backs
    folded), every other buffer as entered. -/
def W10 (c : Dev nD) : Valuation τ sig (Elt F) :=
  Pipeline.withArrays spec4 c (W9 m ρ c) fun w => (Lin4.dat4 (Vr9 m ρ) c).arrAt w cfg4.N
theorem W10_arr (c : Dev nD) (w : Fin cfg4.W) :
    W10 m ρ c (Proc.devRef .tc (Pipeline.arrRef spec4 w)) = (Lin4.dat4 (Vr9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev Vr10 : (c : Dev nD) → (b : Ref sig .tc) → Buf (Elt F) ((c : Thread nD τ).loc b) := fun c b => W10 m ρ c b
theorem hF4 (c : Dev nD) (w : Fin cfg4.W) : (Lin4.dat4 (Vr9 m ρ) c).arrAt w cfg4.N = Vr10 m ρ c (Pipeline.arrRef spec4 w) :=
  (W10_arr m ρ c w).symm
theorem hrest4 (c : Dev nD) : ∀ b, b ∉ Finset.univ.image (Pipeline.arrRef spec4) → Vr10 m ρ c b = Vr9 m ρ c b :=
  fun b hb => W10_of_ne m ρ c b fun w e => hb (Finset.mem_image.mpr ⟨w, Finset.mem_univ _, e⟩)

/-- After the last host stretch: the buffers when @main returns. -/
abbrev W11 : Dev nD → Valuation τ sig (Elt F) := fun c => StableHlo.after hostOps5 (W10 m ρ c)

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => Lin0.dat0 (Vr1 m ρ) c
  | ⟨1, _⟩ => fun c => Lin1.dat1 (Vr3 m ρ) c
  | ⟨2, _⟩ => fun c => Lin2.dat2 (Vr5 m ρ) c
  | ⟨3, _⟩ => fun c => Attn3.dat3 (Vr7 m ρ) c
  | ⟨4, _⟩ => fun c => Lin4.dat4 (Vr9 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- REGION 0 over the thread state: entered from every unscoped buffer at `W1`, left at `W2`. Its arrays are split out
    of the unscoped buffers and put back at the exit contents; the generator register goes into the region invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Lin0.body_obligation0 (Vr1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vr1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr1 m ρ c) (Vr2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are split out
    of the unscoped buffers and put back at the exit contents; the generator register goes into the region invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Lin1.body_obligation1 (Vr3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vr3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vr3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vr3 m ρ c) (Vr4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are split out
    of the unscoped buffers and put back at the exit contents; the generator register goes into the region invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Lin2.body_obligation2 (Vr5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (Vr5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vr5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vr5 m ρ c) (Vr6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W7`, left at `W8`. Its arrays are split out
    of the unscoped buffers and put back at the exit contents; the generator register goes into the region invariant and
    comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Attn3.body_obligation3 (Vr7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (Vr7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vr7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m ρ 3 c).Φ (Fin.last _) ⊢ Pipeline.ΦA spec3 c from Attn3.hout3 (Vr7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vr7 m ρ c) (Vr8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W9`, left at `W10`. Its arrays are split out
    of the unscoped buffers and put back at the exit contents; the generator register goes into the region invariant and
    comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (Lin4.body_obligation4 (Vr9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (Vr9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vr9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    rw [show (pdats m ρ 4 c).Φ (Fin.last _) = Pipeline.ΦA spec4 c from rfl]
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vr9 m ρ c) (Vr10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's eleven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has every unscoped buffer at the last boundary's contents `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W11 m ρ c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show (iprop(StableHlo.held (c.tc : Thread nD τ) (Pipeline.ucRefs τ sig) (StableHlo.after hostOps5 (W10 m ρ c)) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

end Cert.Kernel.Run

end
-- ==== Proof.KFrameArgs.lean ====
/-
  The argument arrays end as launched: no host operation and no region writes one (every window's array is a buffer the
  host operations made), so the fold of the buffer contents through @main, read at a buffer that no segment writes, walks
  back to the launch memory; and with it the frame claim's post from the run.
-/
import proofs.«143932_j22789096473378_1_alg».proof.Proof.KFrameRun

set_option maxRecDepth 16384

noncomputable section

namespace Cert.Kernel.Run

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- A buffer that no host stretch writes and that is no window's array holds at the end what it held at launch. -/
theorem W11_of (c : Dev nD) (r : Ref sig .tc)
    (h0 : r ∉ hostOps0_W) (a0 : ∀ w, Pipeline.arrRef spec0 w ≠ r) (h1 : r ∉ hostOps1_W) (a1 : ∀ w, Pipeline.arrRef spec1 w ≠ r)
    (h2 : r ∉ hostOps2_W) (a2 : ∀ w, Pipeline.arrRef spec2 w ≠ r) (h3 : r ∉ hostOps3_W) (a3 : ∀ w, Pipeline.arrRef spec3 w ≠ r)
    (h4 : r ∉ hostOps4_W) (a4 : ∀ w, Pipeline.arrRef spec4 w ≠ r) (h5 : r ∉ hostOps5_W) :
    W11 m ρ c (Proc.devRef .tc r) = m ((c : Thread nD τ).loc r) :=
  (StableHlo.after_of_writes_sub hostOps5 _ hostOps5_writes h5).trans <| (W10_of_ne m ρ c r a4).trans <|
  (StableHlo.after_of_writes_sub hostOps4 _ hostOps4_writes h4).trans <| (W8_of_ne m ρ c r a3).trans <|
  (StableHlo.after_of_writes_sub hostOps3 _ hostOps3_writes h3).trans <| (W6_of_ne m ρ c r a2).trans <|
  (StableHlo.after_of_writes_sub hostOps2 _ hostOps2_writes h2).trans <| (W4_of_ne m ρ c r a1).trans <|
  (StableHlo.after_of_writes_sub hostOps1 _ hostOps1_writes h1).trans <| (W2_of_ne m ρ c r a0).trans <|
  (StableHlo.after_of_writes_sub hostOps0 _ hostOps0_writes h0).trans rfl

theorem W11_arg0 (c : Dev nD) : W11 m ρ c (Proc.devRef .tc main_arg0) = m ((c : Thread nD τ).loc main_arg0) :=
  W11_of m ρ c main_arg0 (by decide) (by decide) (by decide) (by decide) (by decide) (by decide) (by decide) (by decide) (by decide) (by decide) (by decide)
theorem W11_arg1 (c : Dev nD) : W11 m ρ c (Proc.devRef .tc main_arg1) = m ((c : Thread nD τ).loc main_arg1) :=
  W11_of m ρ c main_arg1 (by decide) (by decide) (by decide) (by decide) (by decide) (by decide) (by decide) (by decide) (by decide) (by decide) (by decide)
theorem W11_arg2 (c : Dev nD) : W11 m ρ c (Proc.devRef .tc main_arg2) = m ((c : Thread nD τ).loc main_arg2) :=
  W11_of m ρ c main_arg2 (by decide) (by decide) (by decide) (by decide) (by decide) (by decide) (by decide) (by decide) (by decide) (by decide) (by decide)
theorem W11_arg3 (c : Dev nD) : W11 m ρ c (Proc.devRef .tc main_arg3) = m ((c : Thread nD τ).loc main_arg3) :=
  W11_of m ρ c main_arg3 (by decide) (by decide) (by decide) (by decide) (by decide) (by decide) (by decide) (by decide) (by decide) (by decide) (by decide)
theorem W11_arg4 (c : Dev nD) : W11 m ρ c (Proc.devRef .tc main_arg4) = m ((c : Thread nD τ).loc main_arg4) :=
  W11_of m ρ c main_arg4 (by decide) (by decide) (by decide) (by decide) (by decide) (by decide) (by decide) (by decide) (by decide) (by decide) (by decide)
theorem W11_arg5 (c : Dev nD) : W11 m ρ c (Proc.devRef .tc main_arg5) = m ((c : Thread nD τ).loc main_arg5) :=
  W11_of m ρ c main_arg5 (by decide) (by decide) (by decide) (by decide) (by decide) (by decide) (by decide) (by decide) (by decide) (by decide) (by decide)
theorem W11_arg6 (c : Dev nD) : W11 m ρ c (Proc.devRef .tc main_arg6) = m ((c : Thread nD τ).loc main_arg6) :=
  W11_of m ρ c main_arg6 (by decide) (by decide) (by decide) (by decide) (by decide) (by decide) (by decide) (by decide) (by decide) (by decide) (by decide)
theorem W11_arg7 (c : Dev nD) : W11 m ρ c (Proc.devRef .tc main_arg7) = m ((c : Thread nD τ).loc main_arg7) :=
  W11_of m ρ c main_arg7 (by decide) (by decide) (by decide) (by decide) (by decide) (by decide) (by decide) (by decide) (by decide) (by decide) (by decide)
theorem W11_arg8 (c : Dev nD) : W11 m ρ c (Proc.devRef .tc main_arg8) = m ((c : Thread nD τ).loc main_arg8) :=
  W11_of m ρ c main_arg8 (by decide) (by decide) (by decide) (by decide) (by decide) (by decide) (by decide) (by decide) (by decide) (by decide) (by decide)
theorem W11_arg9 (c : Dev nD) : W11 m ρ c (Proc.devRef .tc main_arg9) = m ((c : Thread nD τ).loc main_arg9) :=
  W11_of m ρ c main_arg9 (by decide) (by decide) (by decide) (by decide) (by decide) (by decide) (by decide) (by decide) (by decide) (by decide) (by decide)
theorem W11_arg10 (c : Dev nD) : W11 m ρ c (Proc.devRef .tc main_arg10) = m ((c : Thread nD τ).loc main_arg10) :=
  W11_of m ρ c main_arg10 (by decide) (by decide) (by decide) (by decide) (by decide) (by decide) (by decide) (by decide) (by decide) (by decide) (by decide)

/-- THE FRAME: every weakly fair execution of @main terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W11_arg0 m ρ c),
    (h c _ (mem_uc main_arg1 (by decide))).trans (W11_arg1 m ρ c),
    (h c _ (mem_uc main_arg2 (by decide))).trans (W11_arg2 m ρ c),
    (h c _ (mem_uc main_arg3 (by decide))).trans (W11_arg3 m ρ c),
    (h c _ (mem_uc main_arg4 (by decide))).trans (W11_arg4 m ρ c),
    (h c _ (mem_uc main_arg5 (by decide))).trans (W11_arg5 m ρ c),
    (h c _ (mem_uc main_arg6 (by decide))).trans (W11_arg6 m ρ c),
    (h c _ (mem_uc main_arg7 (by decide))).trans (W11_arg7 m ρ c),
    (h c _ (mem_uc main_arg8 (by decide))).trans (W11_arg8 m ρ c),
    (h c _ (mem_uc main_arg9 (by decide))).trans (W11_arg9 m ρ c),
    (h c _ (mem_uc main_arg10 (by decide))).trans (W11_arg10 m ρ c)⟩) (run_all m ρ)

end Cert.Kernel.Run

end
-- ==== Proof.Lin0.lean ====
/-
  The first projection kernel (pipeline 0 of @main: a 512-row block of the activations times the whole transposed
  weight, plus the bias row) on its sixteen grid points, stated at a PARAMETER `V`, the contents of the core's buffers
  when the region is entered. Each input window's block is a restriction of its array (`iblk0`), fetched or kept in
  place; the body loads the three input blocks, loads the output buffer once and overwrites all of it with
  `k0_pay1` of the three loads (`out0_3`); so after the body every input buffer holds its block and the output buffer
  holds `out0_3` of them. This is the body obligation of the pipeline library for proof data `dat0`.
  Nothing here depends on the float instance.
-/
import proofs.«143932_j22789096473378_1_alg».proof.Proof.Gen.KernelIdeal.Launch
import proofs.«143932_j22789096473378_1_alg».proof.Proof.Gen.KernelIdeal.Skeleton
import proofs.«143932_j22789096473378_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lin0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the restriction of its array, as the region finds it, to the block's rectangle. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point: fetched there, or fetched earlier at the same
    block index and left in place by the body (the three input windows, one statement each). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- The output buffer after the body, from the three input blocks: one store of the whole buffer. -/
def out0_3 (x0 : Vec F S512x1024 .f32) (x1 : Vec F S1024x1024 .f32) (x2 : Vec F S1x1024 .f32) : Vec F S512x1024 .f32 :=
  View.canon [⟨rX, k0_pay1 (View.ld x0 rX) (View.ld x1 rW) (View.ld x2 rB)⟩]

/-- The one store covers the buffer. -/
theorem cover0_3 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

set_option maxHeartbeats 1000000 in
/-- The body on whole staging memrefs, the inputs' at contents `x0 x1 x2` and the output's at anything, runs to the
    continuation with the inputs' as they were and the output's at `out0_3`. -/
theorem sound_kernel0 (c : Dev nD) (E : Set ℕ) (i : grid0.Coords)
    (arg1 : Memref sig .tc .vmem S512x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input's buffer at its block and the output's at `out0_3` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Lin0

end
-- ==== Proof.Lin1.lean ====
/-
  The second projection kernel (pipeline 1 of @main: a 512-row block of the activations times the whole transposed
  weight, plus the bias row) on its sixteen grid points, stated at a PARAMETER `V`, the contents of the core's buffers
  when the region is entered. Each input window's block is a restriction of its array (`iblk1`), fetched or kept in
  place; the body loads the three input blocks, loads the output buffer once and overwrites all of it with
  `k1_pay1` of the three loads (`out1_3`); so after the body every input buffer holds its block and the output buffer
  holds `out1_3` of them. This is the body obligation of the pipeline library for proof data `dat1`.
  Nothing here depends on the float instance.
-/
import proofs.«143932_j22789096473378_1_alg».proof.Proof.Gen.KernelIdeal.Launch
import proofs.«143932_j22789096473378_1_alg».proof.Proof.Gen.KernelIdeal.Skeleton
import proofs.«143932_j22789096473378_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lin1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the restriction of its array, as the region finds it, to the block's rectangle. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point: fetched there, or fetched earlier at the same
    block index and left in place by the body (the three input windows, one statement each). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- The output buffer after the body, from the three input blocks: one store of the whole buffer. -/
def out1_3 (x0 : Vec F S512x1024 .f32) (x1 : Vec F S1024x1024 .f32) (x2 : Vec F S1x1024 .f32) : Vec F S512x1024 .f32 :=
  View.canon [⟨rX, k1_pay1 (View.ld x0 rX) (View.ld x1 rW) (View.ld x2 rB)⟩]

/-- The one store covers the buffer. -/
theorem cover1_3 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

set_option maxHeartbeats 1000000 in
/-- The body on whole staging memrefs, the inputs' at contents `x0 x1 x2` and the output's at anything, runs to the
    continuation with the inputs' as they were and the output's at `out1_3`. -/
theorem sound_kernel1 (c : Dev nD) (E : Set ℕ) (i : grid1.Coords)
    (arg1 : Memref sig .tc .vmem S512x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body at point `t` each
    input's buffer at its block and the output's at `out1_3` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Lin1

end
-- ==== Proof.Lin2.lean ====
/-
  The third projection kernel (pipeline 2 of @main: a 512-row block of the activations times the whole transposed
  weight, plus the bias row) on its sixteen grid points, stated at a PARAMETER `V`, the contents of the core's buffers
  when the region is entered. Each input window's block is a restriction of its array (`iblk2`), fetched or kept in
  place; the body loads the three input blocks, loads the output buffer once and overwrites all of it with
  `k2_pay1` of the three loads (`out2_3`); so after the body every input buffer holds its block and the output buffer
  holds `out2_3` of them. This is the body obligation of the pipeline library for proof data `dat2`.
  Nothing here depends on the float instance.
-/
import proofs.«143932_j22789096473378_1_alg».proof.Proof.Gen.KernelIdeal.Launch
import proofs.«143932_j22789096473378_1_alg».proof.Proof.Gen.KernelIdeal.Skeleton
import proofs.«143932_j22789096473378_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lin2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the restriction of its array, as the region finds it, to the block's rectangle. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point: fetched there, or fetched earlier at the same
    block index and left in place by the body (the three input windows, one statement each). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- The output buffer after the body, from the three input blocks: one store of the whole buffer. -/
def out2_3 (x0 : Vec F S512x1024 .f32) (x1 : Vec F S1024x1024 .f32) (x2 : Vec F S1x1024 .f32) : Vec F S512x1024 .f32 :=
  View.canon [⟨rX, k2_pay1 (View.ld x0 rX) (View.ld x1 rW) (View.ld x2 rB)⟩]

/-- The one store covers the buffer. -/
theorem cover2_3 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

set_option maxHeartbeats 1000000 in
/-- The body on whole staging memrefs, the inputs' at contents `x0 x1 x2` and the output's at anything, runs to the
    continuation with the inputs' as they were and the output's at `out2_3`. -/
theorem sound_kernel2 (c : Dev nD) (E : Set ℕ) (i : grid2.Coords)
    (arg1 : Memref sig .tc .vmem S512x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t` each
    input's buffer at its block and the output's at `out2_3` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Lin2

end
-- ==== Proof.Lin4.lean ====
/-
  The output projection kernel (pipeline 4 of @main: a 512-row block of the activations times the whole transposed
  weight, plus the bias row) on its sixteen grid points, stated at a PARAMETER `V`, the contents of the core's buffers
  when the region is entered. Each input window's block is a restriction of its array (`iblk4`), fetched or kept in
  place; the body loads the three input blocks, loads the output buffer once and overwrites all of it with
  `k4_pay1` of the three loads (`out4_3`); so after the body every input buffer holds its block and the output buffer
  holds `out4_3` of them. This is the body obligation of the pipeline library for proof data `dat4`.
  Nothing here depends on the float instance.
-/
import proofs.«143932_j22789096473378_1_alg».proof.Proof.Gen.KernelIdeal.Launch
import proofs.«143932_j22789096473378_1_alg».proof.Proof.Gen.KernelIdeal.Skeleton
import proofs.«143932_j22789096473378_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lin4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the restriction of its array, as the region finds it, to the block's rectangle. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current buffer holds its block at every point: fetched there, or fetched earlier at the same
    block index and left in place by the body (the three input windows, one statement each). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- The output buffer after the body, from the three input blocks: one store of the whole buffer. -/
def out4_3 (x0 : Vec F S512x1024 .f32) (x1 : Vec F S1024x1024 .f32) (x2 : Vec F S1x1024 .f32) : Vec F S512x1024 .f32 :=
  View.canon [⟨rX, k4_pay1 (View.ld x0 rX) (View.ld x1 rW) (View.ld x2 rB)⟩]

/-- The one store covers the buffer. -/
theorem cover4_3 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

set_option maxHeartbeats 1000000 in
/-- The body on whole staging memrefs, the inputs' at contents `x0 x1 x2` and the output's at anything, runs to the
    continuation with the inputs' as they were and the output's at `out4_3`. -/
theorem sound_kernel4 (c : Dev nD) (E : Set ℕ) (i : grid4.Coords)
    (arg1 : Memref sig .tc .vmem S512x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data of pipeline 4 on core `c`: the arrays as the region finds them; after the body at point `t` each
    input's buffer at its block and the output's at `out4_3` of the input blocks; the invariant the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Lin4

end
-- ==== Proof.Attn3Base.lean ====
/-
  The attention kernel (pipeline 3 of @main) on its 64 × 4 grid: for a fixed batch-head the four points walk the four
  512-row key/value blocks; the kernel zeroes its scratch accumulator at the first of them, adds one block's
  `sigmoid(q kᵀ / 8) v` at each, and copies the accumulator into the output block at the last. This module: which of the
  three cases a point is in (first / middle / last of its group of four), where the output window is idle, the blocks
  of the input windows, and the region invariant's shape with the scratch buffer taken out of the scoped rest.
-/
import proofs.«143932_j22789096473378_1_alg».proof.Proof.Gen.KernelIdeal.Launch
import proofs.«143932_j22789096473378_1_alg».proof.Proof.Gen.KernelIdeal.Skeleton
import proofs.«143932_j22789096473378_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the restriction of its array, as the region finds it, to the block's rectangle. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The point is the first of its group of four (the key-block coordinate is 0): the kernel zeroes the accumulator. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)
/-- The point is the last of its group of four (the key-block coordinate is 3): the kernel writes the output block. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Where the kernel does not store the output block the window is idle and is not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

/-- One staging buffer of the output window, through which its contents are stated. -/
abbrev VO3 : View sig .tc .vmem S1x2048x64 .f32 := (Memref.whole cc3_stg3_0 : Memref sig .tc .vmem S1x2048x64 .f32).view
abbrev ms3_0 (t : Fin cfg3.N) : Memref sig .tc .vmem S1x2048x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x512x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x2048x64 .f32 := win3_3.stage (cfg3.slots t 3)
abbrev hs3_3 (t : Fin cfg3.N) : (ms3_3 t).IsWhole := hstage3_3 ((cfg3.slots t 3).cast nbuf3_3)
/-- The scratch accumulator: a whole scoped buffer of the kernel's own. -/
abbrev scM3 : Memref sig .tc .vmem S2048x64 .f32 := Memref.whole cc3_scratch0
abbrev VS3 : View sig .tc .vmem S2048x64 .f32 := scM3.view

/-- The class invariant with the scratch buffer taken out of the scoped rest: the accumulator owned at some contents,
    the other scoped buffers unopened, the generator register at some state. -/
theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

end Cert.KernelIdeal.Attn3

end
-- ==== Proof.Attn3RunA.lean ====
/- The attention kernel's body at a point that is the first of its group of four: the accumulator is zeroed, then one
   key/value block's contribution is added; nothing is stored into the output buffer. -/
import proofs.«143932_j22789096473378_1_alg».proof.Proof.Attn3Base

set_option maxRecDepth 16384

noncomputable section

namespace Cert.KernelIdeal.Attn3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer and in the accumulator in this case, with the run: on whole
    staging memrefs holding the three input blocks the body runs to the continuation with the inputs as they were and
    each stored buffer with its pieces written. The pieces are the witness the symbolic run finds. -/
noncomputable def kernelRun3_A (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : cond3_0 i) (hc1 : ¬cond3_1 i)
    (x0 : Vec F S1x2048x64 .f32) (x1 : Vec F S1x512x64 .f32) (x2 : Vec F S1x512x64 .f32) :
    Σ' (L3 : List (View.Piece (Elt F) S1x2048x64 .f32)), { LS : List (View.Piece (Elt F) S2048x64 .f32) //
      ∀ (xi3 : Vec F S1x2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc3__attn_kernel i arg2 harg2 arg3 harg3 arg4 harg4 arg5 harg5 arg6 harg6) K } := by
  refine ⟨[], ?_, fun xi3 E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Attn3

end
-- ==== Proof.Attn3RunB.lean ====
/- The attention kernel's body at a middle point of its group of four: one key/value block's contribution is added to the
   accumulator the point before left; nothing is stored into the output buffer. -/
import proofs.«143932_j22789096473378_1_alg».proof.Proof.Attn3Base

set_option maxRecDepth 16384

noncomputable section

namespace Cert.KernelIdeal.Attn3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer and in the accumulator in this case, with the run: on whole
    staging memrefs holding the three input blocks the body runs to the continuation with the inputs as they were and
    each stored buffer with its pieces written. The pieces are the witness the symbolic run finds. -/
noncomputable def kernelRun3_B (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : ¬cond3_0 i) (hc1 : ¬cond3_1 i)
    (x0 : Vec F S1x2048x64 .f32) (x1 : Vec F S1x512x64 .f32) (x2 : Vec F S1x512x64 .f32) (xs : Vec F S2048x64 .f32) :
    Σ' (L3 : List (View.Piece (Elt F) S1x2048x64 .f32)), { LS : List (View.Piece (Elt F) S2048x64 .f32) //
      ∀ (xi3 : Vec F S1x2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc3__attn_kernel i arg2 harg2 arg3 harg3 arg4 harg4 arg5 harg5 arg6 harg6) K } := by
  refine ⟨[], ?_, fun xi3 E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Attn3

end
-- ==== Proof.Attn3RunC.lean ====
/- The attention kernel's body at the last point of its group of four: the last key/value block's contribution is added to
   the accumulator, and the accumulator is stored into the output buffer. -/
import proofs.«143932_j22789096473378_1_alg».proof.Proof.Attn3Base

set_option maxRecDepth 16384

noncomputable section

namespace Cert.KernelIdeal.Attn3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer and in the accumulator in this case, with the run: on whole
    staging memrefs holding the three input blocks the body runs to the continuation with the inputs as they were and
    each stored buffer with its pieces written. The pieces are the witness the symbolic run finds. -/
noncomputable def kernelRun3_C (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : ¬cond3_0 i) (hc1 : cond3_1 i)
    (x0 : Vec F S1x2048x64 .f32) (x1 : Vec F S1x512x64 .f32) (x2 : Vec F S1x512x64 .f32) (xs : Vec F S2048x64 .f32) :
    Σ' (L3 : List (View.Piece (Elt F) S1x2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc3__attn_kernel i arg2 harg2 arg3 harg3 arg4 harg4 arg5 harg5 arg6 harg6) K } := by
  refine ⟨?_, ?_, fun E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Attn3

end
-- ==== Proof.Attn3.lean ====
/-
  The attention kernel (pipeline 3 of @main), all of its region: what the accumulator and the output buffer hold after
  every grid point (`outsAt3`: the case the point is in, run on the point's input blocks over what the point before left
  in the accumulator), the region invariant that carries the accumulator from point to point (`PhiS`), the proof data of
  the pipeline and the body obligation at every point.
-/
import proofs.«143932_j22789096473378_1_alg».proof.Proof.Attn3RunA
import proofs.«143932_j22789096473378_1_alg».proof.Proof.Attn3RunB
import proofs.«143932_j22789096473378_1_alg».proof.Proof.Attn3RunC

set_option maxRecDepth 16384

noncomputable section

namespace Cert.KernelIdeal.Attn3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator's pieces in this case cover it. -/
theorem scover3_A (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : cond3_0 i) (hc1 : ¬cond3_1 i) (x0 : Vec F S1x2048x64 .f32) (x1 : Vec F S1x512x64 .f32) (x2 : Vec F S1x512x64 .f32) (y : S2048x64.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S2048x64.size (by sl_kernel_rfl) y
/-- What this case leaves in the accumulator: its pieces read back. -/
def sout3_A (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : cond3_0 i) (hc1 : ¬cond3_1 i) (x0 : Vec F S1x2048x64 .f32) (x1 : Vec F S1x512x64 .f32) (x2 : Vec F S1x512x64 .f32) : Vec F S2048x64 .f32 :=
  VS3.read (Elt F) (VS3.writes (Elt F) VS3.junk (kernelRun3_A c i arg2 harg2 arg3 harg3 arg4 harg4 arg5 harg5 arg6 harg6 hc0 hc1 x0 x1 x2).2.1)
/-- What this case leaves in the output buffer (nothing is stored: a placeholder nothing consults, the window being idle and not written back here). -/
def out3_A (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : cond3_0 i) (hc1 : ¬cond3_1 i) (x0 : Vec F S1x2048x64 .f32) (x1 : Vec F S1x512x64 .f32) (x2 : Vec F S1x512x64 .f32) : Vec F S1x2048x64 .f32 :=
  VO3.read (Elt F) (VO3.writes (Elt F) VO3.junk (kernelRun3_A c i arg2 harg2 arg3 harg3 arg4 harg4 arg5 harg5 arg6 harg6 hc0 hc1 x0 x1 x2).1)

/-- The accumulator's pieces in this case cover it. -/
theorem scover3_B (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : ¬cond3_0 i) (hc1 : ¬cond3_1 i) (x0 : Vec F S1x2048x64 .f32) (x1 : Vec F S1x512x64 .f32) (x2 : Vec F S1x512x64 .f32) (xs : Vec F S2048x64 .f32) (y : S2048x64.Idx) :
    ∃ pc ∈ (kernelRun3_B c i arg2 harg2 arg3 harg3 arg4 harg4 arg5 harg5 arg6 harg6 hc0 hc1 x0 x1 x2 xs).2.1, y ∈ pc.1.set :=
  View.cover_of_tiledL (kernelRun3_B c i arg2 harg2 arg3 harg3 arg4 harg4 arg5 harg5 arg6 harg6 hc0 hc1 x0 x1 x2 xs).2.1 S2048x64.size (by sl_kernel_rfl) y
/-- What this case leaves in the accumulator: its pieces read back. -/
def sout3_B (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : ¬cond3_0 i) (hc1 : ¬cond3_1 i) (x0 : Vec F S1x2048x64 .f32) (x1 : Vec F S1x512x64 .f32) (x2 : Vec F S1x512x64 .f32) (xs : Vec F S2048x64 .f32) : Vec F S2048x64 .f32 :=
  VS3.read (Elt F) (VS3.writes (Elt F) VS3.junk (kernelRun3_B c i arg2 harg2 arg3 harg3 arg4 harg4 arg5 harg5 arg6 harg6 hc0 hc1 x0 x1 x2 xs).2.1)
/-- What this case leaves in the output buffer (nothing is stored: a placeholder nothing consults, the window being idle and not written back here). -/
def out3_B (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : ¬cond3_0 i) (hc1 : ¬cond3_1 i) (x0 : Vec F S1x2048x64 .f32) (x1 : Vec F S1x512x64 .f32) (x2 : Vec F S1x512x64 .f32) (xs : Vec F S2048x64 .f32) : Vec F S1x2048x64 .f32 :=
  VO3.read (Elt F) (VO3.writes (Elt F) VO3.junk (kernelRun3_B c i arg2 harg2 arg3 harg3 arg4 harg4 arg5 harg5 arg6 harg6 hc0 hc1 x0 x1 x2 xs).1)

/-- The accumulator's pieces in this case cover it. -/
theorem scover3_C (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : ¬cond3_0 i) (hc1 : cond3_1 i) (x0 : Vec F S1x2048x64 .f32) (x1 : Vec F S1x512x64 .f32) (x2 : Vec F S1x512x64 .f32) (xs : Vec F S2048x64 .f32) (y : S2048x64.Idx) :
    ∃ pc ∈ (kernelRun3_C c i arg2 harg2 arg3 harg3 arg4 harg4 arg5 harg5 arg6 harg6 hc0 hc1 x0 x1 x2 xs).2.1, y ∈ pc.1.set :=
  View.cover_of_tiledL (kernelRun3_C c i arg2 harg2 arg3 harg3 arg4 harg4 arg5 harg5 arg6 harg6 hc0 hc1 x0 x1 x2 xs).2.1 S2048x64.size (by sl_kernel_rfl) y
/-- What this case leaves in the accumulator: its pieces read back. -/
def sout3_C (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : ¬cond3_0 i) (hc1 : cond3_1 i) (x0 : Vec F S1x2048x64 .f32) (x1 : Vec F S1x512x64 .f32) (x2 : Vec F S1x512x64 .f32) (xs : Vec F S2048x64 .f32) : Vec F S2048x64 .f32 :=
  VS3.read (Elt F) (VS3.writes (Elt F) VS3.junk (kernelRun3_C c i arg2 harg2 arg3 harg3 arg4 harg4 arg5 harg5 arg6 harg6 hc0 hc1 x0 x1 x2 xs).2.1)
/-- What this case leaves in the output buffer: its pieces read back. -/
def out3_C (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : ¬cond3_0 i) (hc1 : cond3_1 i) (x0 : Vec F S1x2048x64 .f32) (x1 : Vec F S1x512x64 .f32) (x2 : Vec F S1x512x64 .f32) (xs : Vec F S2048x64 .f32) : Vec F S1x2048x64 .f32 :=
  VO3.read (Elt F) (VO3.writes (Elt F) VO3.junk (kernelRun3_C c i arg2 harg2 arg3 harg3 arg4 harg4 arg5 harg5 arg6 harg6 hc0 hc1 x0 x1 x2 xs).1)
/-- The output buffer's pieces in the last case cover it. -/
theorem cover3_C (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : ¬cond3_0 i) (hc1 : cond3_1 i) (x0 : Vec F S1x2048x64 .f32) (x1 : Vec F S1x512x64 .f32) (x2 : Vec F S1x512x64 .f32) (xs : Vec F S2048x64 .f32) (y : S1x2048x64.Idx) :
    ∃ pc ∈ (kernelRun3_C c i arg2 harg2 arg3 harg3 arg4 harg4 arg5 harg5 arg6 harg6 hc0 hc1 x0 x1 x2 xs).1, y ∈ pc.1.set :=
  View.cover_of_tiledL (kernelRun3_C c i arg2 harg2 arg3 harg3 arg4 harg4 arg5 harg5 arg6 harg6 hc0 hc1 x0 x1 x2 xs).1 S1x2048x64.size (by sl_kernel_rfl) y

/-- THE ACCUMULATION: what the output buffer and the accumulator hold after the body at position `n`. -/
def outsAt3 (c : Dev nD) : (n : ℕ) → n < cfg3.N → Vec F S1x2048x64 .f32 × Vec F S2048x64 .f32
  | 0, hn => (out3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 4 = 0 then
      if h1 : (n + 1) % 4 = 3 then
        False.elim (by omega)
      else
        (out3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 4 = 3 then
        (out3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 4 = 0) (h1 : ¬t.val % 4 = 3) :
    outsAt3 V c t.val t.isLt = (out3_A c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t) (iblk3 V c 2 t), sout3_A c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 4 = 0) (h1 : ¬t.val % 4 = 3) :
    outsAt3 V c t.val t.isLt = (out3_B c (grid3.coords t) (ms3_0 t) (hs3_0 t) (ms3_1 t) (hs3_1 t) (ms3_2 t) (hs3_2 t) (ms3_3 t) (hs3_3 t) scM3 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B c (grid3.coords t) (ms3_0 t) (hs3_0 t) (ms3_1 t) (hs3_1 t) (ms3_2 t) (hs3_2 t) (ms3_3 t) (hs3_3 t) scM3 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 4 = 0) (h1 : t.val % 4 = 3) :
    outsAt3 V c t.val t.isLt = (out3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The other scoped buffers (the other calls' staging buffers), unopened. -/
abbrev restBut (c : Dev nD) : sProp 𝕄 :=
  Pipeline.scopedRestBut (Ix := Unit) (Name := ℕ) (U := UR sig nD τ) (Lvl := ℕ) (Val := Elt F) spec3 c [cc3_scratch0]

/-- The region invariant before position `n`: before the first point the class's; afterwards the accumulator at what
    the point before left in it, the other scoped buffers unopened, the generator register at some state. -/
def PhiS (c : Dev nD) : (n : ℕ) → n ≤ cfg3.N → sProp 𝕄
  | 0, _ => Pipeline.ΦA spec3 c
  | n + 1, hn => iprop(iprop(owns (c : Thread nD τ) scM3 fullShare ((outsAt3 V c n hn).2) ∗ restBut c) ∗ (∃ r, prngReg c r))

theorem PhiS_zero (c : Dev nD) (n : ℕ) (h : n ≤ cfg3.N) (hz : n = 0) : PhiS V c n h = Pipeline.ΦA spec3 c := by
  subst hz; rfl
theorem PhiS_succ (c : Dev nD) (n : ℕ) (hn : n < cfg3.N) :
    PhiS V c (n + 1) hn = iprop(iprop(owns (c : Thread nD τ) scM3 fullShare ((outsAt3 V c n hn).2) ∗ restBut c) ∗ (∃ r, prngReg c r)) := rfl
theorem PhiS_pos (c : Dev nD) (n : ℕ) (h : n ≤ cfg3.N) (hz : n ≠ 0) :
    PhiS V c n h = iprop(iprop(owns (c : Thread nD τ) scM3 fullShare ((outsAt3 V c (n - 1) (by omega)).2) ∗ restBut c) ∗ (∃ r, prngReg c r)) := by
  cases n with
  | zero => exact absurd rfl hz
  | succ n => rfl

/-- The proof data of pipeline 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS_castSucc (c : Dev nD) (t : Fin cfg3.N) :
    (dat3 V c).Φ t.castSucc = PhiS V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the point's position in its group of four says which
    case it is in; the invariant hands the body the accumulator at what the point before left (at anything at a first
    point of the whole grid) and takes it back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS V c (t.val + 1) t.isLt from rfl, PhiS_succ]
  by_cases h0 : t.val % 4 = 0
  · by_cases h1 : t.val % 4 = 3
    · exfalso; omega
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3 t (fun h => h1 ((hcond3_1 t).mp h))) (noFlush3_3 t (fun h => h1 ((hcond3_1 t).mp h)))]
      rw [outsAt3_A V c t h0 h1]
      unfold sout3_A; (try dsimp only)
      by_cases hz : t.val = 0
      · rw [PhiS_castSucc V c t, PhiS_zero V c _ _ hz, PhiA3_eq]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es, HS0⟩⟩
        isplitl [HS0 HR Hg]
        · isplitl [HS0 HR]
          · isplitl [HS0]
            · unfold owns; iexists _; isplitr
              swap; · iexact HS0
              ipureintro; exact View.read_writes_of_cover _ _ _ _ _ (scover3_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es, HS0⟩⟩
        isplitl [HS0 HR Hg]
        · isplitl [HS0 HR]
          · isplitl [HS0]
            · unfold owns; iexists _; isplitr
              swap; · iexact HS0
              ipureintro; exact View.read_writes_of_cover _ _ _ _ _ (scover3_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 4 = 3
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t ((hcond3_1 t).mpr h1)], after3_3]
      rw [outsAt3_C V c t h0 h1]
      unfold out3_C sout3_C; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es, HS0⟩⟩
        isplitl [HS0 HR Hg]
        · isplitl [HS0 HR]
          · isplitl [HS0]
            · unfold owns; iexists _; isplitr
              swap; · iexact HS0
              ipureintro; exact View.read_writes_of_cover _ _ _ _ _ (scover3_C c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover3_C c _ _ _ _ _ _ _ _ _ _ _ _ _ _ _ _ _)
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3 t (fun h => h1 ((hcond3_1 t).mp h))) (noFlush3_3 t (fun h => h1 ((hcond3_1 t).mp h)))]
      rw [outsAt3_B V c t h0 h1]
      unfold sout3_B; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es, HS0⟩⟩
        isplitl [HS0 HR Hg]
        · isplitl [HS0 HR]
          · isplitl [HS0]
            · unfold owns; iexists _; isplitr
              swap; · iexact HS0
              ipureintro; exact View.read_writes_of_cover _ _ _ _ _ (scover3_B c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS V c 0 (Nat.zero_le _) from rfl, PhiS_zero V c 0 _ rfl]
  try exact Idealize.SL.BI.Entails.refl _

/-- After the last point the invariant gives the class's back: the accumulator's contents are forgotten. -/
theorem hout3 (c : Dev nD) : (dat3 V c).Φ (Fin.last cfg3.N) ⊢ Pipeline.ΦA spec3 c := by
  have ht : (Fin.last cfg3.N).val ≠ 0 := by rw [Fin.val_last]; have : cfg3.N = 256 := N_3; omega
  rw [show (dat3 V c).Φ (Fin.last cfg3.N) = PhiS V c (Fin.last cfg3.N).val (Nat.le_of_lt_succ (Fin.last cfg3.N).isLt) from rfl, PhiS_pos V c _ _ ht, PhiA3_eq]
  iintro ⟨⟨HS0, HR⟩, Hg⟩
  isplitl [HS0 HR]
  · isplitl [HS0]
    · iexists _; iexact HS0
    iexact HR
  iexact Hg

end Cert.KernelIdeal.Attn3

end
-- ==== Proof.FrameRun.lean ====
/-
  @main as eleven segments — six stretches of host operations around the five kernel regions — run from the launch
  memory: the contents of the core's buffers at each segment boundary as a fold from the launch memory (`W0` … `W11`: a
  host stretch applies its operations, a region leaves its arrays at what its write-backs leave and every other buffer
  as entered), every pipeline's proof data at its region's entry contents, one segment record per region, and the run:
  every weakly fair execution terminates without a fault, with every unscoped buffer at `W11` (`run_all`).
  Nothing here depends on the float instance.
-/
import proofs.«143932_j22789096473378_1_alg».proof.Proof.Lin0
import proofs.«143932_j22789096473378_1_alg».proof.Proof.Lin1
import proofs.«143932_j22789096473378_1_alg».proof.Proof.Lin2
import proofs.«143932_j22789096473378_1_alg».proof.Proof.Lin4
import proofs.«143932_j22789096473378_1_alg».proof.Proof.Attn3
import proofs.«143932_j22789096473378_1_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the host stretch before region 0 (region 0's entry). -/
abbrev W1 : Dev nD → Valuation τ sig (Elt F) := fun c => StableHlo.after hostOps0 (W0 m ρ c)
/-- The same read at the TensorCore's references. -/
abbrev Vr1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (Lin0.dat0 (Vr1 m ρ) c).arrAt w cfg0.N
theorem W2_arr (c : Dev nD) (w : Fin cfg0.W) :
    W2 m ρ c (Proc.devRef .tc (Pipeline.arrRef spec0 w)) = (Lin0.dat0 (Vr1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vr2 : (c : Dev nD) → (b : Ref sig .tc) → Buf (Elt F) ((c : Thread nD τ).loc b) := fun c b => W2 m ρ c b
theorem hF0 (c : Dev nD) (w : Fin cfg0.W) : (Lin0.dat0 (Vr1 m ρ) c).arrAt w cfg0.N = Vr2 m ρ c (Pipeline.arrRef spec0 w) :=
  (W2_arr m ρ c w).symm
theorem hrest0 (c : Dev nD) : ∀ b, b ∉ Finset.univ.image (Pipeline.arrRef spec0) → Vr2 m ρ c b = Vr1 m ρ c b :=
  fun b hb => W2_of_ne m ρ c b fun w e => hb (Finset.mem_image.mpr ⟨w, Finset.mem_univ _, e⟩)

/-- After the host stretch before region 1 (region 1's entry). -/
abbrev W3 : Dev nD → Valuation τ sig (Elt F) := fun c => StableHlo.after hostOps1 (W2 m ρ c)
/-- The same read at the TensorCore's references. -/
abbrev Vr3 : (c : Dev nD) → (b : Ref sig .tc) → Buf (Elt F) ((c : Thread nD τ).loc b) := fun c b => W3 m ρ c b
/-- At region 1's exit: its arrays at what the pipeline leaves (the inputs as entered, the output's write-backs
    folded), every other buffer as entered. -/
def W4 (c : Dev nD) : Valuation τ sig (Elt F) :=
  Pipeline.withArrays spec1 c (W3 m ρ c) fun w => (Lin1.dat1 (Vr3 m ρ) c).arrAt w cfg1.N
theorem W4_arr (c : Dev nD) (w : Fin cfg1.W) :
    W4 m ρ c (Proc.devRef .tc (Pipeline.arrRef spec1 w)) = (Lin1.dat1 (Vr3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Vr4 : (c : Dev nD) → (b : Ref sig .tc) → Buf (Elt F) ((c : Thread nD τ).loc b) := fun c b => W4 m ρ c b
theorem hF1 (c : Dev nD) (w : Fin cfg1.W) : (Lin1.dat1 (Vr3 m ρ) c).arrAt w cfg1.N = Vr4 m ρ c (Pipeline.arrRef spec1 w) :=
  (W4_arr m ρ c w).symm
theorem hrest1 (c : Dev nD) : ∀ b, b ∉ Finset.univ.image (Pipeline.arrRef spec1) → Vr4 m ρ c b = Vr3 m ρ c b :=
  fun b hb => W4_of_ne m ρ c b fun w e => hb (Finset.mem_image.mpr ⟨w, Finset.mem_univ _, e⟩)

/-- After the host stretch before region 2 (region 2's entry). -/
abbrev W5 : Dev nD → Valuation τ sig (Elt F) := fun c => StableHlo.after hostOps2 (W4 m ρ c)
/-- The same read at the TensorCore's references. -/
abbrev Vr5 : (c : Dev nD) → (b : Ref sig .tc) → Buf (Elt F) ((c : Thread nD τ).loc b) := fun c b => W5 m ρ c b
/-- At region 2's exit: its arrays at what the pipeline leaves (the inputs as entered, the output's write-backs
    folded), every other buffer as entered. -/
def W6 (c : Dev nD) : Valuation τ sig (Elt F) :=
  Pipeline.withArrays spec2 c (W5 m ρ c) fun w => (Lin2.dat2 (Vr5 m ρ) c).arrAt w cfg2.N
theorem W6_arr (c : Dev nD) (w : Fin cfg2.W) :
    W6 m ρ c (Proc.devRef .tc (Pipeline.arrRef spec2 w)) = (Lin2.dat2 (Vr5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev Vr6 : (c : Dev nD) → (b : Ref sig .tc) → Buf (Elt F) ((c : Thread nD τ).loc b) := fun c b => W6 m ρ c b
theorem hF2 (c : Dev nD) (w : Fin cfg2.W) : (Lin2.dat2 (Vr5 m ρ) c).arrAt w cfg2.N = Vr6 m ρ c (Pipeline.arrRef spec2 w) :=
  (W6_arr m ρ c w).symm
theorem hrest2 (c : Dev nD) : ∀ b, b ∉ Finset.univ.image (Pipeline.arrRef spec2) → Vr6 m ρ c b = Vr5 m ρ c b :=
  fun b hb => W6_of_ne m ρ c b fun w e => hb (Finset.mem_image.mpr ⟨w, Finset.mem_univ _, e⟩)

/-- After the host stretch before region 3 (region 3's entry). -/
abbrev W7 : Dev nD → Valuation τ sig (Elt F) := fun c => StableHlo.after hostOps3 (W6 m ρ c)
/-- The same read at the TensorCore's references. -/
abbrev Vr7 : (c : Dev nD) → (b : Ref sig .tc) → Buf (Elt F) ((c : Thread nD τ).loc b) := fun c b => W7 m ρ c b
/-- At region 3's exit: its arrays at what the pipeline leaves (the inputs as entered, the output's write-backs
    folded), every other buffer as entered. -/
def W8 (c : Dev nD) : Valuation τ sig (Elt F) :=
  Pipeline.withArrays spec3 c (W7 m ρ c) fun w => (Attn3.dat3 (Vr7 m ρ) c).arrAt w cfg3.N
theorem W8_arr (c : Dev nD) (w : Fin cfg3.W) :
    W8 m ρ c (Proc.devRef .tc (Pipeline.arrRef spec3 w)) = (Attn3.dat3 (Vr7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev Vr8 : (c : Dev nD) → (b : Ref sig .tc) → Buf (Elt F) ((c : Thread nD τ).loc b) := fun c b => W8 m ρ c b
theorem hF3 (c : Dev nD) (w : Fin cfg3.W) : (Attn3.dat3 (Vr7 m ρ) c).arrAt w cfg3.N = Vr8 m ρ c (Pipeline.arrRef spec3 w) :=
  (W8_arr m ρ c w).symm
theorem hrest3 (c : Dev nD) : ∀ b, b ∉ Finset.univ.image (Pipeline.arrRef spec3) → Vr8 m ρ c b = Vr7 m ρ c b :=
  fun b hb => W8_of_ne m ρ c b fun w e => hb (Finset.mem_image.mpr ⟨w, Finset.mem_univ _, e⟩)

/-- After the host stretch before region 4 (region 4's entry). -/
abbrev W9 : Dev nD → Valuation τ sig (Elt F) := fun c => StableHlo.after hostOps4 (W8 m ρ c)
/-- The same read at the TensorCore's references. -/
abbrev Vr9 : (c : Dev nD) → (b : Ref sig .tc) → Buf (Elt F) ((c : Thread nD τ).loc b) := fun c b => W9 m ρ c b
/-- At region 4's exit: its arrays at what the pipeline leaves (the inputs as entered, the output's write-backs
    folded), every other buffer as entered. -/
def W10 (c : Dev nD) : Valuation τ sig (Elt F) :=
  Pipeline.withArrays spec4 c (W9 m ρ c) fun w => (Lin4.dat4 (Vr9 m ρ) c).arrAt w cfg4.N
theorem W10_arr (c : Dev nD) (w : Fin cfg4.W) :
    W10 m ρ c (Proc.devRef .tc (Pipeline.arrRef spec4 w)) = (Lin4.dat4 (Vr9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev Vr10 : (c : Dev nD) → (b : Ref sig .tc) → Buf (Elt F) ((c : Thread nD τ).loc b) := fun c b => W10 m ρ c b
theorem hF4 (c : Dev nD) (w : Fin cfg4.W) : (Lin4.dat4 (Vr9 m ρ) c).arrAt w cfg4.N = Vr10 m ρ c (Pipeline.arrRef spec4 w) :=
  (W10_arr m ρ c w).symm
theorem hrest4 (c : Dev nD) : ∀ b, b ∉ Finset.univ.image (Pipeline.arrRef spec4) → Vr10 m ρ c b = Vr9 m ρ c b :=
  fun b hb => W10_of_ne m ρ c b fun w e => hb (Finset.mem_image.mpr ⟨w, Finset.mem_univ _, e⟩)

/-- After the last host stretch: the buffers when @main returns. -/
abbrev W11 : Dev nD → Valuation τ sig (Elt F) := fun c => StableHlo.after hostOps5 (W10 m ρ c)

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => Lin0.dat0 (Vr1 m ρ) c
  | ⟨1, _⟩ => fun c => Lin1.dat1 (Vr3 m ρ) c
  | ⟨2, _⟩ => fun c => Lin2.dat2 (Vr5 m ρ) c
  | ⟨3, _⟩ => fun c => Attn3.dat3 (Vr7 m ρ) c
  | ⟨4, _⟩ => fun c => Lin4.dat4 (Vr9 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- REGION 0 over the thread state: entered from every unscoped buffer at `W1`, left at `W2`. Its arrays are split out
    of the unscoped buffers and put back at the exit contents; the generator register goes into the region invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Lin0.body_obligation0 (Vr1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vr1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr1 m ρ c) (Vr2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are split out
    of the unscoped buffers and put back at the exit contents; the generator register goes into the region invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Lin1.body_obligation1 (Vr3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vr3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vr3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vr3 m ρ c) (Vr4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are split out
    of the unscoped buffers and put back at the exit contents; the generator register goes into the region invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Lin2.body_obligation2 (Vr5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (Vr5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vr5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vr5 m ρ c) (Vr6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W7`, left at `W8`. Its arrays are split out
    of the unscoped buffers and put back at the exit contents; the generator register goes into the region invariant and
    comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Attn3.body_obligation3 (Vr7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (Vr7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vr7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m ρ 3 c).Φ (Fin.last _) ⊢ Pipeline.ΦA spec3 c from Attn3.hout3 (Vr7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vr7 m ρ c) (Vr8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W9`, left at `W10`. Its arrays are split out
    of the unscoped buffers and put back at the exit contents; the generator register goes into the region invariant and
    comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (Lin4.body_obligation4 (Vr9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (Vr9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vr9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    rw [show (pdats m ρ 4 c).Φ (Fin.last _) = Pipeline.ΦA spec4 c from rfl]
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vr9 m ρ c) (Vr10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's eleven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has every unscoped buffer at the last boundary's contents `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W11 m ρ c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show (iprop(StableHlo.held (c.tc : Thread nD τ) (Pipeline.ucRefs τ sig) (StableHlo.after hostOps5 (W10 m ρ c)) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

end Cert.KernelIdeal.Run

end
-- ==== Proof.HostReads.lean ====
/-
  What the host operations of @main write, read off the fold of the buffer contents: each stretch's results as the layout
  operations of what the stretch found (the flattened activations, the transposed weights, the bias rows, the heads of the
  projected rows, the merged heads, the final reshape), and the buffers a later segment reads carried unchanged through
  the segments in between (no segment writes them).
-/
import proofs.«143932_j22789096473378_1_alg».proof.Proof.FrameRun
import Idealize.ShloMosaic.PureOps.Ideal
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-! ## One segment leaves alone what it does not write -/

theorem hostKeep0 (c : Dev nD) (r : Ref sig .tc) (h : r ∉ hostOps0_W) : W1 m ρ c (Proc.devRef .tc r) = W0 m ρ c (Proc.devRef .tc r) :=
  StableHlo.after_of_writes_sub hostOps0 _ hostOps0_writes h
theorem hostKeep1 (c : Dev nD) (r : Ref sig .tc) (h : r ∉ hostOps1_W) : W3 m ρ c (Proc.devRef .tc r) = W2 m ρ c (Proc.devRef .tc r) :=
  StableHlo.after_of_writes_sub hostOps1 _ hostOps1_writes h
theorem hostKeep2 (c : Dev nD) (r : Ref sig .tc) (h : r ∉ hostOps2_W) : W5 m ρ c (Proc.devRef .tc r) = W4 m ρ c (Proc.devRef .tc r) :=
  StableHlo.after_of_writes_sub hostOps2 _ hostOps2_writes h
theorem hostKeep3 (c : Dev nD) (r : Ref sig .tc) (h : r ∉ hostOps3_W) : W7 m ρ c (Proc.devRef .tc r) = W6 m ρ c (Proc.devRef .tc r) :=
  StableHlo.after_of_writes_sub hostOps3 _ hostOps3_writes h
theorem hostKeep4 (c : Dev nD) (r : Ref sig .tc) (h : r ∉ hostOps4_W) : W9 m ρ c (Proc.devRef .tc r) = W8 m ρ c (Proc.devRef .tc r) :=
  StableHlo.after_of_writes_sub hostOps4 _ hostOps4_writes h
theorem hostKeep5 (c : Dev nD) (r : Ref sig .tc) (h : r ∉ hostOps5_W) : W11 m ρ c (Proc.devRef .tc r) = W10 m ρ c (Proc.devRef .tc r) :=
  StableHlo.after_of_writes_sub hostOps5 _ hostOps5_writes h

/-! ## The host stretches' results -/

theorem W1_v0 (c : Dev nD) : (W1 m ρ c main_v0 : S8192x1024.Idx → EReal)
    = shapeCast S8192x1024 (m ((c : Thread nD τ).loc main_arg0)) shapeCasts_S4x2048x1024_S8192x1024 := by
  dsimp only [W1, hostOps0]; after_results <;> rfl
theorem W1_v1 (c : Dev nD) : (W1 m ρ c main_v1 : S8192x1024.Idx → EReal)
    = shapeCast S8192x1024 (m ((c : Thread nD τ).loc main_arg1)) shapeCasts_S4x2048x1024_S8192x1024 := by
  dsimp only [W1, hostOps0]; after_results <;> rfl
theorem W1_v2 (c : Dev nD) : (W1 m ρ c main_v2 : S8192x1024.Idx → EReal)
    = shapeCast S8192x1024 (m ((c : Thread nD τ).loc main_arg2)) shapeCasts_S4x2048x1024_S8192x1024 := by
  dsimp only [W1, hostOps0]; after_results <;> rfl
theorem W1_v3 (c : Dev nD) : (W1 m ρ c main_v3 : S1024x1024.Idx → EReal)
    = transpose S1024x1024 [1, 0] (m ((c : Thread nD τ).loc main_arg3)) transposes_S1024x1024_S1024x1024_1_0 := by
  dsimp only [W1, hostOps0]; after_results <;> rfl
theorem W1_v4 (c : Dev nD) : (W1 m ρ c main_v4 : S1x1024.Idx → EReal)
    = shapeCast S1x1024 (m ((c : Thread nD τ).loc main_arg4)) shapeCasts_S1024_S1x1024 := by
  dsimp only [W1, hostOps0]; after_results <;> rfl
theorem W3_v6 (c : Dev nD) : (W3 m ρ c main_v6 : S1024x1024.Idx → EReal)
    = transpose S1024x1024 [1, 0] (W2 m ρ c main_arg5) transposes_S1024x1024_S1024x1024_1_0 := by
  dsimp only [W3, hostOps1]; after_results <;> rfl
theorem W3_v7 (c : Dev nD) : (W3 m ρ c main_v7 : S1x1024.Idx → EReal)
    = shapeCast S1x1024 (W2 m ρ c main_arg6) shapeCasts_S1024_S1x1024 := by
  dsimp only [W3, hostOps1]; after_results <;> rfl
theorem W5_v9 (c : Dev nD) : (W5 m ρ c main_v9 : S1024x1024.Idx → EReal)
    = transpose S1024x1024 [1, 0] (W4 m ρ c main_arg7) transposes_S1024x1024_S1024x1024_1_0 := by
  dsimp only [W5, hostOps2]; after_results <;> rfl
theorem W5_v10 (c : Dev nD) : (W5 m ρ c main_v10 : S1x1024.Idx → EReal)
    = shapeCast S1x1024 (W4 m ρ c main_arg8) shapeCasts_S1024_S1x1024 := by
  dsimp only [W5, hostOps2]; after_results <;> rfl
theorem W7_v14 (c : Dev nD) : (W7 m ρ c main_v14 : S64x2048x64.Idx → EReal)
    = shapeCast S64x2048x64 (transpose S4x16x2048x64 [0, 2, 1, 3] (shapeCast S4x2048x16x64 (W6 m ρ c main_v5) shapeCasts_S8192x1024_S4x2048x16x64)
      transposes_S4x2048x16x64_S4x16x2048x64_0_2_1_3) shapeCasts_S4x16x2048x64_S64x2048x64 := by
  dsimp only [W7, hostOps3]; after_results <;> rfl
theorem W7_v17 (c : Dev nD) : (W7 m ρ c main_v17 : S64x2048x64.Idx → EReal)
    = shapeCast S64x2048x64 (transpose S4x16x2048x64 [0, 2, 1, 3] (shapeCast S4x2048x16x64 (W6 m ρ c main_v8) shapeCasts_S8192x1024_S4x2048x16x64)
      transposes_S4x2048x16x64_S4x16x2048x64_0_2_1_3) shapeCasts_S4x16x2048x64_S64x2048x64 := by
  dsimp only [W7, hostOps3]; after_results <;> rfl
theorem W7_v20 (c : Dev nD) : (W7 m ρ c main_v20 : S64x2048x64.Idx → EReal)
    = shapeCast S64x2048x64 (transpose S4x16x2048x64 [0, 2, 1, 3] (shapeCast S4x2048x16x64 (W6 m ρ c main_v11) shapeCasts_S8192x1024_S4x2048x16x64)
      transposes_S4x2048x16x64_S4x16x2048x64_0_2_1_3) shapeCasts_S4x16x2048x64_S64x2048x64 := by
  dsimp only [W7, hostOps3]; after_results <;> rfl
theorem W9_v24 (c : Dev nD) : (W9 m ρ c main_v24 : S8192x1024.Idx → EReal)
    = shapeCast S8192x1024 (transpose S4x2048x16x64 [0, 2, 1, 3] (shapeCast S4x16x2048x64 (W8 m ρ c main_v21) shapeCasts_S64x2048x64_S4x16x2048x64)
      transposes_S4x16x2048x64_S4x2048x16x64_0_2_1_3) shapeCasts_S4x2048x16x64_S8192x1024 := by
  dsimp only [W9, hostOps4]; after_results <;> rfl
theorem W9_v25 (c : Dev nD) : (W9 m ρ c main_v25 : S1024x1024.Idx → EReal)
    = transpose S1024x1024 [1, 0] (W8 m ρ c main_arg9) transposes_S1024x1024_S1024x1024_1_0 := by
  dsimp only [W9, hostOps4]; after_results <;> rfl
theorem W9_v26 (c : Dev nD) : (W9 m ρ c main_v26 : S1x1024.Idx → EReal)
    = shapeCast S1x1024 (W8 m ρ c main_arg10) shapeCasts_S1024_S1x1024 := by
  dsimp only [W9, hostOps4]; after_results <;> rfl
theorem W11_v28 (c : Dev nD) : (W11 m ρ c main_v28 : S4x2048x1024.Idx → EReal)
    = shapeCast S4x2048x1024 (W10 m ρ c main_v27) shapeCasts_S8192x1024_S4x2048x1024 := by
  dsimp only [W11, hostOps5]; after_results <;> rfl

/-! ## Buffers carried unchanged to where they are read -/

/-- An argument array still holds its launch contents at region 0's exit. -/
theorem W2_arg (c : Dev nD) (r : Ref sig .tc) (h0 : r ∉ hostOps0_W) (a0 : ∀ w, Pipeline.arrRef spec0 w ≠ r) :
    W2 m ρ c (Proc.devRef .tc r) = m ((c : Thread nD τ).loc r) :=
  (W2_of_ne m ρ c r a0).trans ((hostKeep0 m ρ c r h0).trans rfl)
theorem W4_arg (c : Dev nD) (r : Ref sig .tc) (h0 : r ∉ hostOps0_W) (a0 : ∀ w, Pipeline.arrRef spec0 w ≠ r)
    (h1 : r ∉ hostOps1_W) (a1 : ∀ w, Pipeline.arrRef spec1 w ≠ r) :
    W4 m ρ c (Proc.devRef .tc r) = m ((c : Thread nD τ).loc r) :=
  (W4_of_ne m ρ c r a1).trans ((hostKeep1 m ρ c r h1).trans (W2_arg m ρ c r h0 a0))
theorem W6_arg (c : Dev nD) (r : Ref sig .tc) (h0 : r ∉ hostOps0_W) (a0 : ∀ w, Pipeline.arrRef spec0 w ≠ r)
    (h1 : r ∉ hostOps1_W) (a1 : ∀ w, Pipeline.arrRef spec1 w ≠ r) (h2 : r ∉ hostOps2_W) (a2 : ∀ w, Pipeline.arrRef spec2 w ≠ r) :
    W6 m ρ c (Proc.devRef .tc r) = m ((c : Thread nD τ).loc r) :=
  (W6_of_ne m ρ c r a2).trans ((hostKeep2 m ρ c r h2).trans (W4_arg m ρ c r h0 a0 h1 a1))
theorem W8_arg (c : Dev nD) (r : Ref sig .tc) (h0 : r ∉ hostOps0_W) (a0 : ∀ w, Pipeline.arrRef spec0 w ≠ r)
    (h1 : r ∉ hostOps1_W) (a1 : ∀ w, Pipeline.arrRef spec1 w ≠ r) (h2 : r ∉ hostOps2_W) (a2 : ∀ w, Pipeline.arrRef spec2 w ≠ r)
    (h3 : r ∉ hostOps3_W) (a3 : ∀ w, Pipeline.arrRef spec3 w ≠ r) :
    W8 m ρ c (Proc.devRef .tc r) = m ((c : Thread nD τ).loc r) :=
  (W8_of_ne m ρ c r a3).trans ((hostKeep3 m ρ c r h3).trans (W6_arg m ρ c r h0 a0 h1 a1 h2 a2))

/-- The second and third flattened activations wait for their regions. -/
theorem W3_v1 (c : Dev nD) : W3 m ρ c (Proc.devRef .tc main_v1) = W1 m ρ c (Proc.devRef .tc main_v1) :=
  (hostKeep1 m ρ c main_v1 (by decide)).trans (W2_of_ne m ρ c main_v1 (by decide))
theorem W5_v2 (c : Dev nD) : W5 m ρ c (Proc.devRef .tc main_v2) = W1 m ρ c (Proc.devRef .tc main_v2) :=
  (hostKeep2 m ρ c main_v2 (by decide)).trans ((W4_of_ne m ρ c main_v2 (by decide)).trans
    ((hostKeep1 m ρ c main_v2 (by decide)).trans (W2_of_ne m ρ c main_v2 (by decide))))
/-- The first two projections wait for the attention region's host stretch. -/
theorem W6_v5 (c : Dev nD) : W6 m ρ c (Proc.devRef .tc main_v5) = W2 m ρ c (Proc.devRef .tc main_v5) :=
  (W6_of_ne m ρ c main_v5 (by decide)).trans ((hostKeep2 m ρ c main_v5 (by decide)).trans
    ((W4_of_ne m ρ c main_v5 (by decide)).trans (hostKeep1 m ρ c main_v5 (by decide))))
theorem W6_v8 (c : Dev nD) : W6 m ρ c (Proc.devRef .tc main_v8) = W4 m ρ c (Proc.devRef .tc main_v8) :=
  (W6_of_ne m ρ c main_v8 (by decide)).trans (hostKeep2 m ρ c main_v8 (by decide))

end Cert.KernelIdeal.Run

end
-- ==== Proof.FrameArgs.lean ====
/-
  The argument arrays end as launched: no host operation and no region writes one (every window's array is a buffer the
  host operations made), so the fold of the buffer contents through @main, read at a buffer that no segment writes, walks
  back to the launch memory; and with it the frame claim's post from the run.
-/
import proofs.«143932_j22789096473378_1_alg».proof.Proof.FrameRun

set_option maxRecDepth 16384

noncomputable section

namespace Cert.KernelIdeal.Run

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- A buffer that no host stretch writes and that is no window's array holds at the end what it held at launch. -/
theorem W11_of (c : Dev nD) (r : Ref sig .tc)
    (h0 : r ∉ hostOps0_W) (a0 : ∀ w, Pipeline.arrRef spec0 w ≠ r) (h1 : r ∉ hostOps1_W) (a1 : ∀ w, Pipeline.arrRef spec1 w ≠ r)
    (h2 : r ∉ hostOps2_W) (a2 : ∀ w, Pipeline.arrRef spec2 w ≠ r) (h3 : r ∉ hostOps3_W) (a3 : ∀ w, Pipeline.arrRef spec3 w ≠ r)
    (h4 : r ∉ hostOps4_W) (a4 : ∀ w, Pipeline.arrRef spec4 w ≠ r) (h5 : r ∉ hostOps5_W) :
    W11 m ρ c (Proc.devRef .tc r) = m ((c : Thread nD τ).loc r) :=
  (StableHlo.after_of_writes_sub hostOps5 _ hostOps5_writes h5).trans <| (W10_of_ne m ρ c r a4).trans <|
  (StableHlo.after_of_writes_sub hostOps4 _ hostOps4_writes h4).trans <| (W8_of_ne m ρ c r a3).trans <|
  (StableHlo.after_of_writes_sub hostOps3 _ hostOps3_writes h3).trans <| (W6_of_ne m ρ c r a2).trans <|
  (StableHlo.after_of_writes_sub hostOps2 _ hostOps2_writes h2).trans <| (W4_of_ne m ρ c r a1).trans <|
  (StableHlo.after_of_writes_sub hostOps1 _ hostOps1_writes h1).trans <| (W2_of_ne m ρ c r a0).trans <|
  (StableHlo.after_of_writes_sub hostOps0 _ hostOps0_writes h0).trans rfl

theorem W11_arg0 (c : Dev nD) : W11 m ρ c (Proc.devRef .tc main_arg0) = m ((c : Thread nD τ).loc main_arg0) :=
  W11_of m ρ c main_arg0 (by decide) (by decide) (by decide) (by decide) (by decide) (by decide) (by decide) (by decide) (by decide) (by decide) (by decide)
theorem W11_arg1 (c : Dev nD) : W11 m ρ c (Proc.devRef .tc main_arg1) = m ((c : Thread nD τ).loc main_arg1) :=
  W11_of m ρ c main_arg1 (by decide) (by decide) (by decide) (by decide) (by decide) (by decide) (by decide) (by decide) (by decide) (by decide) (by decide)
theorem W11_arg2 (c : Dev nD) : W11 m ρ c (Proc.devRef .tc main_arg2) = m ((c : Thread nD τ).loc main_arg2) :=
  W11_of m ρ c main_arg2 (by decide) (by decide) (by decide) (by decide) (by decide) (by decide) (by decide) (by decide) (by decide) (by decide) (by decide)
theorem W11_arg3 (c : Dev nD) : W11 m ρ c (Proc.devRef .tc main_arg3) = m ((c : Thread nD τ).loc main_arg3) :=
  W11_of m ρ c main_arg3 (by decide) (by decide) (by decide) (by decide) (by decide) (by decide) (by decide) (by decide) (by decide) (by decide) (by decide)
theorem W11_arg4 (c : Dev nD) : W11 m ρ c (Proc.devRef .tc main_arg4) = m ((c : Thread nD τ).loc main_arg4) :=
  W11_of m ρ c main_arg4 (by decide) (by decide) (by decide) (by decide) (by decide) (by decide) (by decide) (by decide) (by decide) (by decide) (by decide)
theorem W11_arg5 (c : Dev nD) : W11 m ρ c (Proc.devRef .tc main_arg5) = m ((c : Thread nD τ).loc main_arg5) :=
  W11_of m ρ c main_arg5 (by decide) (by decide) (by decide) (by decide) (by decide) (by decide) (by decide) (by decide) (by decide) (by decide) (by decide)
theorem W11_arg6 (c : Dev nD) : W11 m ρ c (Proc.devRef .tc main_arg6) = m ((c : Thread nD τ).loc main_arg6) :=
  W11_of m ρ c main_arg6 (by decide) (by decide) (by decide) (by decide) (by decide) (by decide) (by decide) (by decide) (by decide) (by decide) (by decide)
theorem W11_arg7 (c : Dev nD) : W11 m ρ c (Proc.devRef .tc main_arg7) = m ((c : Thread nD τ).loc main_arg7) :=
  W11_of m ρ c main_arg7 (by decide) (by decide) (by decide) (by decide) (by decide) (by decide) (by decide) (by decide) (by decide) (by decide) (by decide)
theorem W11_arg8 (c : Dev nD) : W11 m ρ c (Proc.devRef .tc main_arg8) = m ((c : Thread nD τ).loc main_arg8) :=
  W11_of m ρ c main_arg8 (by decide) (by decide) (by decide) (by decide) (by decide) (by decide) (by decide) (by decide) (by decide) (by decide) (by decide)
theorem W11_arg9 (c : Dev nD) : W11 m ρ c (Proc.devRef .tc main_arg9) = m ((c : Thread nD τ).loc main_arg9) :=
  W11_of m ρ c main_arg9 (by decide) (by decide) (by decide) (by decide) (by decide) (by decide) (by decide) (by decide) (by decide) (by decide) (by decide)
theorem W11_arg10 (c : Dev nD) : W11 m ρ c (Proc.devRef .tc main_arg10) = m ((c : Thread nD τ).loc main_arg10) :=
  W11_of m ρ c main_arg10 (by decide) (by decide) (by decide) (by decide) (by decide) (by decide) (by decide) (by decide) (by decide) (by decide) (by decide)

/-- THE FRAME: every weakly fair execution of @main terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W11_arg0 m ρ c),
    (h c _ (mem_uc main_arg1 (by decide))).trans (W11_arg1 m ρ c),
    (h c _ (mem_uc main_arg2 (by decide))).trans (W11_arg2 m ρ c),
    (h c _ (mem_uc main_arg3 (by decide))).trans (W11_arg3 m ρ c),
    (h c _ (mem_uc main_arg4 (by decide))).trans (W11_arg4 m ρ c),
    (h c _ (mem_uc main_arg5 (by decide))).trans (W11_arg5 m ρ c),
    (h c _ (mem_uc main_arg6 (by decide))).trans (W11_arg6 m ρ c),
    (h c _ (mem_uc main_arg7 (by decide))).trans (W11_arg7 m ρ c),
    (h c _ (mem_uc main_arg8 (by decide))).trans (W11_arg8 m ρ c),
    (h c _ (mem_uc main_arg9 (by decide))).trans (W11_arg9 m ρ c),
    (h c _ (mem_uc main_arg10 (by decide))).trans (W11_arg10 m ρ c)⟩) (run_all m ρ)

end Cert.KernelIdeal.Run

end
-- ==== Proof.Spec.lean ====
/-
  The attention layer as ONE function of the argument arrays, index by index, over the extended reals.
  Four linear layers `y[r, e] = Σ_k x[r, k] · Wᵀ[k, e] + b[e]` on the 8192 = 4 · 2048 rows of the flattened activations, and
  between them, per batch-head `bh = 16 b + h`, the sigmoid attention
  `o[bh, q, d] = Σ_j sigmoid((Σ_dd Q[bh, q, dd] · K[bh, j, dd]) · (1/8)) · V[bh, j, d]` over all 2048 keys, the heads being the
  64-column slices of the projected rows. The layout changes between the forms (rows ↔ batch × sequence, rows ↔ heads) are
  spelt as index arithmetic.
-/
import Idealize.ShloMosaic.PureOps.Ideal
import Idealize.ShloMosaic.Lib.ValueIdx

noncomputable section

namespace Cert.Spec

open Idealize.ShloMosaic Idealize.ShloMosaic.ValueIdx

abbrev A3 : Shape := ⟨3, ![4, 2048, 1024]⟩
abbrev A2 : Shape := ⟨2, ![1024, 1024]⟩
abbrev A1 : Shape := ⟨1, ![1024]⟩
abbrev R2 : Shape := ⟨2, ![8192, 1024]⟩
abbrev B2 : Shape := ⟨2, ![1, 1024]⟩
abbrev H3 : Shape := ⟨3, ![64, 2048, 64]⟩

/-- The scale of the scores, 1/8, as the kernel spells it (the f32 pattern of 0.125). -/
def c8 : EReal := Ideal.ofBits .f32 0x3E000000#32

/-- One linear layer on rows: `Σ_k X[r, k] · Wt[k, e] + B[0, e]`. -/
def linAt (X : R2.Idx → EReal) (Wt : A2.Idx → EReal) (B : B2.Idx → EReal) (r : Fin 8192) (e : Fin 1024) : EReal :=
  (∑ k : Fin 1024, X (ix2 r k) * Wt (ix2 k e)) + B (ix2 (0 : Fin 1) e)
def linArr (X : R2.Idx → EReal) (Wt : A2.Idx → EReal) (B : B2.Idx → EReal) : R2.Idx → EReal :=
  fun i => linAt X Wt B (i 0) (i 1)

/-- The sigmoid attention of one batch-head at one query row and one head column, over all 2048 keys. -/
def attnAt (Q K Vv : H3.Idx → EReal) (g : Fin 64) (q : Fin 2048) (d : Fin 64) : EReal :=
  ∑ j : Fin 2048, Ideal.logistic ((∑ dd : Fin 64, Q (ix3 g q dd) * K (ix3 g j dd)) * c8) * Vv (ix3 g j d)
def attnArr (Q K Vv : H3.Idx → EReal) : H3.Idx → EReal :=
  fun i => attnAt Q K Vv (i 0) (i 1) (i 2)

/-- The activations flattened to rows: row `r` is batch `r / 2048`, position `r % 2048`. -/
def rowsAt (x : A3.Idx → EReal) (r : Fin 8192) (e : Fin 1024) : EReal :=
  x (ix3 (⟨r.val / 2048, by omega⟩ : Fin 4) (⟨r.val % 2048, by omega⟩ : Fin 2048) e)
def rowsOf (x : A3.Idx → EReal) : R2.Idx → EReal := fun i => rowsAt x (i 0) (i 1)
/-- The transposed weight. -/
def tr (W : A2.Idx → EReal) : A2.Idx → EReal := fun i => W (ix2 (i 1) (i 0))
/-- The bias as a one-row matrix. -/
def row1 (b : A1.Idx → EReal) : B2.Idx → EReal := fun i => b (ix1 (i 1))
/-- The heads of projected rows: batch-head `g = 16 b + h` at position `q`, column `d` is row `2048 b + q`, column `64 h + d`. -/
def headsAt (Y : R2.Idx → EReal) (g : Fin 64) (q : Fin 2048) (d : Fin 64) : EReal :=
  Y (ix2 (⟨(g.val / 16) * 2048 + q.val, by omega⟩ : Fin 8192) (⟨(g.val % 16) * 64 + d.val, by omega⟩ : Fin 1024))
def heads (Y : R2.Idx → EReal) : H3.Idx → EReal := fun i => headsAt Y (i 0) (i 1) (i 2)
/-- The heads merged back into rows: row `r`, column `e` is batch-head `16 (r / 2048) + e / 64`, position `r % 2048`, column `e % 64`. -/
def unheadsAt (O : H3.Idx → EReal) (r : Fin 8192) (e : Fin 1024) : EReal :=
  O (ix3 (⟨(r.val / 2048) * 16 + e.val / 64, by omega⟩ : Fin 64) (⟨r.val % 2048, by omega⟩ : Fin 2048) (⟨e.val % 64, by omega⟩ : Fin 64))
def unheads (O : H3.Idx → EReal) : R2.Idx → EReal := fun i => unheadsAt O (i 0) (i 1)
/-- Rows back to batch × sequence. -/
def unrowsAt (Y : R2.Idx → EReal) (b : Fin 4) (s : Fin 2048) (e : Fin 1024) : EReal :=
  Y (ix2 (⟨b.val * 2048 + s.val, by omega⟩ : Fin 8192) e)
def unrows (Y : R2.Idx → EReal) : A3.Idx → EReal := fun i => unrowsAt Y (i 0) (i 1) (i 2)

/-- The whole layer: the result array as a function of the eleven argument arrays. -/
def G (x0 x1 x2 : A3.Idx → EReal) (Wq : A2.Idx → EReal) (bq : A1.Idx → EReal) (Wk : A2.Idx → EReal) (bk : A1.Idx → EReal)
    (Wv : A2.Idx → EReal) (bv : A1.Idx → EReal) (Wo : A2.Idx → EReal) (bo : A1.Idx → EReal) : A3.Idx → EReal :=
  unrows (linArr (unheads (attnArr (heads (linArr (rowsOf x0) (tr Wq) (row1 bq))) (heads (linArr (rowsOf x1) (tr Wk) (row1 bk)))
    (heads (linArr (rowsOf x2) (tr Wv) (row1 bv))))) (tr Wo) (row1 bo))

end Cert.Spec

end
-- ==== Proof.LinVal0.lean ====
/-
  What the first projection region leaves in its output array: every 512-row block of the array is what the grid point of
  that block wrote, the body's one store of `matmul + bias` of the point's input blocks; read at an index this is the
  linear layer `Cert.Spec.linArr` of the region's three input arrays.

  The payload at an index `(p, q)` of the block is `Σ_k x[p, k] · w[k, q] + b[0, q]` of the three loaded blocks (the
  rounding to bf16 is the identity on the ideal values, the accumulator is zero, the bias row is broadcast down the rows).
  At grid point `t` the activations' block is rows `512 t …` of their array and the weight's and the bias row's blocks are
  their whole arrays, so what point `t` writes back is rows `512 t …` of the linear layer of the three arrays; the
  sixteen blocks cover the 8192 rows (row `r` is in block `r / 512`), so the array ends holding the linear layer.
-/
import proofs.«143932_j22789096473378_1_alg».proof.Proof.Lin0
import proofs.«143932_j22789096473378_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Lin0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! The product's dimension numbers contract the left operand's columns with the right operand's rows: at a result index
    `j` and a contraction position, the left operand is read at row `j 0` and the right operand at column `j 1`. -/

theorem dotL_row (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem dotL_contr (j : S512x1024.Idx) (q : dot_S512x1024_S1024x1024_S512x1024_1_0_0_1_n_n.contr.Idx) :
    (dot_S512x1024_S1024x1024_S512x1024_1_0_0_1_n_n.lhsIdx j q 1).val = (q ⟨0, by decide⟩).val :=
  dot_S512x1024_S1024x1024_S512x1024_1_0_0_1_n_n.lhsIdx_val_of_single rfl j q
theorem dotR_contr (j : S512x1024.Idx) (q : dot_S512x1024_S1024x1024_S512x1024_1_0_0_1_n_n.contr.Idx) :
    (dot_S512x1024_S1024x1024_S512x1024_1_0_0_1_n_n.rhsIdx j q 0).val = (q ⟨0, by decide⟩).val :=
  dot_S512x1024_S1024x1024_S512x1024_1_0_0_1_n_n.rhsIdx_val_of_single rfl j q
theorem dotR_col (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product of a block of rows with the whole weight, read at an index: the sum over the contracted axis. -/
theorem mm_apply (a : FVec Ideal S512x1024 .bf16) (b : FVec Ideal S1024x1024 .bf16) (p : Fin 512) (q : Fin 1024) :
    matmul dot_S512x1024_S1024x1024_S512x1024_1_0_0_1_n_n none a b (constant S512x1024 .f32 0x00000000#32) (ix2 p q)
      = ∑ k : Fin 1024, a (ix2 p k) * b (ix2 k q) := by
  refine (Ideal.matmul_constant_zero_apply dot_S512x1024_S1024x1024_S512x1024_1_0_0_1_n_n none a b (ix2 p q)).trans ?_
  rw [← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact dotL_row _ _
    | ⟨1, _⟩ => exact (dotL_contr _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (dotR_contr _ _).trans hk
    | ⟨1, _⟩ => exact dotR_col _ _)
  rw [el, er]

/-- The body's payload at an index: the row of the first block times the column of the second, plus the bias row's entry. -/
theorem pay_apply (x0 : Vec Ideal S512x1024 .f32) (x1 : Vec Ideal S1024x1024 .f32) (x2 : Vec Ideal S1x1024 .f32)
    (p : Fin 512) (q : Fin 1024) :
    k0_pay1 (F := Ideal) x0 x1 x2 (ix2 p q) = (∑ k : Fin 1024, x0 (ix2 p k) * x1 (ix2 k q)) + x2 (ix2 0 q) := by
  unfold k0_pay1
  simp only [shapeCast_self]
  refine (addf_apply _ _ _).trans ?_
  refine congrArg₂ (· + ·) ?_ ?_
  · exact mm_apply _ _ p q
  · refine broadcastTo_apply x2 broadcasts_S1x1024_S512x1024 (ix2 p q) (ix2 0 q) (fun a => ?_)
    match a with
    | ⟨0, _⟩ => rfl
    | ⟨1, _⟩ => rfl

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the activations' and the output's blocks move down the rows together, one block per
    point; the weight's and the bias row's stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 16 := lt_of_lt_of_eq t.isLt N_0

/-- Row `p` of block `t` is row `512 t + p` of the array. -/
def rowOf (t : Fin cfg0.N) (p : Fin 512) : Fin 8192 := ⟨t.val * 512 + p.val, by have := point_lt t; have := p.isLt; omega⟩

/-- The activations' block at point `t`, read at an index: row `512 t + p` of the array. -/
theorem blkX_apply (c : Dev nD) (t : Fin cfg0.N) (p : Fin 512) (k : Fin 1024) :
    iblk0 V c 0 t (ix2 p k) = (V c main_v0 : Cert.Spec.R2.Idx → EReal) (ix2 (rowOf t p) k) := by
  obtain ⟨e00, e01, -⟩ := idx_facts t
  show (V c main_v0 : Cert.Spec.R2.Idx → EReal) (((cfg0.win 0).blk t).view.emb (ix2 p k)) = _
  refine congrArg _ (funext fun a => Fin.ext ?_)
  match a with
  | ⟨0, _⟩ => show win0_0.index t (0 : Fin 2) * 512 + 1 * p.val = t.val * 512 + p.val; omega
  | ⟨1, _⟩ => show win0_0.index t (1 : Fin 2) * 1024 + 1 * k.val = k.val; omega

/-- The weight's block at every point is the whole weight. -/
theorem blkW_apply (c : Dev nD) (t : Fin cfg0.N) (k : Fin 1024) (q : Fin 1024) :
    iblk0 V c 1 t (ix2 k q) = (V c main_v3 : Cert.Spec.A2.Idx → EReal) (ix2 k q) := by
  obtain ⟨-, -, e10, e11, -⟩ := idx_facts t
  show (V c main_v3 : Cert.Spec.A2.Idx → EReal) (((cfg0.win 1).blk t).view.emb (ix2 k q)) = _
  refine congrArg _ (funext fun a => Fin.ext ?_)
  match a with
  | ⟨0, _⟩ => show win0_1.index t (0 : Fin 2) * 1024 + 1 * k.val = k.val; omega
  | ⟨1, _⟩ => show win0_1.index t (1 : Fin 2) * 1024 + 1 * q.val = q.val; omega

/-- The bias row's block at every point is the whole row. -/
theorem blkB_apply (c : Dev nD) (t : Fin cfg0.N) (q : Fin 1024) :
    iblk0 V c 2 t (ix2 (0 : Fin 1) q) = (V c main_v4 : Cert.Spec.B2.Idx → EReal) (ix2 (0 : Fin 1) q) := by
  obtain ⟨-, -, -, -, e20, e21, -⟩ := idx_facts t
  show (V c main_v4 : Cert.Spec.B2.Idx → EReal) (((cfg0.win 2).blk t).view.emb (ix2 (0 : Fin 1) q)) = _
  refine congrArg _ (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 1024 + 1 * q.val = q.val; omega

/-- Where the output's block at point `t` sits in the array. -/
theorem blkO_emb (t : Fin cfg0.N) (p : Fin 512) (q : Fin 1024) :
    (((cfg0.win 3).blk t).view.emb (ix2 p q) : Cert.Spec.R2.Idx) = ix2 (rowOf t p) q := by
  obtain ⟨-, -, -, -, -, -, e30, e31⟩ := idx_facts t
  refine funext fun a => Fin.ext ?_
  match a with
  | ⟨0, _⟩ => show win0_3.index t (0 : Fin 2) * 512 + 1 * p.val = t.val * 512 + p.val; omega
  | ⟨1, _⟩ => show win0_3.index t (1 : Fin 2) * 1024 + 1 * q.val = q.val; omega

/-- What point `t` writes back is block `t` of the linear layer of the three arrays. -/
theorem flushed_eq (c : Dev nD) (t : Fin cfg0.N) :
    (dat0 (F := Ideal) V c).flushed 3 t
      = ((cfg0.win 3).blk t).view.read (Elt Ideal) (Cert.Spec.linArr (V c main_v0) (V c main_v3) (V c main_v4)) := by
  show (cfg0.win 3).cut (grid0.coords t) ((dat0 V c).after 3 t) = _
  rw [after0_3]
  unfold out0_3
  rw [View.canon_unit_zero hz]
  simp only [View.ld_unit_zero (S := S512x1024) hz, View.ld_unit_zero (S := S1024x1024) hz, View.ld_unit_zero (S := S1x1024) hz]
  funext j
  obtain ⟨p, q, rfl⟩ : ∃ (p : Fin 512) (q : Fin 1024), j = ix2 p q := ⟨j 0, j 1, eq_ix2 j⟩
  refine (pay_apply _ _ _ p q).trans ?_
  show _ = Cert.Spec.linArr (V c main_v0) (V c main_v3) (V c main_v4) (((cfg0.win 3).blk t).view.emb (ix2 p q))
  rw [blkO_emb t p q, blkB_apply V c t q]
  simp only [blkX_apply V c t p, blkW_apply V c t _ q]
  rfl

/-- An index of the array is in point `t`'s block iff each coordinate is in the block's range on its axis. -/
theorem mem_blk (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole (Pipeline.arrRef spec0 3)).slice (win0_3.rect t)).set ↔ _
  rw [View.set_slice_whole, Rect.mem_set_unit]
  exact Iff.rfl

/-- Every row of the array is in the block of the point its row number divided by the block's height names. -/
theorem cover (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  have ht : (i 0).val / 512 < cfg0.N := lt_of_lt_of_eq (by omega : (i 0).val / 512 < 16) N_0.symm
  obtain ⟨-, -, -, -, -, -, e30, e31⟩ := idx_facts ⟨(i 0).val / 512, ht⟩
  have e30' : win0_3.index ⟨(i 0).val / 512, ht⟩ (0 : Fin 2) = (i 0).val / 512 := e30
  refine ⟨⟨(i 0).val / 512, ht⟩, flush0_3 _, ?_⟩
  rw [mem_blk]
  intro a
  match a with
  | ⟨0, _⟩ =>
    show win0_3.index ⟨(i 0).val / 512, ht⟩ (0 : Fin 2) * 512 ≤ (i 0).val ∧ (i 0).val < win0_3.index ⟨(i 0).val / 512, ht⟩ (0 : Fin 2) * 512 + 512
    omega
  | ⟨1, _⟩ =>
    show win0_3.index ⟨(i 0).val / 512, ht⟩ (1 : Fin 2) * 1024 ≤ (i 1).val ∧ (i 1).val < win0_3.index ⟨(i 0).val / 512, ht⟩ (1 : Fin 2) * 1024 + 1024
    omega

/-- The output array after the region is the linear layer of the three input arrays as the region found them. -/
theorem arrAt_eq (c : Dev nD) :
    (dat0 (F := Ideal) V c).arrAt 3 cfg0.N = Cert.Spec.linArr (V c main_v0) (V c main_v3) (V c main_v4) :=
  (dat0 (F := Ideal) V c).arrAt_eq_of_cover 3 _ (fun t _ => flushed_eq V c t) (fun i => cover i)

end Cert.KernelIdeal.Lin0

end
-- ==== Proof.LinVal1.lean ====
/-
  What the second projection region leaves in its output array: every 512-row block of the array is what the grid point of
  that block wrote, the body's one store of `matmul + bias` of the point's input blocks; read at an index this is the
  linear layer `Cert.Spec.linArr` of the region's three input arrays.

  The payload at an index `(p, q)` of the block is `Σ_k x[p, k] · w[k, q] + b[0, q]` of the three loaded blocks (the
  rounding to bf16 is the identity on the ideal values, the accumulator is zero, the bias row is broadcast down the rows).
  At grid point `t` the activations' block is rows `512 t …` of their array and the weight's and the bias row's blocks are
  their whole arrays, so what point `t` writes back is rows `512 t …` of the linear layer of the three arrays; the
  sixteen blocks cover the 8192 rows (row `r` is in block `r / 512`), so the array ends holding the linear layer.
-/
import proofs.«143932_j22789096473378_1_alg».proof.Proof.Lin1
import proofs.«143932_j22789096473378_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Lin1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! The product's dimension numbers contract the left operand's columns with the right operand's rows: at a result index
    `j` and a contraction position, the left operand is read at row `j 0` and the right operand at column `j 1`. -/

theorem dotL_row (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem dotL_contr (j : S512x1024.Idx) (q : dot_S512x1024_S1024x1024_S512x1024_1_0_0_1_n_n.contr.Idx) :
    (dot_S512x1024_S1024x1024_S512x1024_1_0_0_1_n_n.lhsIdx j q 1).val = (q ⟨0, by decide⟩).val :=
  dot_S512x1024_S1024x1024_S512x1024_1_0_0_1_n_n.lhsIdx_val_of_single rfl j q
theorem dotR_contr (j : S512x1024.Idx) (q : dot_S512x1024_S1024x1024_S512x1024_1_0_0_1_n_n.contr.Idx) :
    (dot_S512x1024_S1024x1024_S512x1024_1_0_0_1_n_n.rhsIdx j q 0).val = (q ⟨0, by decide⟩).val :=
  dot_S512x1024_S1024x1024_S512x1024_1_0_0_1_n_n.rhsIdx_val_of_single rfl j q
theorem dotR_col (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product of a block of rows with the whole weight, read at an index: the sum over the contracted axis. -/
theorem mm_apply (a : FVec Ideal S512x1024 .bf16) (b : FVec Ideal S1024x1024 .bf16) (p : Fin 512) (q : Fin 1024) :
    matmul dot_S512x1024_S1024x1024_S512x1024_1_0_0_1_n_n none a b (constant S512x1024 .f32 0x00000000#32) (ix2 p q)
      = ∑ k : Fin 1024, a (ix2 p k) * b (ix2 k q) := by
  refine (Ideal.matmul_constant_zero_apply dot_S512x1024_S1024x1024_S512x1024_1_0_0_1_n_n none a b (ix2 p q)).trans ?_
  rw [← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact dotL_row _ _
    | ⟨1, _⟩ => exact (dotL_contr _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (dotR_contr _ _).trans hk
    | ⟨1, _⟩ => exact dotR_col _ _)
  rw [el, er]

/-- The body's payload at an index: the row of the first block times the column of the second, plus the bias row's entry. -/
theorem pay_apply (x0 : Vec Ideal S512x1024 .f32) (x1 : Vec Ideal S1024x1024 .f32) (x2 : Vec Ideal S1x1024 .f32)
    (p : Fin 512) (q : Fin 1024) :
    k1_pay1 (F := Ideal) x0 x1 x2 (ix2 p q) = (∑ k : Fin 1024, x0 (ix2 p k) * x1 (ix2 k q)) + x2 (ix2 0 q) := by
  unfold k1_pay1
  simp only [shapeCast_self]
  refine (addf_apply _ _ _).trans ?_
  refine congrArg₂ (· + ·) ?_ ?_
  · exact mm_apply _ _ p q
  · refine broadcastTo_apply x2 broadcasts_S1x1024_S512x1024 (ix2 p q) (ix2 0 q) (fun a => ?_)
    match a with
    | ⟨0, _⟩ => rfl
    | ⟨1, _⟩ => rfl

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the activations' and the output's blocks move down the rows together, one block per
    point; the weight's and the bias row's stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 16 := lt_of_lt_of_eq t.isLt N_1

/-- Row `p` of block `t` is row `512 t + p` of the array. -/
def rowOf (t : Fin cfg1.N) (p : Fin 512) : Fin 8192 := ⟨t.val * 512 + p.val, by have := point_lt t; have := p.isLt; omega⟩

/-- The activations' block at point `t`, read at an index: row `512 t + p` of the array. -/
theorem blkX_apply (c : Dev nD) (t : Fin cfg1.N) (p : Fin 512) (k : Fin 1024) :
    iblk1 V c 0 t (ix2 p k) = (V c main_v1 : Cert.Spec.R2.Idx → EReal) (ix2 (rowOf t p) k) := by
  obtain ⟨e00, e01, -⟩ := idx_facts t
  show (V c main_v1 : Cert.Spec.R2.Idx → EReal) (((cfg1.win 0).blk t).view.emb (ix2 p k)) = _
  refine congrArg _ (funext fun a => Fin.ext ?_)
  match a with
  | ⟨0, _⟩ => show win1_0.index t (0 : Fin 2) * 512 + 1 * p.val = t.val * 512 + p.val; omega
  | ⟨1, _⟩ => show win1_0.index t (1 : Fin 2) * 1024 + 1 * k.val = k.val; omega

/-- The weight's block at every point is the whole weight. -/
theorem blkW_apply (c : Dev nD) (t : Fin cfg1.N) (k : Fin 1024) (q : Fin 1024) :
    iblk1 V c 1 t (ix2 k q) = (V c main_v6 : Cert.Spec.A2.Idx → EReal) (ix2 k q) := by
  obtain ⟨-, -, e10, e11, -⟩ := idx_facts t
  show (V c main_v6 : Cert.Spec.A2.Idx → EReal) (((cfg1.win 1).blk t).view.emb (ix2 k q)) = _
  refine congrArg _ (funext fun a => Fin.ext ?_)
  match a with
  | ⟨0, _⟩ => show win1_1.index t (0 : Fin 2) * 1024 + 1 * k.val = k.val; omega
  | ⟨1, _⟩ => show win1_1.index t (1 : Fin 2) * 1024 + 1 * q.val = q.val; omega

/-- The bias row's block at every point is the whole row. -/
theorem blkB_apply (c : Dev nD) (t : Fin cfg1.N) (q : Fin 1024) :
    iblk1 V c 2 t (ix2 (0 : Fin 1) q) = (V c main_v7 : Cert.Spec.B2.Idx → EReal) (ix2 (0 : Fin 1) q) := by
  obtain ⟨-, -, -, -, e20, e21, -⟩ := idx_facts t
  show (V c main_v7 : Cert.Spec.B2.Idx → EReal) (((cfg1.win 2).blk t).view.emb (ix2 (0 : Fin 1) q)) = _
  refine congrArg _ (funext fun a => Fin.ext ?_)
  match a with
  | ⟨0, _⟩ => show win1_2.index t (0 : Fin 2) * 1 + 1 * (0 : Fin 1).val = (0 : Fin 1).val; omega
  | ⟨1, _⟩ => show win1_2.index t (1 : Fin 2) * 1024 + 1 * q.val = q.val; omega

/-- Where the output's block at point `t` sits in the array. -/
theorem blkO_emb (t : Fin cfg1.N) (p : Fin 512) (q : Fin 1024) :
    (((cfg1.win 3).blk t).view.emb (ix2 p q) : Cert.Spec.R2.Idx) = ix2 (rowOf t p) q := by
  obtain ⟨-, -, -, -, -, -, e30, e31⟩ := idx_facts t
  refine funext fun a => Fin.ext ?_
  match a with
  | ⟨0, _⟩ => show win1_3.index t (0 : Fin 2) * 512 + 1 * p.val = t.val * 512 + p.val; omega
  | ⟨1, _⟩ => show win1_3.index t (1 : Fin 2) * 1024 + 1 * q.val = q.val; omega

/-- What point `t` writes back is block `t` of the linear layer of the three arrays. -/
theorem flushed_eq (c : Dev nD) (t : Fin cfg1.N) :
    (dat1 (F := Ideal) V c).flushed 3 t
      = ((cfg1.win 3).blk t).view.read (Elt Ideal) (Cert.Spec.linArr (V c main_v1) (V c main_v6) (V c main_v7)) := by
  show (cfg1.win 3).cut (grid1.coords t) ((dat1 V c).after 3 t) = _
  rw [after1_3]
  unfold out1_3
  rw [View.canon_unit_zero hz]
  simp only [View.ld_unit_zero (S := S512x1024) hz, View.ld_unit_zero (S := S1024x1024) hz, View.ld_unit_zero (S := S1x1024) hz]
  funext j
  obtain ⟨p, q, rfl⟩ : ∃ (p : Fin 512) (q : Fin 1024), j = ix2 p q := ⟨j 0, j 1, eq_ix2 j⟩
  refine (pay_apply _ _ _ p q).trans ?_
  show _ = Cert.Spec.linArr (V c main_v1) (V c main_v6) (V c main_v7) (((cfg1.win 3).blk t).view.emb (ix2 p q))
  rw [blkO_emb t p q, blkB_apply V c t q]
  simp only [blkX_apply V c t p, blkW_apply V c t _ q]
  rfl

/-- An index of the array is in point `t`'s block iff each coordinate is in the block's range on its axis. -/
theorem mem_blk (t : Fin cfg1.N) (i : S8192x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole (Pipeline.arrRef spec1 3)).slice (win1_3.rect t)).set ↔ _
  rw [View.set_slice_whole, Rect.mem_set_unit]
  exact Iff.rfl

/-- Every row of the array is in the block of the point its row number divided by the block's height names. -/
theorem cover (i : S8192x1024.Idx) : ∃ t : Fin cfg1.N, (cfg1.win 3).flush t = true ∧ i ∈ ((cfg1.win 3).blk t).view.set := by
  have hi0 : (i 0).val < 8192 := (i 0).isLt
  have hi1 : (i 1).val < 1024 := (i 1).isLt
  have ht : (i 0).val / 512 < cfg1.N := lt_of_lt_of_eq (by omega : (i 0).val / 512 < 16) N_1.symm
  obtain ⟨-, -, -, -, -, -, e30, e31⟩ := idx_facts ⟨(i 0).val / 512, ht⟩
  have e30' : win1_3.index ⟨(i 0).val / 512, ht⟩ (0 : Fin 2) = (i 0).val / 512 := e30
  refine ⟨⟨(i 0).val / 512, ht⟩, flush1_3 _, ?_⟩
  rw [mem_blk]
  intro a
  match a with
  | ⟨0, _⟩ =>
    show win1_3.index ⟨(i 0).val / 512, ht⟩ (0 : Fin 2) * 512 ≤ (i 0).val ∧ (i 0).val < win1_3.index ⟨(i 0).val / 512, ht⟩ (0 : Fin 2) * 512 + 512
    omega
  | ⟨1, _⟩ =>
    show win1_3.index ⟨(i 0).val / 512, ht⟩ (1 : Fin 2) * 1024 ≤ (i 1).val ∧ (i 1).val < win1_3.index ⟨(i 0).val / 512, ht⟩ (1 : Fin 2) * 1024 + 1024
    omega

/-- The output array after the region is the linear layer of the three input arrays as the region found them. -/
theorem arrAt_eq (c : Dev nD) :
    (dat1 (F := Ideal) V c).arrAt 3 cfg1.N = Cert.Spec.linArr (V c main_v1) (V c main_v6) (V c main_v7) :=
  (dat1 (F := Ideal) V c).arrAt_eq_of_cover 3 _ (fun t _ => flushed_eq V c t) (fun i => cover i)

end Cert.KernelIdeal.Lin1

end
-- ==== Proof.LinVal2.lean ====
/-
  What the third projection region leaves in its output array: every 512-row block of the array is what the grid point of
  that block wrote, the body's one store of `matmul + bias` of the point's input blocks; read at an index this is the
  linear layer `Cert.Spec.linArr` of the region's three input arrays.

  The payload at an index `(p, q)` of the block is `Σ_k x[p, k] · w[k, q] + b[0, q]` of the three loaded blocks (the
  rounding to bf16 is the identity on the ideal values, the accumulator is zero, the bias row is broadcast down the rows).
  At grid point `t` the activations' block is rows `512 t …` of their array and the weight's and the bias row's blocks are
  their whole arrays, so what point `t` writes back is rows `512 t …` of the linear layer of the three arrays; the
  sixteen blocks cover the 8192 rows (row `r` is in block `r / 512`), so the array ends holding the linear layer.
-/
import proofs.«143932_j22789096473378_1_alg».proof.Proof.Lin2
import proofs.«143932_j22789096473378_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Lin2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! The product's dimension numbers contract the left operand's columns with the right operand's rows: at a result index
    `j` and a contraction position, the left operand is read at row `j 0` and the right operand at column `j 1`. -/

theorem dotL_row (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem dotL_contr (j : S512x1024.Idx) (q : dot_S512x1024_S1024x1024_S512x1024_1_0_0_1_n_n.contr.Idx) :
    (dot_S512x1024_S1024x1024_S512x1024_1_0_0_1_n_n.lhsIdx j q 1).val = (q ⟨0, by decide⟩).val :=
  dot_S512x1024_S1024x1024_S512x1024_1_0_0_1_n_n.lhsIdx_val_of_single rfl j q
theorem dotR_contr (j : S512x1024.Idx) (q : dot_S512x1024_S1024x1024_S512x1024_1_0_0_1_n_n.contr.Idx) :
    (dot_S512x1024_S1024x1024_S512x1024_1_0_0_1_n_n.rhsIdx j q 0).val = (q ⟨0, by decide⟩).val :=
  dot_S512x1024_S1024x1024_S512x1024_1_0_0_1_n_n.rhsIdx_val_of_single rfl j q
theorem dotR_col (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product of a block of rows with the whole weight, read at an index: the sum over the contracted axis. -/
theorem mm_apply (a : FVec Ideal S512x1024 .bf16) (b : FVec Ideal S1024x1024 .bf16) (p : Fin 512) (q : Fin 1024) :
    matmul dot_S512x1024_S1024x1024_S512x1024_1_0_0_1_n_n none a b (constant S512x1024 .f32 0x00000000#32) (ix2 p q)
      = ∑ k : Fin 1024, a (ix2 p k) * b (ix2 k q) := by
  refine (Ideal.matmul_constant_zero_apply dot_S512x1024_S1024x1024_S512x1024_1_0_0_1_n_n none a b (ix2 p q)).trans ?_
  rw [← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact dotL_row _ _
    | ⟨1, _⟩ => exact (dotL_contr _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (dotR_contr _ _).trans hk
    | ⟨1, _⟩ => exact dotR_col _ _)
  rw [el, er]

/-- The body's payload at an index: the row of the first block times the column of the second, plus the bias row's entry. -/
theorem pay_apply (x0 : Vec Ideal S512x1024 .f32) (x1 : Vec Ideal S1024x1024 .f32) (x2 : Vec Ideal S1x1024 .f32)
    (p : Fin 512) (q : Fin 1024) :
    k2_pay1 (F := Ideal) x0 x1 x2 (ix2 p q) = (∑ k : Fin 1024, x0 (ix2 p k) * x1 (ix2 k q)) + x2 (ix2 0 q) := by
  unfold k2_pay1
  simp only [shapeCast_self]
  refine (addf_apply _ _ _).trans ?_
  refine congrArg₂ (· + ·) ?_ ?_
  · exact mm_apply _ _ p q
  · refine broadcastTo_apply x2 broadcasts_S1x1024_S512x1024 (ix2 p q) (ix2 0 q) (fun a => ?_)
    match a with
    | ⟨0, _⟩ => rfl
    | ⟨1, _⟩ => rfl

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the activations' and the output's blocks move down the rows together, one block per
    point; the weight's and the bias row's stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem point_lt (t : Fin cfg2.N) : t.val < 16 := lt_of_lt_of_eq t.isLt N_2

/-- Row `p` of block `t` is row `512 t + p` of the array. -/
def rowOf (t : Fin cfg2.N) (p : Fin 512) : Fin 8192 := ⟨t.val * 512 + p.val, by have := point_lt t; have := p.isLt; omega⟩

/-- The activations' block at point `t`, read at an index: row `512 t + p` of the array. -/
theorem blkX_apply (c : Dev nD) (t : Fin cfg2.N) (p : Fin 512) (k : Fin 1024) :
    iblk2 V c 0 t (ix2 p k) = (V c main_v2 : Cert.Spec.R2.Idx → EReal) (ix2 (rowOf t p) k) := by
  obtain ⟨e00, e01, -⟩ := idx_facts t
  show (V c main_v2 : Cert.Spec.R2.Idx → EReal) (((cfg2.win 0).blk t).view.emb (ix2 p k)) = _
  refine congrArg _ (funext fun a => Fin.ext ?_)
  match a with
  | ⟨0, _⟩ => show win2_0.index t (0 : Fin 2) * 512 + 1 * p.val = t.val * 512 + p.val; omega
  | ⟨1, _⟩ => show win2_0.index t (1 : Fin 2) * 1024 + 1 * k.val = k.val; omega

/-- The weight's block at every point is the whole weight. -/
theorem blkW_apply (c : Dev nD) (t : Fin cfg2.N) (k : Fin 1024) (q : Fin 1024) :
    iblk2 V c 1 t (ix2 k q) = (V c main_v9 : Cert.Spec.A2.Idx → EReal) (ix2 k q) := by
  obtain ⟨-, -, e10, e11, -⟩ := idx_facts t
  show (V c main_v9 : Cert.Spec.A2.Idx → EReal) (((cfg2.win 1).blk t).view.emb (ix2 k q)) = _
  refine congrArg _ (funext fun a => Fin.ext ?_)
  match a with
  | ⟨0, _⟩ => show win2_1.index t (0 : Fin 2) * 1024 + 1 * k.val = k.val; omega
  | ⟨1, _⟩ => show win2_1.index t (1 : Fin 2) * 1024 + 1 * q.val = q.val; omega

/-- The bias row's block at every point is the whole row. -/
theorem blkB_apply (c : Dev nD) (t : Fin cfg2.N) (q : Fin 1024) :
    iblk2 V c 2 t (ix2 (0 : Fin 1) q) = (V c main_v10 : Cert.Spec.B2.Idx → EReal) (ix2 (0 : Fin 1) q) := by
  obtain ⟨-, -, -, -, e20, e21, -⟩ := idx_facts t
  show (V c main_v10 : Cert.Spec.B2.Idx → EReal) (((cfg2.win 2).blk t).view.emb (ix2 (0 : Fin 1) q)) = _
  refine congrArg _ (funext fun a => Fin.ext ?_)
  match a with
  | ⟨0, _⟩ => show win2_2.index t (0 : Fin 2) * 1 + 1 * (0 : Fin 1).val = (0 : Fin 1).val; omega
  | ⟨1, _⟩ => show win2_2.index t (1 : Fin 2) * 1024 + 1 * q.val = q.val; omega

/-- Where the output's block at point `t` sits in the array. -/
theorem blkO_emb (t : Fin cfg2.N) (p : Fin 512) (q : Fin 1024) :
    (((cfg2.win 3).blk t).view.emb (ix2 p q) : Cert.Spec.R2.Idx) = ix2 (rowOf t p) q := by
  obtain ⟨-, -, -, -, -, -, e30, e31⟩ := idx_facts t
  refine funext fun a => Fin.ext ?_
  match a with
  | ⟨0, _⟩ => show win2_3.index t (0 : Fin 2) * 512 + 1 * p.val = t.val * 512 + p.val; omega
  | ⟨1, _⟩ => show win2_3.index t (1 : Fin 2) * 1024 + 1 * q.val = q.val; omega

/-- What point `t` writes back is block `t` of the linear layer of the three arrays. -/
theorem flushed_eq (c : Dev nD) (t : Fin cfg2.N) :
    (dat2 (F := Ideal) V c).flushed 3 t
      = ((cfg2.win 3).blk t).view.read (Elt Ideal) (Cert.Spec.linArr (V c main_v2) (V c main_v9) (V c main_v10)) := by
  show (cfg2.win 3).cut (grid2.coords t) ((dat2 V c).after 3 t) = _
  rw [after2_3]
  unfold out2_3
  rw [View.canon_unit_zero hz]
  simp only [View.ld_unit_zero (S := S512x1024) hz, View.ld_unit_zero (S := S1024x1024) hz, View.ld_unit_zero (S := S1x1024) hz]
  funext j
  obtain ⟨p, q, rfl⟩ : ∃ (p : Fin 512) (q : Fin 1024), j = ix2 p q := ⟨j 0, j 1, eq_ix2 j⟩
  refine (pay_apply _ _ _ p q).trans ?_
  show _ = Cert.Spec.linArr (V c main_v2) (V c main_v9) (V c main_v10) (((cfg2.win 3).blk t).view.emb (ix2 p q))
  rw [blkO_emb t p q, blkB_apply V c t q]
  simp only [blkX_apply V c t p, blkW_apply V c t _ q]
  rfl

/-- An index of the array is in point `t`'s block iff each coordinate is in the block's range on its axis. -/
theorem mem_blk (t : Fin cfg2.N) (i : S8192x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole (Pipeline.arrRef spec2 3)).slice (win2_3.rect t)).set ↔ _
  rw [View.set_slice_whole, Rect.mem_set_unit]
  exact Iff.rfl

/-- Every row of the array is in the block of the point its row number divided by the block's height names. -/
theorem cover (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  have ht : (i 0).val / 512 < cfg2.N := lt_of_lt_of_eq (by omega : (i 0).val / 512 < 16) N_2.symm
  obtain ⟨-, -, -, -, -, -, e30, e31⟩ := idx_facts ⟨(i 0).val / 512, ht⟩
  have e30' : win2_3.index ⟨(i 0).val / 512, ht⟩ (0 : Fin 2) = (i 0).val / 512 := e30
  refine ⟨⟨(i 0).val / 512, ht⟩, flush2_3 _, ?_⟩
  rw [mem_blk]
  intro a
  match a with
  | ⟨0, _⟩ =>
    show win2_3.index ⟨(i 0).val / 512, ht⟩ (0 : Fin 2) * 512 ≤ (i 0).val ∧ (i 0).val < win2_3.index ⟨(i 0).val / 512, ht⟩ (0 : Fin 2) * 512 + 512
    omega
  | ⟨1, _⟩ =>
    show win2_3.index ⟨(i 0).val / 512, ht⟩ (1 : Fin 2) * 1024 ≤ (i 1).val ∧ (i 1).val < win2_3.index ⟨(i 0).val / 512, ht⟩ (1 : Fin 2) * 1024 + 1024
    omega

/-- The output array after the region is the linear layer of the three input arrays as the region found them. -/
theorem arrAt_eq (c : Dev nD) :
    (dat2 (F := Ideal) V c).arrAt 3 cfg2.N = Cert.Spec.linArr (V c main_v2) (V c main_v9) (V c main_v10) :=
  (dat2 (F := Ideal) V c).arrAt_eq_of_cover 3 _ (fun t _ => flushed_eq V c t) (fun i => cover i)

end Cert.KernelIdeal.Lin2

end
-- ==== Proof.LinVal4.lean ====
/-
  What the output projection region leaves in its output array: every 512-row block of the array is what the grid point of
  that block wrote, the body's one store of `matmul + bias` of the point's input blocks; read at an index this is the
  linear layer `Cert.Spec.linArr` of the region's three input arrays.

  The payload at an index `(p, q)` of the block is `Σ_k x[p, k] · w[k, q] + b[0, q]` of the three loaded blocks (the
  rounding to bf16 is the identity on the ideal values, the accumulator is zero, the bias row is broadcast down the rows).
  At grid point `t` the activations' block is rows `512 t …` of their array and the weight's and the bias row's blocks are
  their whole arrays, so what point `t` writes back is rows `512 t …` of the linear layer of the three arrays; the
  sixteen blocks cover the 8192 rows (row `r` is in block `r / 512`), so the array ends holding the linear layer.
-/
import proofs.«143932_j22789096473378_1_alg».proof.Proof.Lin4
import proofs.«143932_j22789096473378_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Lin4

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! The product's dimension numbers contract the left operand's columns with the right operand's rows: at a result index
    `j` and a contraction position, the left operand is read at row `j 0` and the right operand at column `j 1`. -/

theorem dotL_row (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem dotL_contr (j : S512x1024.Idx) (q : dot_S512x1024_S1024x1024_S512x1024_1_0_0_1_n_n.contr.Idx) :
    (dot_S512x1024_S1024x1024_S512x1024_1_0_0_1_n_n.lhsIdx j q 1).val = (q ⟨0, by decide⟩).val :=
  dot_S512x1024_S1024x1024_S512x1024_1_0_0_1_n_n.lhsIdx_val_of_single rfl j q
theorem dotR_contr (j : S512x1024.Idx) (q : dot_S512x1024_S1024x1024_S512x1024_1_0_0_1_n_n.contr.Idx) :
    (dot_S512x1024_S1024x1024_S512x1024_1_0_0_1_n_n.rhsIdx j q 0).val = (q ⟨0, by decide⟩).val :=
  dot_S512x1024_S1024x1024_S512x1024_1_0_0_1_n_n.rhsIdx_val_of_single rfl j q
theorem dotR_col (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product of a block of rows with the whole weight, read at an index: the sum over the contracted axis. -/
theorem mm_apply (a : FVec Ideal S512x1024 .bf16) (b : FVec Ideal S1024x1024 .bf16) (p : Fin 512) (q : Fin 1024) :
    matmul dot_S512x1024_S1024x1024_S512x1024_1_0_0_1_n_n none a b (constant S512x1024 .f32 0x00000000#32) (ix2 p q)
      = ∑ k : Fin 1024, a (ix2 p k) * b (ix2 k q) := by
  refine (Ideal.matmul_constant_zero_apply dot_S512x1024_S1024x1024_S512x1024_1_0_0_1_n_n none a b (ix2 p q)).trans ?_
  rw [← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact dotL_row _ _
    | ⟨1, _⟩ => exact (dotL_contr _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (dotR_contr _ _).trans hk
    | ⟨1, _⟩ => exact dotR_col _ _)
  rw [el, er]

/-- The body's payload at an index: the row of the first block times the column of the second, plus the bias row's entry. -/
theorem pay_apply (x0 : Vec Ideal S512x1024 .f32) (x1 : Vec Ideal S1024x1024 .f32) (x2 : Vec Ideal S1x1024 .f32)
    (p : Fin 512) (q : Fin 1024) :
    k4_pay1 (F := Ideal) x0 x1 x2 (ix2 p q) = (∑ k : Fin 1024, x0 (ix2 p k) * x1 (ix2 k q)) + x2 (ix2 0 q) := by
  unfold k4_pay1
  simp only [shapeCast_self]
  refine (addf_apply _ _ _).trans ?_
  refine congrArg₂ (· + ·) ?_ ?_
  · exact mm_apply _ _ p q
  · refine broadcastTo_apply x2 broadcasts_S1x1024_S512x1024 (ix2 p q) (ix2 0 q) (fun a => ?_)
    match a with
    | ⟨0, _⟩ => rfl
    | ⟨1, _⟩ => rfl

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the activations' and the output's blocks move down the rows together, one block per
    point; the weight's and the bias row's stay. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem point_lt (t : Fin cfg4.N) : t.val < 16 := lt_of_lt_of_eq t.isLt N_4

/-- Row `p` of block `t` is row `512 t + p` of the array. -/
def rowOf (t : Fin cfg4.N) (p : Fin 512) : Fin 8192 := ⟨t.val * 512 + p.val, by have := point_lt t; have := p.isLt; omega⟩

/-- The activations' block at point `t`, read at an index: row `512 t + p` of the array. -/
theorem blkX_apply (c : Dev nD) (t : Fin cfg4.N) (p : Fin 512) (k : Fin 1024) :
    iblk4 V c 0 t (ix2 p k) = (V c main_v24 : Cert.Spec.R2.Idx → EReal) (ix2 (rowOf t p) k) := by
  obtain ⟨e00, e01, -⟩ := idx_facts t
  show (V c main_v24 : Cert.Spec.R2.Idx → EReal) (((cfg4.win 0).blk t).view.emb (ix2 p k)) = _
  refine congrArg _ (funext fun a => Fin.ext ?_)
  match a with
  | ⟨0, _⟩ => show win4_0.index t (0 : Fin 2) * 512 + 1 * p.val = t.val * 512 + p.val; omega
  | ⟨1, _⟩ => show win4_0.index t (1 : Fin 2) * 1024 + 1 * k.val = k.val; omega

/-- The weight's block at every point is the whole weight. -/
theorem blkW_apply (c : Dev nD) (t : Fin cfg4.N) (k : Fin 1024) (q : Fin 1024) :
    iblk4 V c 1 t (ix2 k q) = (V c main_v25 : Cert.Spec.A2.Idx → EReal) (ix2 k q) := by
  obtain ⟨-, -, e10, e11, -⟩ := idx_facts t
  show (V c main_v25 : Cert.Spec.A2.Idx → EReal) (((cfg4.win 1).blk t).view.emb (ix2 k q)) = _
  refine congrArg _ (funext fun a => Fin.ext ?_)
  match a with
  | ⟨0, _⟩ => show win4_1.index t (0 : Fin 2) * 1024 + 1 * k.val = k.val; omega
  | ⟨1, _⟩ => show win4_1.index t (1 : Fin 2) * 1024 + 1 * q.val = q.val; omega

/-- The bias row's block at every point is the whole row. -/
theorem blkB_apply (c : Dev nD) (t : Fin cfg4.N) (q : Fin 1024) :
    iblk4 V c 2 t (ix2 (0 : Fin 1) q) = (V c main_v26 : Cert.Spec.B2.Idx → EReal) (ix2 (0 : Fin 1) q) := by
  obtain ⟨-, -, -, -, e20, e21, -⟩ := idx_facts t
  show (V c main_v26 : Cert.Spec.B2.Idx → EReal) (((cfg4.win 2).blk t).view.emb (ix2 (0 : Fin 1) q)) = _
  refine congrArg _ (funext fun a => Fin.ext ?_)
  match a with
  | ⟨0, _⟩ => show win4_2.index t (0 : Fin 2) * 1 + 1 * (0 : Fin 1).val = (0 : Fin 1).val; omega
  | ⟨1, _⟩ => show win4_2.index t (1 : Fin 2) * 1024 + 1 * q.val = q.val; omega

/-- Where the output's block at point `t` sits in the array. -/
theorem blkO_emb (t : Fin cfg4.N) (p : Fin 512) (q : Fin 1024) :
    (((cfg4.win 3).blk t).view.emb (ix2 p q) : Cert.Spec.R2.Idx) = ix2 (rowOf t p) q := by
  obtain ⟨-, -, -, -, -, -, e30, e31⟩ := idx_facts t
  refine funext fun a => Fin.ext ?_
  match a with
  | ⟨0, _⟩ => show win4_3.index t (0 : Fin 2) * 512 + 1 * p.val = t.val * 512 + p.val; omega
  | ⟨1, _⟩ => show win4_3.index t (1 : Fin 2) * 1024 + 1 * q.val = q.val; omega

/-- What point `t` writes back is block `t` of the linear layer of the three arrays. -/
theorem flushed_eq (c : Dev nD) (t : Fin cfg4.N) :
    (dat4 (F := Ideal) V c).flushed 3 t
      = ((cfg4.win 3).blk t).view.read (Elt Ideal) (Cert.Spec.linArr (V c main_v24) (V c main_v25) (V c main_v26)) := by
  show (cfg4.win 3).cut (grid4.coords t) ((dat4 V c).after 3 t) = _
  rw [after4_3]
  unfold out4_3
  rw [View.canon_unit_zero hz]
  simp only [View.ld_unit_zero (S := S512x1024) hz, View.ld_unit_zero (S := S1024x1024) hz, View.ld_unit_zero (S := S1x1024) hz]
  funext j
  obtain ⟨p, q, rfl⟩ : ∃ (p : Fin 512) (q : Fin 1024), j = ix2 p q := ⟨j 0, j 1, eq_ix2 j⟩
  refine (pay_apply _ _ _ p q).trans ?_
  show _ = Cert.Spec.linArr (V c main_v24) (V c main_v25) (V c main_v26) (((cfg4.win 3).blk t).view.emb (ix2 p q))
  rw [blkO_emb t p q, blkB_apply V c t q]
  simp only [blkX_apply V c t p, blkW_apply V c t _ q]
  rfl

/-- An index of the array is in point `t`'s block iff each coordinate is in the block's range on its axis. -/
theorem mem_blk (t : Fin cfg4.N) (i : S8192x1024.Idx) :
    i ∈ ((cfg4.win 3).blk t).view.set ↔ ∀ a : Fin 2, win4_3.index t a * S512x1024.size a ≤ (i a).val ∧ (i a).val < win4_3.index t a * S512x1024.size a + S512x1024.size a := by
  show i ∈ ((View.whole (Pipeline.arrRef spec4 3)).slice (win4_3.rect t)).set ↔ _
  rw [View.set_slice_whole, Rect.mem_set_unit]
  exact Iff.rfl

/-- Every row of the array is in the block of the point its row number divided by the block's height names. -/
theorem cover (i : S8192x1024.Idx) : ∃ t : Fin cfg4.N, (cfg4.win 3).flush t = true ∧ i ∈ ((cfg4.win 3).blk t).view.set := by
  have hi0 : (i 0).val < 8192 := (i 0).isLt
  have hi1 : (i 1).val < 1024 := (i 1).isLt
  have ht : (i 0).val / 512 < cfg4.N := lt_of_lt_of_eq (by omega : (i 0).val / 512 < 16) N_4.symm
  obtain ⟨-, -, -, -, -, -, e30, e31⟩ := idx_facts ⟨(i 0).val / 512, ht⟩
  have e30' : win4_3.index ⟨(i 0).val / 512, ht⟩ (0 : Fin 2) = (i 0).val / 512 := e30
  refine ⟨⟨(i 0).val / 512, ht⟩, flush4_3 _, ?_⟩
  rw [mem_blk]
  intro a
  match a with
  | ⟨0, _⟩ =>
    show win4_3.index ⟨(i 0).val / 512, ht⟩ (0 : Fin 2) * 512 ≤ (i 0).val ∧ (i 0).val < win4_3.index ⟨(i 0).val / 512, ht⟩ (0 : Fin 2) * 512 + 512
    omega
  | ⟨1, _⟩ =>
    show win4_3.index ⟨(i 0).val / 512, ht⟩ (1 : Fin 2) * 1024 ≤ (i 1).val ∧ (i 1).val < win4_3.index ⟨(i 0).val / 512, ht⟩ (1 : Fin 2) * 1024 + 1024
    omega

/-- The output array after the region is the linear layer of the three input arrays as the region found them. -/
theorem arrAt_eq (c : Dev nD) :
    (dat4 (F := Ideal) V c).arrAt 3 cfg4.N = Cert.Spec.linArr (V c main_v24) (V c main_v25) (V c main_v26) :=
  (dat4 (F := Ideal) V c).arrAt_eq_of_cover 3 _ (fun t _ => flushed_eq V c t) (fun i => cover i)

end Cert.KernelIdeal.Lin4

end
-- ==== Proof.AttnPieces.lean ====
/-
  What the attention kernel's three cases leave, as the body's arithmetic: at a first point of a group the accumulator is
  one key/value block's contribution `k3_pay2` over the zero fill `k3_pay1`; at the other points the contribution over
  what the point before left; at a last point the output buffer is the accumulator just computed, re-shaped (`k3_pay3`).
-/
import proofs.«143932_j22789096473378_1_alg».proof.Proof.Attn3
import Idealize.ShloMosaic.Lib.Pipeline.Value

set_option maxRecDepth 16384

noncomputable section

namespace Cert.KernelIdeal.Attn3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

theorem sout3_A_eq (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : cond3_0 i) (hc1 : ¬cond3_1 i) (x0 : Vec F S1x2048x64 .f32) (x1 : Vec F S1x512x64 .f32) (x2 : Vec F S1x512x64 .f32) :
    sout3_A c i arg2 harg2 arg3 harg3 arg4 harg4 arg5 harg5 arg6 harg6 hc0 hc1 x0 x1 x2 = k3_pay2 x0 x1 x2 (k3_pay1 (F := F)) := by
  unfold sout3_A
  rw [View.read_writes_eq_canon _ _ _ (scover3_A c i arg2 harg2 arg3 harg3 arg4 harg4 arg5 harg5 arg6 harg6 hc0 hc1 x0 x1 x2)]
  unfold kernelRun3_A
  dsimp only
  sl_unfold_words
  rw [View.canon_cons_unit_zero hz2]
  simp only [View.readAt_eq_ld, harg2.read_unread, harg3.read_unread, harg4.read_unread,
    View.ld_unit_zero (S := S1x2048x64) hz3, View.ld_unit_zero (S := S1x512x64) hz3]
  exact congrArg (k3_pay2 x0 x1 x2) (View.readCov_unit_zero (S := S2048x64) arg6.view hz2 inb_S2048x64_S2048x64_0_0 _)

theorem sout3_B_eq (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : ¬cond3_0 i) (hc1 : ¬cond3_1 i) (x0 : Vec F S1x2048x64 .f32) (x1 : Vec F S1x512x64 .f32) (x2 : Vec F S1x512x64 .f32) (xs : Vec F S2048x64 .f32) :
    sout3_B c i arg2 harg2 arg3 harg3 arg4 harg4 arg5 harg5 arg6 harg6 hc0 hc1 x0 x1 x2 xs = k3_pay2 x0 x1 x2 xs := by
  unfold sout3_B
  rw [View.read_writes_eq_canon _ _ _ (scover3_B c i arg2 harg2 arg3 harg3 arg4 harg4 arg5 harg5 arg6 harg6 hc0 hc1 x0 x1 x2 xs)]
  unfold kernelRun3_B
  dsimp only
  sl_unfold_words
  rw [View.canon_unit_zero hz2]
  simp only [View.readAt_eq_ld, harg2.read_unread, harg3.read_unread, harg4.read_unread, harg6.read_unread,
    View.ld_unit_zero (S := S1x2048x64) hz3, View.ld_unit_zero (S := S1x512x64) hz3, View.ld_unit_zero (S := S2048x64) hz2]

theorem sout3_C_eq (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : ¬cond3_0 i) (hc1 : cond3_1 i) (x0 : Vec F S1x2048x64 .f32) (x1 : Vec F S1x512x64 .f32) (x2 : Vec F S1x512x64 .f32) (xs : Vec F S2048x64 .f32) :
    sout3_C c i arg2 harg2 arg3 harg3 arg4 harg4 arg5 harg5 arg6 harg6 hc0 hc1 x0 x1 x2 xs = k3_pay2 x0 x1 x2 xs := by
  unfold sout3_C
  rw [View.read_writes_eq_canon _ _ _ (scover3_C c i arg2 harg2 arg3 harg3 arg4 harg4 arg5 harg5 arg6 harg6 hc0 hc1 x0 x1 x2 xs)]
  unfold kernelRun3_C
  dsimp only
  sl_unfold_words
  rw [View.canon_unit_zero hz2]
  simp only [View.readAt_eq_ld, harg2.read_unread, harg3.read_unread, harg4.read_unread, harg6.read_unread,
    View.ld_unit_zero (S := S1x2048x64) hz3, View.ld_unit_zero (S := S1x512x64) hz3, View.ld_unit_zero (S := S2048x64) hz2]

theorem out3_C_eq (c : Dev nD) (i : grid3.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x64 .f32) (harg5 : arg5.IsWhole) (arg6 : Memref sig .tc .vmem S2048x64 .f32) (harg6 : arg6.IsWhole) (hc0 : ¬cond3_0 i) (hc1 : cond3_1 i) (x0 : Vec F S1x2048x64 .f32) (x1 : Vec F S1x512x64 .f32) (x2 : Vec F S1x512x64 .f32) (xs : Vec F S2048x64 .f32) :
    out3_C c i arg2 harg2 arg3 harg3 arg4 harg4 arg5 harg5 arg6 harg6 hc0 hc1 x0 x1 x2 xs = k3_pay3 (k3_pay2 x0 x1 x2 xs) := by
  unfold out3_C
  rw [View.read_writes_eq_canon _ _ _ (cover3_C c i arg2 harg2 arg3 harg3 arg4 harg4 arg5 harg5 arg6 harg6 hc0 hc1 x0 x1 x2 xs)]
  unfold kernelRun3_C
  dsimp only
  sl_unfold_words
  rw [View.canon_unit_zero hz3]
  simp only [View.readAt_eq_ld, harg2.read_unread, harg3.read_unread, harg4.read_unread, harg6.read_unread,
    View.ld_unit_zero (S := S1x2048x64) hz3, View.ld_unit_zero (S := S1x512x64) hz3, View.ld_unit_zero (S := S2048x64) hz2]
  exact congrArg k3_pay3 (View.readCov_unit_zero (S := S2048x64) arg6.view hz2 inb_S2048x64_S2048x64_0_0 _)

end Cert.KernelIdeal.Attn3

end
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.AttnPay.lean ====
/-
  The attention kernel's arithmetic at an index, over the extended reals. The zero fill is `0`; one key/value block's
  contribution, at query row `q` and head column `d`, is what the accumulator held plus the sum over the block's 512 keys
  of `sigmoid((Σ_dd Q[q, dd] · K[kk, dd]) · (1/8)) · V[kk, d]` (the two block products are plain matrix products into a zero
  accumulator, the key block entering transposed; the narrowing to bf16 is the identity on extended reals); the output
  block is the accumulator under a leading unit axis.
-/
import proofs.«143932_j22789096473378_1_alg».proof.Proof.Gen.KernelIdeal.Skeleton
import proofs.«143932_j22789096473378_1_alg».proof.Proof.Spec
import proofs.«143932_j22789096473378_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.AttnPay

open Cert.KernelIdeal Cert.KernelIdeal.Gen Idealize.ShloMosaic Idealize.ShloMosaic.ValueIdx

abbrev D1 := dot_S2048x64_S64x512_S2048x512_1_0_0_1_n_n
abbrev D2 := dot_S2048x512_S512x64_S2048x64_1_0_0_1_n_n

theorem d1_l0 (j : _) (q : D1.contr.Idx) : (D1.lhsIdx j q 0).val = (j 0).val := by
  unfold DotDims.lhsIdx
  rw [dif_neg (show ¬(0 : Fin S2048x64.rank) ∈ D1.lhsBatch by decide), dif_pos (show (0 : Fin S2048x64.rank) ∈ D1.lhsNonContracting by decide)]
  rfl
theorem d1_l1 (j : _) (q : D1.contr.Idx) : (D1.lhsIdx j q 1).val = (q ⟨0, by decide⟩).val :=
  D1.lhsIdx_val_of_single rfl j q
theorem d1_r0 (j : _) (q : D1.contr.Idx) : (D1.rhsIdx j q 0).val = (q ⟨0, by decide⟩).val :=
  D1.rhsIdx_val_of_single rfl j q
theorem d1_r1 (j : _) (q : D1.contr.Idx) : (D1.rhsIdx j q 1).val = (j 1).val := by
  unfold DotDims.rhsIdx
  rw [dif_neg (show ¬(1 : Fin S64x512.rank) ∈ D1.rhsBatch by decide), dif_pos (show (1 : Fin S64x512.rank) ∈ D1.rhsNonContracting by decide)]
  rfl

theorem d2_l0 (j : _) (q : D2.contr.Idx) : (D2.lhsIdx j q 0).val = (j 0).val := by
  unfold DotDims.lhsIdx
  rw [dif_neg (show ¬(0 : Fin S2048x512.rank) ∈ D2.lhsBatch by decide), dif_pos (show (0 : Fin S2048x512.rank) ∈ D2.lhsNonContracting by decide)]
  rfl
theorem d2_l1 (j : _) (q : D2.contr.Idx) : (D2.lhsIdx j q 1).val = (q ⟨0, by decide⟩).val :=
  D2.lhsIdx_val_of_single rfl j q
theorem d2_r0 (j : _) (q : D2.contr.Idx) : (D2.rhsIdx j q 0).val = (q ⟨0, by decide⟩).val :=
  D2.rhsIdx_val_of_single rfl j q
theorem d2_r1 (j : _) (q : D2.contr.Idx) : (D2.rhsIdx j q 1).val = (j 1).val := by
  unfold DotDims.rhsIdx
  rw [dif_neg (show ¬(1 : Fin S512x64.rank) ∈ D2.rhsBatch by decide), dif_pos (show (1 : Fin S512x64.rank) ∈ D2.rhsNonContracting by decide)]
  rfl

/-- The zero fill of the accumulator. -/
theorem pay1_apply (j : S2048x64.Idx) : k3_pay1 (F := Ideal) j = 0 := by
  unfold k3_pay1
  rw [shapeCast_self]
  exact Ideal.ofBits_zero_f32

/-- One key/value block's contribution on top of the accumulator. -/
theorem pay2_apply (v3 : Vec Ideal S1x2048x64 .f32) (v6 v9 : Vec Ideal S1x512x64 .f32) (v19 : Vec Ideal S2048x64 .f32) (q : Fin 2048) (d : Fin 64) :
    k3_pay2 (F := Ideal) v3 v6 v9 v19 (ix2 q d)
      = v19 (ix2 q d) + ∑ kk : Fin 512, Ideal.logistic ((∑ dd : Fin 64, v3 (ix3 (0 : Fin 1) q dd) * v6 (ix3 (0 : Fin 1) kk dd)) * Cert.Spec.c8)
          * v9 (ix3 (0 : Fin 1) kk d) := by
  unfold k3_pay2
  rw [shapeCast_self]
  refine (addf_apply _ _ _).trans ?_
  refine congrArg (fun z : EReal => v19 (ix2 q d) + z) ?_
  refine (Cert.Lib.PlainDot.matmul_zero_apply D2 rfl rfl d2_l0 d2_l1 d2_r0 d2_r1 none _ _ (ix2 q d)).trans ?_
  refine Finset.sum_congr rfl fun kk _ => ?_
  refine congrArg₂ (fun a b : EReal => a * b) ?_ ?_
  · refine congrArg (fun z : EReal => Ideal.logistic (z * Cert.Spec.c8)) ?_
    refine (Cert.Lib.PlainDot.matmul_zero_apply D1 rfl rfl d1_l0 d1_l1 d1_r0 d1_r1 none _ _ (ix2 q kk)).trans ?_
    refine Finset.sum_congr rfl fun dd _ => ?_
    refine congrArg₂ (fun a b : EReal => a * b) ?_ ?_
    · exact shapeCast_1ab_ab_apply v3 _ q dd
    · exact (transpose_ix2_apply _ _ dd kk).trans (shapeCast_1ab_ab_apply v6 _ kk dd)
  · exact shapeCast_1ab_ab_apply v9 _ kk d

/-- The output block is the accumulator under a leading unit axis. -/
theorem pay3_apply (v27 : Vec Ideal S2048x64 .f32) (u : Fin 1) (q : Fin 2048) (d : Fin 64) :
    k3_pay3 (F := Ideal) v27 (ix3 u q d) = v27 (ix2 q d) := by
  unfold k3_pay3
  exact shapeCast_ab_1ab_apply v27 _ u q d

end Cert.KernelIdeal.AttnPay

end
-- ==== Proof.LibBlockSums.lean ====
/-
  Sums over an initial segment of `Fin n`, grown block by block.
  For `f : Fin n → M` in a commutative additive monoid, `part f m` is the sum of `f` over the indices below `m`. It is `0` at
  `m = 0`, the whole sum at `m = n`, and grows by a block of `b` consecutive indices as `part f (m + b) = part f m + Σ_{k < b} f (m + k)`:
  a sum over all of `Fin n` accumulated in consecutive blocks is the plain sum.
-/
import Mathlib.Algebra.BigOperators.Fin
import Mathlib.Algebra.BigOperators.Intervals

open scoped BigOperators

namespace Cert.Lib.BlockSums

variable {M : Type*} [AddCommMonoid M] {n : ℕ}

/-- `f` extended by zero beyond `n`. -/
def ext (f : Fin n → M) (i : ℕ) : M := if h : i < n then f ⟨i, h⟩ else 0

theorem ext_of_lt (f : Fin n → M) {i : ℕ} (h : i < n) : ext f i = f ⟨i, h⟩ := dif_pos h

/-- The sum of `f` over the indices below `m`. -/
def part (f : Fin n → M) (m : ℕ) : M := ∑ i ∈ Finset.range m, ext f i

theorem part_zero (f : Fin n → M) : part f 0 = 0 := by
  unfold part; rw [Finset.range_zero, Finset.sum_empty]

theorem part_full (f : Fin n → M) : part f n = ∑ j : Fin n, f j := by
  unfold part
  rw [← Fin.sum_univ_eq_sum_range (ext f) n]
  exact Finset.sum_congr rfl fun j _ => ext_of_lt f j.isLt

theorem part_add_block (f : Fin n → M) (m b : ℕ) (hm : m + b ≤ n) :
    part f (m + b) = part f m + ∑ k : Fin b, f ⟨m + k.val, by have := k.isLt; omega⟩ := by
  unfold part
  rw [Finset.sum_range_add, ← Fin.sum_univ_eq_sum_range (fun x => ext f (m + x)) b]
  refine congrArg (fun z => (∑ i ∈ Finset.range m, ext f i) + z) ?_
  exact Finset.sum_congr rfl fun k _ => ext_of_lt f (by have := k.isLt; omega)

end Cert.Lib.BlockSums
-- ==== Proof.AttnVal.lean ====
/-
  What the attention region leaves in its output array. For batch-head `g` the four grid points `4g, …, 4g+3` walk the four
  512-row key/value blocks; after the point at position `j` of the group the accumulator holds, at query row `q` and head
  column `d`, the sum of `sigmoid((Σ_dd Q[g,q,dd] · K[g,k,dd]) · (1/8)) · V[g,k,d]` over the keys `k < 512 (j + 1)` (induction
  over the points: a first point starts from the zero fill, every other from what the point before left); the last point
  of the group writes the accumulator, now the sum over all 2048 keys, into block `g` of the output array, and these 64
  blocks tile the array. So the array ends as `Cert.Spec.attnArr` of the region's three input arrays.
-/
import proofs.«143932_j22789096473378_1_alg».proof.Proof.AttnPieces
import proofs.«143932_j22789096473378_1_alg».proof.Proof.AttnPay
import proofs.«143932_j22789096473378_1_alg».proof.Proof.LibBlockSums

set_option maxRecDepth 16384

noncomputable section

namespace Cert.KernelIdeal.Attn3

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Lib.BlockSums

variable (V : (c : Dev nD) → (b : Ref sig .tc) → Buf (Elt Ideal) ((c : Thread nD τ).loc b))

/-- The printed index maps, decided over the grid: the query and output windows sit at batch-head `t / 4`, the key and
    value windows at batch-head `t / 4`, key block `t % 4`. -/
theorem idx3 : ∀ t : Fin cfg3.N,
    win3_0.index t (0 : Fin 3) = t.val / 4 ∧ win3_0.index t (1 : Fin 3) = 0 ∧ win3_0.index t (2 : Fin 3) = 0
    ∧ win3_1.index t (0 : Fin 3) = t.val / 4 ∧ win3_1.index t (1 : Fin 3) = t.val % 4 ∧ win3_1.index t (2 : Fin 3) = 0
    ∧ win3_2.index t (0 : Fin 3) = t.val / 4 ∧ win3_2.index t (1 : Fin 3) = t.val % 4 ∧ win3_2.index t (2 : Fin 3) = 0
    ∧ win3_3.index t (0 : Fin 3) = t.val / 4 ∧ win3_3.index t (1 : Fin 3) = 0 ∧ win3_3.index t (2 : Fin 3) = 0 :=
  (by decide +kernel : ∀ t : Fin grid3.N, _)

theorem tdiv_lt (t : Fin cfg3.N) : t.val / 4 < 64 := by
  have hN : cfg3.N = 256 := N_3
  have := t.isLt; omega

/-- The query block at point `t` is batch-head `t / 4` of the query array. -/
theorem blk0_apply (c : Dev nD) (t : Fin cfg3.N) (q : Fin 2048) (dd : Fin 64) :
    (iblk3 V c 0 t : Vec Ideal S1x2048x64 .f32) (ix3 (0 : Fin 1) q dd) = V c main_v14 (ix3 (⟨t.val / 4, tdiv_lt t⟩ : Fin 64) q dd) := by
  obtain ⟨e0, e1, e2, -⟩ := idx3 t
  show V c main_v14 (((cfg3.win 0).blk t).view.emb (ix3 (0 : Fin 1) q dd)) = _
  refine congrArg (V c main_v14) ?_
  funext a; apply Fin.ext
  match a with
  | ⟨0, _⟩ => show win3_0.index t (0 : Fin 3) * 1 + 1 * 0 = t.val / 4; omega
  | ⟨1, _⟩ => show win3_0.index t (1 : Fin 3) * 2048 + 1 * q.val = q.val; omega
  | ⟨2, _⟩ => show win3_0.index t (2 : Fin 3) * 64 + 1 * dd.val = dd.val; omega

theorem krow_lt (t : Fin cfg3.N) (kk : Fin 512) : 512 * (t.val % 4) + kk.val < 2048 := by
  have := kk.isLt; omega

/-- The key block at point `t` is rows `512 (t % 4) …` of batch-head `t / 4` of the key array. -/
theorem blk1_apply (c : Dev nD) (t : Fin cfg3.N) (kk : Fin 512) (dd : Fin 64) :
    (iblk3 V c 1 t : Vec Ideal S1x512x64 .f32) (ix3 (0 : Fin 1) kk dd)
      = V c main_v17 (ix3 (⟨t.val / 4, tdiv_lt t⟩ : Fin 64) (⟨512 * (t.val % 4) + kk.val, krow_lt t kk⟩ : Fin 2048) dd) := by
  obtain ⟨-, -, -, e0, e1, e2, -⟩ := idx3 t
  show V c main_v17 (((cfg3.win 1).blk t).view.emb (ix3 (0 : Fin 1) kk dd)) = _
  refine congrArg (V c main_v17) ?_
  funext a; apply Fin.ext
  match a with
  | ⟨0, _⟩ => show win3_1.index t (0 : Fin 3) * 1 + 1 * 0 = t.val / 4; omega
  | ⟨1, _⟩ => show win3_1.index t (1 : Fin 3) * 512 + 1 * kk.val = 512 * (t.val % 4) + kk.val; omega
  | ⟨2, _⟩ => show win3_1.index t (2 : Fin 3) * 64 + 1 * dd.val = dd.val; omega

/-- The value block likewise. -/
theorem blk2_apply (c : Dev nD) (t : Fin cfg3.N) (kk : Fin 512) (d : Fin 64) :
    (iblk3 V c 2 t : Vec Ideal S1x512x64 .f32) (ix3 (0 : Fin 1) kk d)
      = V c main_v20 (ix3 (⟨t.val / 4, tdiv_lt t⟩ : Fin 64) (⟨512 * (t.val % 4) + kk.val, krow_lt t kk⟩ : Fin 2048) d) := by
  obtain ⟨-, -, -, -, -, -, e0, e1, e2, -⟩ := idx3 t
  show V c main_v20 (((cfg3.win 2).blk t).view.emb (ix3 (0 : Fin 1) kk d)) = _
  refine congrArg (V c main_v20) ?_
  funext a; apply Fin.ext
  match a with
  | ⟨0, _⟩ => show win3_2.index t (0 : Fin 3) * 1 + 1 * 0 = t.val / 4; omega
  | ⟨1, _⟩ => show win3_2.index t (1 : Fin 3) * 512 + 1 * kk.val = 512 * (t.val % 4) + kk.val; omega
  | ⟨2, _⟩ => show win3_2.index t (2 : Fin 3) * 64 + 1 * d.val = d.val; omega

/-- One key's term of the attention sum. -/
def wterm (Q K Vv : Cert.Spec.H3.Idx → EReal) (g : Fin 64) (q : Fin 2048) (d : Fin 64) (j : Fin 2048) : EReal :=
  Ideal.logistic ((∑ dd : Fin 64, Q (ix3 g q dd) * K (ix3 g j dd)) * Cert.Spec.c8) * Vv (ix3 g j d)

/-- One point's step on the accumulator: the keys below `512 j` summed so far, the block's 512 keys are added. -/
theorem step_eq (Q K Vv : Cert.Spec.H3.Idx → EReal) (x0 : Vec Ideal S1x2048x64 .f32) (x1 x2 : Vec Ideal S1x512x64 .f32) (xs : Vec Ideal S2048x64 .f32)
    (g : Fin 64) (j : ℕ) (hj : j < 4) (q : Fin 2048) (d : Fin 64)
    (h0 : ∀ dd : Fin 64, x0 (ix3 (0 : Fin 1) q dd) = Q (ix3 g q dd))
    (h1 : ∀ (kk : Fin 512) (dd : Fin 64), x1 (ix3 (0 : Fin 1) kk dd) = K (ix3 g (⟨512 * j + kk.val, by have := kk.isLt; omega⟩ : Fin 2048) dd))
    (h2 : ∀ kk : Fin 512, x2 (ix3 (0 : Fin 1) kk d) = Vv (ix3 g (⟨512 * j + kk.val, by have := kk.isLt; omega⟩ : Fin 2048) d))
    (hs : xs (ix2 q d) = part (wterm Q K Vv g q d) (512 * j)) :
    k3_pay2 (F := Ideal) x0 x1 x2 xs (ix2 q d) = part (wterm Q K Vv g q d) (512 * j + 512) := by
  rw [AttnPay.pay2_apply, hs, part_add_block (wterm Q K Vv g q d) (512 * j) 512 (by omega)]
  refine congrArg (fun z : EReal => part (wterm Q K Vv g q d) (512 * j) + z) ?_
  refine Finset.sum_congr rfl fun kk _ => ?_
  unfold wterm
  rw [h2 kk]
  refine congrArg (fun z : EReal => Ideal.logistic (z * Cert.Spec.c8) * _) ?_
  exact Finset.sum_congr rfl fun dd _ => by rw [h0 dd, h1 kk dd]

end Cert.KernelIdeal.Attn3

end
-- ==== Proof.AttnVal2.lean ====
/-
  The accumulator after every grid point of the attention region (induction over the points), what a last point of a group
  writes back, the tiling of the output array by the 64 written blocks, and the array after the region:
  `Cert.Spec.attnArr` of the region's three input arrays.
-/
import proofs.«143932_j22789096473378_1_alg».proof.Proof.AttnVal

set_option maxRecDepth 16384

noncomputable section

namespace Cert.KernelIdeal.Attn3

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Lib.BlockSums

variable (V : (c : Dev nD) → (b : Ref sig .tc) → Buf (Elt Ideal) ((c : Thread nD τ).loc b))

/-- THE ACCUMULATOR after position `n` (batch-head `g = n / 4`, key block `n % 4`): the attention sum over the keys of the
    blocks walked so far. -/
theorem acc_eq (c : Dev nD) : ∀ (n : ℕ) (hn : n < cfg3.N) (g : Fin 64) (hg : g.val = n / 4) (q : Fin 2048) (d : Fin 64),
    (outsAt3 V c n hn).2 (ix2 q d)
      = part (wterm (V c main_v14) (V c main_v17) (V c main_v20) g q d) (512 * (n % 4) + 512) := by
  intro n
  induction n using Nat.strong_induction_on with
  | _ n ih =>
    intro hn g hg q d
    have hN : cfg3.N = 256 := N_3
    have eg : (⟨n / 4, tdiv_lt ⟨n, hn⟩⟩ : Fin 64) = g := Fin.ext hg.symm
    have b0 : ∀ dd : Fin 64, (iblk3 V c 0 ⟨n, hn⟩ : Vec Ideal S1x2048x64 .f32) (ix3 (0 : Fin 1) q dd) = V c main_v14 (ix3 g q dd) :=
      fun dd => (blk0_apply V c ⟨n, hn⟩ q dd).trans (by rw [eg])
    have b1 : ∀ (kk : Fin 512) (dd : Fin 64), (iblk3 V c 1 ⟨n, hn⟩ : Vec Ideal S1x512x64 .f32) (ix3 (0 : Fin 1) kk dd)
        = V c main_v17 (ix3 g (⟨512 * (n % 4) + kk.val, by have := kk.isLt; omega⟩ : Fin 2048) dd) :=
      fun kk dd => (blk1_apply V c ⟨n, hn⟩ kk dd).trans (by rw [eg])
    have b2 : ∀ kk : Fin 512, (iblk3 V c 2 ⟨n, hn⟩ : Vec Ideal S1x512x64 .f32) (ix3 (0 : Fin 1) kk d)
        = V c main_v20 (ix3 g (⟨512 * (n % 4) + kk.val, by have := kk.isLt; omega⟩ : Fin 2048) d) :=
      fun kk => (blk2_apply V c ⟨n, hn⟩ kk d).trans (by rw [eg])
    by_cases h0 : n % 4 = 0
    · have h1 : ¬ n % 4 = 3 := by omega
      rw [show outsAt3 V c n hn = outsAt3 V c (⟨n, hn⟩ : Fin cfg3.N).val (⟨n, hn⟩ : Fin cfg3.N).isLt from rfl,
        outsAt3_A V c ⟨n, hn⟩ h0 h1]
      dsimp only
      rw [sout3_A_eq]
      refine step_eq _ _ _ _ _ _ _ g (n % 4) (by omega) q d b0 b1 b2 ?_
      rw [AttnPay.pay1_apply, h0, Nat.mul_zero, part_zero]
    · have hprev : (outsAt3 V c (n - 1) (by omega)).2 (ix2 q d)
          = part (wterm (V c main_v14) (V c main_v17) (V c main_v20) g q d) (512 * (n % 4)) := by
        have := ih (n - 1) (by omega) (by omega) g (by omega) q d
        rw [this]
        exact congrArg _ (by omega)
      by_cases h1 : n % 4 = 3
      · rw [show outsAt3 V c n hn = outsAt3 V c (⟨n, hn⟩ : Fin cfg3.N).val (⟨n, hn⟩ : Fin cfg3.N).isLt from rfl,
          outsAt3_C V c ⟨n, hn⟩ h0 h1]
        dsimp only
        rw [sout3_C_eq]
        exact step_eq _ _ _ _ _ _ _ g (n % 4) (by omega) q d b0 b1 b2 hprev
      · rw [show outsAt3 V c n hn = outsAt3 V c (⟨n, hn⟩ : Fin cfg3.N).val (⟨n, hn⟩ : Fin cfg3.N).isLt from rfl,
          outsAt3_B V c ⟨n, hn⟩ h0 h1]
        dsimp only
        rw [sout3_B_eq]
        exact step_eq _ _ _ _ _ _ _ g (n % 4) (by omega) q d b0 b1 b2 hprev

/-- WHAT A LAST POINT OF A GROUP WRITES BACK is its block of the attention of the three input arrays. -/
theorem flushed3_eq (c : Dev nD) (t : Fin cfg3.N) (h1 : t.val % 4 = 3) :
    (dat3 (F := Ideal) V c).flushed 3 t
      = ((cfg3.win 3).blk t).view.read (Elt Ideal) (Cert.Spec.attnArr (V c main_v14) (V c main_v17) (V c main_v20)) := by
  have h0 : ¬ t.val % 4 = 0 := by omega
  obtain ⟨-, -, -, -, -, -, -, -, -, e0, e1, e2⟩ := idx3 t
  show (cfg3.win 3).cut (grid3.coords t) ((dat3 V c).after 3 t) = _
  rw [after3_3]
  funext y
  obtain ⟨u, q, d, rfl⟩ : ∃ (u : Fin 1) (q : Fin 2048) (d : Fin 64), y = ix3 u q d := ⟨y 0, y 1, y 2, eq_ix3 y⟩
  have hacc := acc_eq V c t.val t.isLt ⟨t.val / 4, tdiv_lt t⟩ rfl q d
  rw [outsAt3_C V c t h0 h1] at hacc ⊢
  dsimp only at hacc ⊢
  rw [sout3_C_eq] at hacc
  rw [out3_C_eq]
  refine (AttnPay.pay3_apply _ u q d).trans (hacc.trans ?_)
  have hemb : ((cfg3.win 3).blk t).view.emb (ix3 u q d) = ix3 (⟨t.val / 4, tdiv_lt t⟩ : Fin 64) q d := by
    funext a; apply Fin.ext
    have hu : u.val = 0 := by have := u.isLt; omega
    match a with
    | ⟨0, _⟩ => show win3_3.index t (0 : Fin 3) * 1 + 1 * u.val = t.val / 4; omega
    | ⟨1, _⟩ => show win3_3.index t (1 : Fin 3) * 2048 + 1 * q.val = q.val; omega
    | ⟨2, _⟩ => show win3_3.index t (2 : Fin 3) * 64 + 1 * d.val = d.val; omega
  show _ = Cert.Spec.attnArr (V c main_v14) (V c main_v17) (V c main_v20) (((cfg3.win 3).blk t).view.emb (ix3 u q d))
  rw [hemb, h1]
  exact part_full (wterm (V c main_v14) (V c main_v17) (V c main_v20) ⟨t.val / 4, tdiv_lt t⟩ q d)

/-- An index of the output array is in point `t`'s block iff each coordinate is in the block's range on its axis. -/
theorem mem_blk3 (t : Fin cfg3.N) (i : S64x2048x64.Idx) :
    i ∈ ((cfg3.win 3).blk t).view.set ↔ ∀ a : Fin 3, win3_3.index t a * S1x2048x64.size a ≤ (i a).val ∧ (i a).val < win3_3.index t a * S1x2048x64.size a + S1x2048x64.size a := by
  show i ∈ ((View.whole main_v21).slice (win3_3.rect t)).set ↔ _
  rw [View.set_slice_whole, Rect.mem_set_unit]
  exact Iff.rfl

/-- Every index of the output array is in the block some last point of a group writes back. -/
theorem cover3 (i : S64x2048x64.Idx) : ∃ t : Fin cfg3.N, (cfg3.win 3).flush t = true ∧ i ∈ ((cfg3.win 3).blk t).view.set := by
  have hN : cfg3.N = 256 := N_3
  have hi0 : (i 0).val < 64 := (i 0).isLt
  have hi1 : (i 1).val < 2048 := (i 1).isLt
  have hi2 : (i 2).val < 64 := (i 2).isLt
  have ht : 4 * (i 0).val + 3 < cfg3.N := by omega
  obtain ⟨-, -, -, -, -, -, -, -, -, e0, e1, e2⟩ := idx3 ⟨4 * (i 0).val + 3, ht⟩
  refine ⟨⟨4 * (i 0).val + 3, ht⟩, (flush3_3 _).mpr (by show (4 * (i 0).val + 3) % 4 = 3; omega), ?_⟩
  rw [mem_blk3]
  have e0' : win3_3.index ⟨4 * (i 0).val + 3, ht⟩ (0 : Fin 3) = (4 * (i 0).val + 3) / 4 := e0
  intro a
  match a with
  | ⟨0, _⟩ => show win3_3.index ⟨4 * (i 0).val + 3, ht⟩ (0 : Fin 3) * 1 ≤ (i 0).val ∧ (i 0).val < win3_3.index ⟨4 * (i 0).val + 3, ht⟩ (0 : Fin 3) * 1 + 1; omega
  | ⟨1, _⟩ => show win3_3.index ⟨4 * (i 0).val + 3, ht⟩ (1 : Fin 3) * 2048 ≤ (i 1).val ∧ (i 1).val < win3_3.index ⟨4 * (i 0).val + 3, ht⟩ (1 : Fin 3) * 2048 + 2048; omega
  | ⟨2, _⟩ => show win3_3.index ⟨4 * (i 0).val + 3, ht⟩ (2 : Fin 3) * 64 ≤ (i 2).val ∧ (i 2).val < win3_3.index ⟨4 * (i 0).val + 3, ht⟩ (2 : Fin 3) * 64 + 64; omega

/-- THE OUTPUT ARRAY after the region: the sigmoid attention of the three input arrays as the region found them. -/
theorem arrAt_eq (c : Dev nD) :
    (dat3 (F := Ideal) V c).arrAt 3 cfg3.N = Cert.Spec.attnArr (V c main_v14) (V c main_v17) (V c main_v20) :=
  (dat3 V c).arrAt_eq_of_cover 3 _ (fun t hf => flushed3_eq V c t ((flush3_3 t).mp hf)) cover3

end Cert.KernelIdeal.Attn3

end
-- ==== Proof.Layout.lean ====
/-
  The layout changes of the host program read at an index: flattening batch × sequence to rows and back, the transposed
  weight, the bias as a one-row matrix, and the split of projected rows into heads (a reshape, a transpose of the sequence
  and head axes, a reshape) and its inverse, each as the index arithmetic `Cert.Spec` spells.
-/
import proofs.«143932_j22789096473378_1_alg».proof.KernelIdeal
import proofs.«143932_j22789096473378_1_alg».proof.Proof.Spec
import Idealize.ShloMosaic.Lib.Pipeline.Value
import Idealize.ShloMosaic.Lib.ValueIdx
import Idealize.ShloMosaic.Lib.ValueLayout

noncomputable section

namespace Cert.KernelIdeal.Layout

open Cert.KernelIdeal Idealize.ShloMosaic Idealize.ShloMosaic.ValueIdx

theorem rows_eq (x : Vec Ideal S4x2048x1024 .f32) (h : S4x2048x1024.ShapeCasts S8192x1024) :
    shapeCast S8192x1024 x h = Cert.Spec.rowsOf x := by
  funext i
  obtain ⟨r, e, rfl⟩ : ∃ (r : Fin 8192) (e : Fin 1024), i = ix2 r e := ⟨i 0, i 1, eq_ix2 i⟩
  refine (shapeCast_apply x h (ix2 r e)
    (ix3 (⟨r.val / 2048, by omega⟩ : Fin 4) (⟨r.val % 2048, by omega⟩ : Fin 2048) e) ?_).trans rfl
  rewrite [Shape.rowMajor_val_three, Shape.rowMajor_val_two]
  show (r.val / 2048 * 2048 + r.val % 2048) * 1024 + e.val = r.val * 1024 + e.val
  omega

theorem unrows_eq (Y : Vec Ideal S8192x1024 .f32) (h : S8192x1024.ShapeCasts S4x2048x1024) :
    shapeCast S4x2048x1024 Y h = Cert.Spec.unrows Y := by
  funext i
  obtain ⟨b, s, e, rfl⟩ : ∃ (b : Fin 4) (s : Fin 2048) (e : Fin 1024), i = ix3 b s e := ⟨i 0, i 1, i 2, eq_ix3 i⟩
  refine (shapeCast_apply Y h (ix3 b s e) (ix2 (⟨b.val * 2048 + s.val, by omega⟩ : Fin 8192) e) ?_).trans rfl
  rewrite [Shape.rowMajor_val_two, Shape.rowMajor_val_three]
  show (b.val * 2048 + s.val) * 1024 + e.val = (b.val * 2048 + s.val) * 1024 + e.val
  rfl

theorem tr_eq (W : Vec Ideal S1024x1024 .f32) (h : S1024x1024.Transposes [1, 0] S1024x1024) :
    transpose S1024x1024 [1, 0] W h = Cert.Spec.tr W := by
  funext i
  obtain ⟨k, e, rfl⟩ : ∃ (k : Fin 1024) (e : Fin 1024), i = ix2 k e := ⟨i 0, i 1, eq_ix2 i⟩
  exact (transpose_apply [1, 0] W h (ix2 k e) (ix2 e k)
    (fun c => match c with | ⟨0, _⟩ => rfl | ⟨1, _⟩ => rfl)).trans rfl

theorem row1_eq (b : Vec Ideal S1024 .f32) (h : S1024.ShapeCasts S1x1024) :
    shapeCast S1x1024 b h = Cert.Spec.row1 b := by
  funext i
  obtain ⟨u, e, rfl⟩ : ∃ (u : Fin 1) (e : Fin 1024), i = ix2 u e := ⟨i 0, i 1, eq_ix2 i⟩
  refine (shapeCast_apply b h (ix2 u e) (ix1 e) ?_).trans rfl
  have hu : u.val = 0 := by omega
  rewrite [Shape.rowMajor_val_one, Shape.rowMajor_val_two]
  show e.val = u.val * 1024 + e.val
  omega

theorem heads_eq (Y : Vec Ideal S8192x1024 .f32) (h1 : S8192x1024.ShapeCasts S4x2048x16x64)
    (h2 : S4x2048x16x64.Transposes [0, 2, 1, 3] S4x16x2048x64) (h3 : S4x16x2048x64.ShapeCasts S64x2048x64) :
    shapeCast S64x2048x64 (transpose S4x16x2048x64 [0, 2, 1, 3] (shapeCast S4x2048x16x64 Y h1) h2) h3 = Cert.Spec.heads Y := by
  funext i
  obtain ⟨g, q, d, rfl⟩ : ∃ (g : Fin 64) (q : Fin 2048) (d : Fin 64), i = ix3 g q d := ⟨i 0, i 1, i 2, eq_ix3 i⟩
  refine (shapeCast_apply _ h3 (ix3 g q d)
    (ix4 (⟨g.val / 16, by omega⟩ : Fin 4) (⟨g.val % 16, by omega⟩ : Fin 16) q d) ?_).trans ?_
  · rewrite [Shape.rowMajor_val_four, Shape.rowMajor_val_three]
    show ((g.val / 16 * 16 + g.val % 16) * 2048 + q.val) * 64 + d.val = (g.val * 2048 + q.val) * 64 + d.val
    omega
  refine (transpose_apply [0, 2, 1, 3] _ h2 _
    (ix4 (⟨g.val / 16, by omega⟩ : Fin 4) q (⟨g.val % 16, by omega⟩ : Fin 16) d)
    (fun c => match c with | ⟨0, _⟩ => rfl | ⟨1, _⟩ => rfl | ⟨2, _⟩ => rfl | ⟨3, _⟩ => rfl)).trans ?_
  refine (shapeCast_apply Y h1 _
    (ix2 (⟨(g.val / 16) * 2048 + q.val, by omega⟩ : Fin 8192) (⟨(g.val % 16) * 64 + d.val, by omega⟩ : Fin 1024)) ?_).trans rfl
  rewrite [Shape.rowMajor_val_two, Shape.rowMajor_val_four]
  show ((g.val / 16) * 2048 + q.val) * 1024 + ((g.val % 16) * 64 + d.val)
    = ((g.val / 16 * 2048 + q.val) * 16 + g.val % 16) * 64 + d.val
  omega

theorem unheads_eq (O : Vec Ideal S64x2048x64 .f32) (h1 : S64x2048x64.ShapeCasts S4x16x2048x64)
    (h2 : S4x16x2048x64.Transposes [0, 2, 1, 3] S4x2048x16x64) (h3 : S4x2048x16x64.ShapeCasts S8192x1024) :
    shapeCast S8192x1024 (transpose S4x2048x16x64 [0, 2, 1, 3] (shapeCast S4x16x2048x64 O h1) h2) h3 = Cert.Spec.unheads O := by
  funext i
  obtain ⟨r, e, rfl⟩ : ∃ (r : Fin 8192) (e : Fin 1024), i = ix2 r e := ⟨i 0, i 1, eq_ix2 i⟩
  refine (shapeCast_apply _ h3 (ix2 r e)
    (ix4 (⟨r.val / 2048, by omega⟩ : Fin 4) (⟨r.val % 2048, by omega⟩ : Fin 2048) (⟨e.val / 64, by omega⟩ : Fin 16)
      (⟨e.val % 64, by omega⟩ : Fin 64)) ?_).trans ?_
  · rewrite [Shape.rowMajor_val_four, Shape.rowMajor_val_two]
    show ((r.val / 2048 * 2048 + r.val % 2048) * 16 + e.val / 64) * 64 + e.val % 64 = r.val * 1024 + e.val
    omega
  refine (transpose_apply [0, 2, 1, 3] _ h2 _
    (ix4 (⟨r.val / 2048, by omega⟩ : Fin 4) (⟨e.val / 64, by omega⟩ : Fin 16) (⟨r.val % 2048, by omega⟩ : Fin 2048)
      (⟨e.val % 64, by omega⟩ : Fin 64))
    (fun c => match c with | ⟨0, _⟩ => rfl | ⟨1, _⟩ => rfl | ⟨2, _⟩ => rfl | ⟨3, _⟩ => rfl)).trans ?_
  refine (shapeCast_apply O h1 _
    (ix3 (⟨(r.val / 2048) * 16 + e.val / 64, by omega⟩ : Fin 64) (⟨r.val % 2048, by omega⟩ : Fin 2048)
      (⟨e.val % 64, by omega⟩ : Fin 64)) ?_).trans rfl
  rewrite [Shape.rowMajor_val_three, Shape.rowMajor_val_four]
  show (((r.val / 2048) * 16 + e.val / 64) * 2048 + r.val % 2048) * 64 + e.val % 64
    = ((r.val / 2048 * 16 + e.val / 64) * 2048 + r.val % 2048) * 64 + e.val % 64
  rfl

end Cert.KernelIdeal.Layout

end
-- ==== Proof.Bridge.lean ====
/-
  The kernel's result as one function of the argument arrays. Region by region: each projection region leaves the linear
  layer of what its three input arrays held, which the host operations made from the argument arrays (the flattened
  activations, the transposed weight, the bias row); the attention region leaves the sigmoid attention of the heads of the
  three projections; the output projection the linear layer of the merged heads; the last reshape gives the result array:
  `Cert.Spec.G` of the eleven argument arrays. With the run of @main this is the kernel's side of the value claim.
-/
import proofs.«143932_j22789096473378_1_alg».proof.Proof.HostReads
import proofs.«143932_j22789096473378_1_alg».proof.Proof.FrameArgs
import proofs.«143932_j22789096473378_1_alg».proof.Proof.LinVal0
import proofs.«143932_j22789096473378_1_alg».proof.Proof.LinVal1
import proofs.«143932_j22789096473378_1_alg».proof.Proof.LinVal2
import proofs.«143932_j22789096473378_1_alg».proof.Proof.LinVal4
import proofs.«143932_j22789096473378_1_alg».proof.Proof.AttnVal2
import proofs.«143932_j22789096473378_1_alg».proof.Proof.Layout

set_option maxRecDepth 16384

noncomputable section

namespace Cert.KernelIdeal.Run

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- The query projection, as region 0 leaves it. -/
theorem val5 (c : Dev nD) : W2 m ρ c (Proc.devRef .tc main_v5) = (Cert.Spec.linArr (Cert.Spec.rowsOf (m ((c : Thread nD τ).loc main_arg0))) (Cert.Spec.tr (m ((c : Thread nD τ).loc main_arg3))) (Cert.Spec.row1 (m ((c : Thread nD τ).loc main_arg4)))) := by
  refine (W2_arr m ρ c 3).trans ((Lin0.arrAt_eq (Vr1 m ρ) c).trans ?_)
  show Cert.Spec.linArr (W1 m ρ c main_v0) (W1 m ρ c main_v3) (W1 m ρ c main_v4) = _
  rw [W1_v0, W1_v3, W1_v4, Layout.rows_eq, Layout.tr_eq, Layout.row1_eq]

/-- The key projection, as region 1 leaves it. -/
theorem val8 (c : Dev nD) : W4 m ρ c (Proc.devRef .tc main_v8) = (Cert.Spec.linArr (Cert.Spec.rowsOf (m ((c : Thread nD τ).loc main_arg1))) (Cert.Spec.tr (m ((c : Thread nD τ).loc main_arg5))) (Cert.Spec.row1 (m ((c : Thread nD τ).loc main_arg6)))) := by
  refine (W4_arr m ρ c 3).trans ((Lin1.arrAt_eq (Vr3 m ρ) c).trans ?_)
  show Cert.Spec.linArr (W3 m ρ c main_v1) (W3 m ρ c main_v6) (W3 m ρ c main_v7) = _
  rw [W3_v1, W1_v1, W3_v6, W3_v7, W2_arg m ρ c main_arg5 (by decide) (by decide), W2_arg m ρ c main_arg6 (by decide) (by decide),
    Layout.rows_eq, Layout.tr_eq, Layout.row1_eq]

/-- The value projection, as region 2 leaves it. -/
theorem val11 (c : Dev nD) : W6 m ρ c (Proc.devRef .tc main_v11) = (Cert.Spec.linArr (Cert.Spec.rowsOf (m ((c : Thread nD τ).loc main_arg2))) (Cert.Spec.tr (m ((c : Thread nD τ).loc main_arg7))) (Cert.Spec.row1 (m ((c : Thread nD τ).loc main_arg8)))) := by
  refine (W6_arr m ρ c 3).trans ((Lin2.arrAt_eq (Vr5 m ρ) c).trans ?_)
  show Cert.Spec.linArr (W5 m ρ c main_v2) (W5 m ρ c main_v9) (W5 m ρ c main_v10) = _
  rw [W5_v2, W1_v2, W5_v9, W5_v10, W4_arg m ρ c main_arg7 (by decide) (by decide) (by decide) (by decide), W4_arg m ρ c main_arg8 (by decide) (by decide) (by decide) (by decide),
    Layout.rows_eq, Layout.tr_eq, Layout.row1_eq]

/-- The attention of the three projections' heads, as region 3 leaves it. -/
theorem val21 (c : Dev nD) : W8 m ρ c (Proc.devRef .tc main_v21) = (Cert.Spec.attnArr (Cert.Spec.heads (Cert.Spec.linArr (Cert.Spec.rowsOf (m ((c : Thread nD τ).loc main_arg0))) (Cert.Spec.tr (m ((c : Thread nD τ).loc main_arg3))) (Cert.Spec.row1 (m ((c : Thread nD τ).loc main_arg4))))) (Cert.Spec.heads (Cert.Spec.linArr (Cert.Spec.rowsOf (m ((c : Thread nD τ).loc main_arg1))) (Cert.Spec.tr (m ((c : Thread nD τ).loc main_arg5))) (Cert.Spec.row1 (m ((c : Thread nD τ).loc main_arg6))))) (Cert.Spec.heads (Cert.Spec.linArr (Cert.Spec.rowsOf (m ((c : Thread nD τ).loc main_arg2))) (Cert.Spec.tr (m ((c : Thread nD τ).loc main_arg7))) (Cert.Spec.row1 (m ((c : Thread nD τ).loc main_arg8)))))) := by
  refine (W8_arr m ρ c 3).trans ((Attn3.arrAt_eq (Vr7 m ρ) c).trans ?_)
  show Cert.Spec.attnArr (W7 m ρ c main_v14) (W7 m ρ c main_v17) (W7 m ρ c main_v20) = _
  rw [W7_v14, W7_v17, W7_v20, Layout.heads_eq, Layout.heads_eq, Layout.heads_eq, W6_v5, W6_v8, val5, val8, val11]

/-- The output projection of the merged heads, as region 4 leaves it. -/
theorem val27 (c : Dev nD) : W10 m ρ c (Proc.devRef .tc main_v27) = (Cert.Spec.linArr (Cert.Spec.unheads (Cert.Spec.attnArr (Cert.Spec.heads (Cert.Spec.linArr (Cert.Spec.rowsOf (m ((c : Thread nD τ).loc main_arg0))) (Cert.Spec.tr (m ((c : Thread nD τ).loc main_arg3))) (Cert.Spec.row1 (m ((c : Thread nD τ).loc main_arg4))))) (Cert.Spec.heads (Cert.Spec.linArr (Cert.Spec.rowsOf (m ((c : Thread nD τ).loc main_arg1))) (Cert.Spec.tr (m ((c : Thread nD τ).loc main_arg5))) (Cert.Spec.row1 (m ((c : Thread nD τ).loc main_arg6))))) (Cert.Spec.heads (Cert.Spec.linArr (Cert.Spec.rowsOf (m ((c : Thread nD τ).loc main_arg2))) (Cert.Spec.tr (m ((c : Thread nD τ).loc main_arg7))) (Cert.Spec.row1 (m ((c : Thread nD τ).loc main_arg8))))))) (Cert.Spec.tr (m ((c : Thread nD τ).loc main_arg9))) (Cert.Spec.row1 (m ((c : Thread nD τ).loc main_arg10)))) := by
  refine (W10_arr m ρ c 3).trans ((Lin4.arrAt_eq (Vr9 m ρ) c).trans ?_)
  show Cert.Spec.linArr (W9 m ρ c main_v24) (W9 m ρ c main_v25) (W9 m ρ c main_v26) = _
  rw [W9_v24, W9_v25, W9_v26, W8_arg m ρ c main_arg9 (by decide) (by decide) (by decide) (by decide) (by decide) (by decide) (by decide) (by decide), W8_arg m ρ c main_arg10 (by decide) (by decide) (by decide) (by decide) (by decide) (by decide) (by decide) (by decide),
    Layout.unheads_eq, Layout.tr_eq, Layout.row1_eq, val21]

/-- THE RESULT ARRAY when @main returns: the attention layer of the eleven argument arrays. -/
theorem val28 (c : Dev nD) : W11 m ρ c (Proc.devRef .tc main_v28)
    = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [W11_v28, Layout.unrows_eq, val27]
  rfl

/-- THE KERNEL'S RUN, read: every weakly fair execution of @main terminates, nothing faulting, with the result array at
    `Cert.Spec.G` of the argument arrays and the argument arrays as launched. -/
theorem run_value : θ_run defs (onTc (τ := τ) (main (F := Ideal))) ⟨m, fun _ => 0, ρ⟩ (fun r => ∀ c : Dev nD,
      r.2.mem ((c.tc : Thread nD τ).loc main_v28)
        = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v28 (by decide))).trans (val28 m ρ c),
    (h c _ (mem_uc main_arg0 (by decide))).trans (W11_arg0 m ρ c),
    (h c _ (mem_uc main_arg1 (by decide))).trans (W11_arg1 m ρ c),
    (h c _ (mem_uc main_arg2 (by decide))).trans (W11_arg2 m ρ c),
    (h c _ (mem_uc main_arg3 (by decide))).trans (W11_arg3 m ρ c),
    (h c _ (mem_uc main_arg4 (by decide))).trans (W11_arg4 m ρ c),
    (h c _ (mem_uc main_arg5 (by decide))).trans (W11_arg5 m ρ c),
    (h c _ (mem_uc main_arg6 (by decide))).trans (W11_arg6 m ρ c),
    (h c _ (mem_uc main_arg7 (by decide))).trans (W11_arg7 m ρ c),
    (h c _ (mem_uc main_arg8 (by decide))).trans (W11_arg8 m ρ c),
    (h c _ (mem_uc main_arg9 (by decide))).trans (W11_arg9 m ρ c),
    (h c _ (mem_uc main_arg10 (by decide))).trans (W11_arg10 m ρ c)⟩) (run_all m ρ)

end Cert.KernelIdeal.Run

end
-- ==== Proof.RefValueLin.lean ====
/-
  One projection of the reference (contraction with the weight, plus the broadcast bias), read at an index, is the linear
  layer of the specification on the flattened rows; the same stage in head form is the specification's heads of it.
-/
import proofs.«143932_j22789096473378_1_alg».proof.Proof.Gen.ReferenceIdeal.Read
import proofs.«143932_j22789096473378_1_alg».proof.Proof.Spec

noncomputable section

namespace Cert.RefValue

open Idealize.ShloMosaic Idealize.ShloMosaic.ValueIdx Cert.ReferenceIdeal Cert.ReferenceIdeal.Read

abbrev T3 := (⟨S4x2048x1024, .f32⟩ : BufTy).Contents (Elt Ideal)
abbrev T2 := (⟨S1024x1024, .f32⟩ : BufTy).Contents (Elt Ideal)
abbrev T1 := (⟨S1024, .f32⟩ : BufTy).Contents (Elt Ideal)

/-- The projection at an index whose row is `r` and column `e` is the linear layer at `(r, e)`. -/
theorem lin_eq (x : T3) (W : T2) (b : T1) (i : S4x2048x1024.Idx) (r : Fin 8192) (e : Fin 1024)
    (hr : r.val = (i 0).val * 2048 + (i 1).val) (he : e.val = (i 2).val) :
    val_main_v3 (F := Ideal) x W b i = Cert.Spec.linAt (Cert.Spec.rowsOf x) (Cert.Spec.tr W) (Cert.Spec.row1 b) r e := by
  have h0 : (i 0).val < 4 := (i 0).isLt
  have h1 : (i 1).val < 2048 := (i 1).isLt
  rw [val_main_v3_apply, val_main_v0_apply, val_main_v2_apply, val_main_v1_apply]
  simp only [Cert.Spec.linAt, Cert.Spec.rowsOf, Cert.Spec.rowsAt, Cert.Spec.tr, Cert.Spec.row1, Ideal.addf_def]
  congr 1
  · refine Finset.sum_congr rfl fun k _ => ?_
    congr 1
    · refine congrArg x (funext fun a => ?_)
      match a with
      | ⟨0, _⟩ => exact Fin.ext (by show (i 0).val = r.val / 2048; omega)
      | ⟨1, _⟩ => exact Fin.ext (by show (i 1).val = r.val % 2048; omega)
      | ⟨2, _⟩ => exact Fin.ext rfl
    · refine congrArg W (funext fun a => ?_)
      match a with
      | ⟨0, _⟩ => exact Fin.ext (by show (i 2).val = e.val; omega)
      | ⟨1, _⟩ => exact Fin.ext rfl
  · refine congrArg b (funext fun a => ?_)
    match a with
    | ⟨0, _⟩ => exact Fin.ext (by show (i 2).val = e.val; omega)

/-- The projection in head form, at an index of batch-head `g`, position `q`, head column `d`, is the heads of the linear layer. -/
theorem heads_eq (x : T3) (W : T2) (b : T1) (i : S4x16x2048x64.Idx) (g : Fin 64) (q : Fin 2048) (d : Fin 64)
    (hg : g.val = (i 0).val * 16 + (i 1).val) (hq : q.val = (i 2).val) (hd : d.val = (i 3).val) :
    val_main_v5 (F := Ideal) x W b i
      = Cert.Spec.headsAt (Cert.Spec.linArr (Cert.Spec.rowsOf x) (Cert.Spec.tr W) (Cert.Spec.row1 b)) g q d := by
  have h0 : (i 0).val < 4 := (i 0).isLt
  have h1 : (i 1).val < 16 := (i 1).isLt
  have h2 : (i 2).val < 2048 := (i 2).isLt
  have h3 : (i 3).val < 64 := (i 3).isLt
  rw [val_main_v5_apply, val_main_v4_apply]
  unfold Cert.Spec.headsAt Cert.Spec.linArr
  refine lin_eq x W b _ _ _ ?_ ?_
  · show (g.val / 16) * 2048 + q.val
      = ((((i 0).val * 2048 + (i 2).val) * 16 + (i 1).val) * 64 + (i 3).val) / 2097152 * 2048
        + ((((i 0).val * 2048 + (i 2).val) * 16 + (i 1).val) * 64 + (i 3).val) / 1024 % 2048
    omega
  · show (g.val % 16) * 64 + d.val = ((((i 0).val * 2048 + (i 2).val) * 16 + (i 1).val) * 64 + (i 3).val) % 1024
    omega

/-- The three projections are one function of their arguments. -/
theorem v11_eq_v5 (x : T3) (W : T2) (b : T1) : val_main_v11 (F := Ideal) x W b = val_main_v5 (F := Ideal) x W b := rfl
theorem v17_eq_v5 (x : T3) (W : T2) (b : T1) : val_main_v17 (F := Ideal) x W b = val_main_v5 (F := Ideal) x W b := rfl

end Cert.RefValue

end
-- ==== Proof.RefValueConsts.lean ====
/-
  The float constants the reference and the specification spell, as the extended reals their patterns denote: `1.0` is `1`,
  `64.0` is `64` with square root `8`, `0.125` is `1/8`; so dividing by the square root of `64.0` is multiplying by the
  specification's scale.
-/
import Idealize.ShloMosaic.PureOps.Ideal
import proofs.«143932_j22789096473378_1_alg».proof.Proof.Spec

noncomputable section

namespace Cert.RefValue

open Idealize.ShloMosaic

/-- `1.0` denotes `1`. -/
theorem ofBits_one : Ideal.ofBits .f32 0x3F800000#32 = 1 := by
  simp [Ideal.ofBits, Ideal.ieee, -EReal.coe_mul]; norm_num

/-- `64.0` denotes the real `64`. -/
theorem ofBits_64 : Ideal.ofBits .f32 0x42800000#32 = ((64 : ℝ) : EReal) := by
  simp [Ideal.ofBits, Ideal.ieee, -EReal.coe_mul]; norm_num

/-- `0.125` denotes the real `1/8`. -/
theorem c8_eq : Cert.Spec.c8 = ((1 / 8 : ℝ) : EReal) := by
  unfold Cert.Spec.c8
  simp [Ideal.ofBits, Ideal.ieee, -EReal.coe_mul]; norm_num

/-- The square root of `64.0` is `8`. -/
theorem sqrt_64 : Ideal.sqrt (Ideal.ofBits .f32 0x42800000#32) = ((8 : ℝ) : EReal) := by
  rw [ofBits_64, Ideal.sqrt_coe, if_neg (by norm_num)]
  congr 1
  rw [show (64 : ℝ) = 8 ^ 2 by norm_num]
  exact Real.sqrt_sq (by norm_num)

/-- Dividing any extended real by the square root of `64.0` is multiplying it by the scale `1/8`. -/
theorem div_sqrt_64 (x : EReal) : Ideal.div x (Ideal.sqrt (Ideal.ofBits .f32 0x42800000#32)) = x * Cert.Spec.c8 := by
  rw [sqrt_64, c8_eq]
  exact Ideal.div_coe (by norm_num) x

end Cert.RefValue

end
-- ==== Proof.RefValueAttn.lean ====
/-
  The reference's attention between the projections, read at an index: the weights are the logistic of the scaled scores,
  the context is their sum against the values over all keys, and the context merged back to rows is the specification's
  attention of the heads of the three linear layers, merged.
-/
import proofs.«143932_j22789096473378_1_alg».proof.Proof.RefValueLin
import proofs.«143932_j22789096473378_1_alg».proof.Proof.RefValueConsts

noncomputable section

namespace Cert.RefValue

open Idealize.ShloMosaic Idealize.ShloMosaic.ValueIdx Cert.ReferenceIdeal Cert.ReferenceIdeal.Read

/-- The three linear layers of the specification, as arrays on the flattened rows. -/
abbrev linOf (x : T3) (W : T2) (b : T1) := Cert.Spec.linArr (Cert.Spec.rowsOf x) (Cert.Spec.tr W) (Cert.Spec.row1 b)

/-- The weights: `1 / (1 + exp (-(score / sqrt 64)))` is the logistic of the score times the scale. -/
theorem weights_eq (x0 x1 : T3) (x3 : T2) (x4 : T1) (x5 : T2) (x6 : T1) (i : S4x16x2048x2048.Idx) :
    val_main_v27 (F := Ideal) x0 x1 x3 x4 x5 x6 i
      = Ideal.logistic ((∑ k : Fin 64, val_main_v5 (F := Ideal) x0 x3 x4 (lidx_main_v18 i k)
          * val_main_v11 (F := Ideal) x1 x5 x6 (ridx_main_v18 i k)) * Cert.Spec.c8) := by
  rw [val_main_v27_apply, val_main_v26_apply, val_main_cst_1_apply, val_main_v25_apply, val_main_v24_apply,
    val_main_cst_0_apply, val_main_v23_apply, val_main_v22_apply, val_main_v21_apply, val_main_v20_apply,
    val_main_v19_apply, val_main_cst_apply, val_main_v18_apply]
  simp only [Ideal.hostDivf_def, Ideal.hostUnary_exp_def, Ideal.hostUnary_sqrt_def, Ideal.hostNegf_def, Ideal.negf_def,
    Ideal.addf_def, Ideal.ofBits_def]
  rw [ofBits_one, div_sqrt_64]
  rfl

/-- The context at batch-head `g`, position `q`, head column `d` is the specification's attention of the heads. -/
theorem ctx_eq (x0 x1 x2 : T3) (x3 : T2) (x4 : T1) (x5 : T2) (x6 : T1) (x7 : T2) (x8 : T1)
    (i : S4x16x2048x64.Idx) (g : Fin 64) (q : Fin 2048) (d : Fin 64)
    (hg : g.val = (i 0).val * 16 + (i 1).val) (hq : q.val = (i 2).val) (hd : d.val = (i 3).val) :
    val_main_v28 (F := Ideal) x0 x1 x2 x3 x4 x5 x6 x7 x8 i
      = Cert.Spec.attnAt (Cert.Spec.heads (linOf x0 x3 x4)) (Cert.Spec.heads (linOf x1 x5 x6))
          (Cert.Spec.heads (linOf x2 x7 x8)) g q d := by
  rw [val_main_v28_apply]
  unfold Cert.Spec.attnAt
  refine Finset.sum_congr rfl fun j _ => ?_
  congr 1
  · rw [weights_eq, v11_eq_v5]
    congr 2
    refine Finset.sum_congr rfl fun dd _ => ?_
    congr 1
    · exact heads_eq x0 x3 x4 _ g q dd hg hq rfl
    · exact heads_eq x1 x5 x6 _ g j dd hg rfl rfl
  · rw [v17_eq_v5]
    exact heads_eq x2 x7 x8 _ g j d hg rfl hd

/-- The context merged back to rows, at an index of row `r` and column `k`, is the specification's merged attention. -/
theorem merged_eq (x0 x1 x2 : T3) (x3 : T2) (x4 : T1) (x5 : T2) (x6 : T1) (x7 : T2) (x8 : T1)
    (i : S4x2048x1024.Idx) (r : Fin 8192) (k : Fin 1024)
    (hr : r.val = (i 0).val * 2048 + (i 1).val) (hk : k.val = (i 2).val) :
    val_main_v30 (F := Ideal) x0 x1 x2 x3 x4 x5 x6 x7 x8 i
      = Cert.Spec.unheadsAt (Cert.Spec.attnArr (Cert.Spec.heads (linOf x0 x3 x4)) (Cert.Spec.heads (linOf x1 x5 x6))
          (Cert.Spec.heads (linOf x2 x7 x8))) r k := by
  have h0 : (i 0).val < 4 := (i 0).isLt
  have h1 : (i 1).val < 2048 := (i 1).isLt
  have h2 : (i 2).val < 1024 := (i 2).isLt
  rw [val_main_v30_apply, val_main_v29_apply]
  unfold Cert.Spec.unheadsAt Cert.Spec.attnArr
  refine ctx_eq x0 x1 x2 x3 x4 x5 x6 x7 x8 _ _ _ _ ?_ ?_ ?_
  · show (r.val / 2048) * 16 + k.val / 64
      = (((i 0).val * 2048 + (i 1).val) * 1024 + (i 2).val) / 2097152 * 16
        + (((i 0).val * 2048 + (i 1).val) * 1024 + (i 2).val) / 64 % 16
    omega
  · show r.val % 2048 = (((i 0).val * 2048 + (i 1).val) * 1024 + (i 2).val) / 1024 % 2048
    omega
  · show k.val % 64 = (((i 0).val * 2048 + (i 1).val) * 1024 + (i 2).val) % 64
    omega

end Cert.RefValue

end
-- ==== Proof.RefValue.lean ====
/-
  The reference's result, read one operation at a time at an index, is the attention layer's one function `Cert.Spec.G` of
  the argument arrays.
-/
import proofs.«143932_j22789096473378_1_alg».proof.Proof.Gen.ReferenceIdeal.Read
import proofs.«143932_j22789096473378_1_alg».proof.Proof.Spec
import proofs.«143932_j22789096473378_1_alg».proof.Proof.RefValueAttn

noncomputable section

namespace Cert.RefValue

open Idealize.ShloMosaic Idealize.ShloMosaic.ValueIdx Cert.ReferenceIdeal

/-- The output linear layer over any array `U` on rows that the merged context agrees with along the row of the index. -/
theorem out_eq (Y : T3) (U : Cert.Spec.R2.Idx → EReal) (W : T2) (b : T1) (i : Cert.ReferenceIdeal.S4x2048x1024.Idx) (r : Fin 8192) (e : Fin 1024)
    (he : e.val = (i 2).val) (hY : ∀ k : Fin 1024, Y (Read.lidx_main_v31 i k) = U (ix2 r k)) :
    (∑ k : Fin 1024, Y (Read.lidx_main_v31 i k) * W (Read.ridx_main_v31 i k)) + b (Read.idx_main_v32 (Read.idx_main_v33 i))
      = Cert.Spec.linAt U (Cert.Spec.tr W) (Cert.Spec.row1 b) r e := by
  simp only [Cert.Spec.linAt, Cert.Spec.tr, Cert.Spec.row1]
  congr 1
  · refine Finset.sum_congr rfl fun k _ => ?_
    congr 1
    · exact hY k
    · refine congrArg W (funext fun a => ?_)
      match a with
      | ⟨0, _⟩ => exact Fin.ext (by show (i 2).val = e.val; omega)
      | ⟨1, _⟩ => exact Fin.ext rfl
  · refine congrArg b (funext fun a => ?_)
    match a with
    | ⟨0, _⟩ => exact Fin.ext (by show (i 2).val = e.val; omega)

/-- The reference's result array is `Cert.Spec.G` of the arguments, index by index. -/
theorem ref_eq (x0 x1 x2 : (⟨Cert.ReferenceIdeal.S4x2048x1024, .f32⟩ : BufTy).Contents (Elt Ideal)) (x3 : (⟨Cert.ReferenceIdeal.S1024x1024, .f32⟩ : BufTy).Contents (Elt Ideal)) (x4 : (⟨Cert.ReferenceIdeal.S1024, .f32⟩ : BufTy).Contents (Elt Ideal)) (x5 : (⟨Cert.ReferenceIdeal.S1024x1024, .f32⟩ : BufTy).Contents (Elt Ideal)) (x6 : (⟨Cert.ReferenceIdeal.S1024, .f32⟩ : BufTy).Contents (Elt Ideal))
    (x7 : (⟨Cert.ReferenceIdeal.S1024x1024, .f32⟩ : BufTy).Contents (Elt Ideal)) (x8 : (⟨Cert.ReferenceIdeal.S1024, .f32⟩ : BufTy).Contents (Elt Ideal)) (x9 : (⟨Cert.ReferenceIdeal.S1024x1024, .f32⟩ : BufTy).Contents (Elt Ideal)) (x10 : (⟨Cert.ReferenceIdeal.S1024, .f32⟩ : BufTy).Contents (Elt Ideal)) :
    Cert.ReferenceIdeal.Read.val_main_v34 (F := Ideal) x0 x1 x2 x3 x4 x5 x6 x7 x8 x9 x10 = Cert.Spec.G x0 x1 x2 x3 x4 x5 x6 x7 x8 x9 x10 := by
  funext i
  rw [Read.val_main_v34_apply, Read.val_main_v31_apply, Read.val_main_v33_apply, Read.val_main_v32_apply]
  simp only [Ideal.addf_def]
  exact out_eq _ _ x9 x10 i ⟨(i 0).val * 2048 + (i 1).val, by have h0 : (i 0).val < 4 := (i 0).isLt; have h1 : (i 1).val < 2048 := (i 1).isLt; omega⟩ (i 2) rfl
    (fun k => merged_eq x0 x1 x2 x3 x4 x5 x6 x7 x8 _ _ k rfl rfl)

end Cert.RefValue

end
-- ==== Proof.lean ====
/-
  The certificate's five claims for the sigmoid multi-head attention layer.
  * The three frames. The word-level kernel and its idealization are the same program text read at two instances: @main
    is eleven segments, six stretches of host layout operations around five kernel regions (three input projections, the
    attention kernel with its scratch accumulator carried over the four key blocks of a batch-head, the output projection);
    each region's body is run symbolically once per control case and handed to the pipeline library as its body obligation,
    and the library's theorem for a program of several regions runs the segments (`Run.frame`, generic in the instance). The reference is a host program; its
    frame is its generated run with the result dropped.
  * `preserves`: the ideal pass rewrote nothing, so the conjunct is `True`.
  * `algebraic`: at the extended reals both programs end with the result array at ONE function `Cert.Spec.G` of the
    eleven argument arrays. Kernel side: each region's output array is the linear layer, or the sigmoid attention summed
    over the four key blocks, of its input arrays (`Run.run_value`). Reference side: the generated run read one operation
    at a time (`Cert.RefValue.ref_eq`): the quotient by `sqrt 64` is the product with `1/8` on every extended real, and
    `1 / (1 + exp (−x))` is the logistic function by definition. No finiteness of the inputs is used: the two sides are
    the same sums, grouped differently only in the order of the key blocks, and addition of extended reals is
    associative and commutative.
-/
import proofs.«143932_j22789096473378_1_alg».proof.Defs
import proofs.«143932_j22789096473378_1_alg».proof.Proof.Gen.Kernel
import proofs.«143932_j22789096473378_1_alg».proof.Proof.Gen.KernelIdeal
import proofs.«143932_j22789096473378_1_alg».proof.Proof.Gen.ReferenceIdeal
import proofs.«143932_j22789096473378_1_alg».proof.Proof.Gen.Pre_finite_inputs
import proofs.«143932_j22789096473378_1_alg».proof.Proof.KFrameArgs
import proofs.«143932_j22789096473378_1_alg».proof.Proof.Bridge
import proofs.«143932_j22789096473378_1_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Run.frame m ρ

theorem frame_ki : Cert.frame_KernelIdeal (hKernelIdeal := Cert.KernelIdeal.Gen.facts) (hPre_finite_inputs := Cert.Pre_finite_inputs.Gen.facts) :=
  fun m ρ _ => Cert.KernelIdeal.Run.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- Both idealized programs, from memories agreeing on the arguments, end with the result array at `Cert.Spec.G` of the
    arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Run.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v34_eq, Cert.RefValue.ref_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
